-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x2048 : Shape := ⟨3, ![4, 8192, 2048]⟩
abbrev S4x24x128 : Shape := ⟨3, ![4, 24, 128]⟩
abbrev S128x2048 : Shape := ⟨2, ![128, 2048]⟩
abbrev S2048x128 : Shape := ⟨2, ![2048, 128]⟩
abbrev S1x2048 : Shape := ⟨2, ![1, 2048]⟩
abbrev S1 : Shape := ⟨1, ![1]⟩
abbrev S_ : Shape := ⟨0, ![]⟩

class Facts : Prop where
  bcast_S_S4x8192x2048 : S_.BroadcastsInDim S4x8192x2048 (![] : Fin 0 → Fin S4x8192x2048.rank)
  reducesTo_S4x8192x2048_S_d0_1_2 : S4x8192x2048.ReducesTo [0, 1, 2] S_
  h_S_ : 0 < S_.numel
  bcast_S_S4x24x128 : S_.BroadcastsInDim S4x24x128 (![] : Fin 0 → Fin S4x24x128.rank)
  reducesTo_S4x24x128_S_d0_1_2 : S4x24x128.ReducesTo [0, 1, 2] S_
  bcast_S_S128x2048 : S_.BroadcastsInDim S128x2048 (![] : Fin 0 → Fin S128x2048.rank)
  reducesTo_S128x2048_S_d0_1 : S128x2048.ReducesTo [0, 1] S_
  bcast_S_S2048x128 : S_.BroadcastsInDim S2048x128 (![] : Fin 0 → Fin S2048x128.rank)
  reducesTo_S2048x128_S_d0_1 : S2048x128.ReducesTo [0, 1] S_
  bcast_S_S1x2048 : S_.BroadcastsInDim S1x2048 (![] : Fin 0 → Fin S1x2048.rank)
  reducesTo_S1x2048_S_d0_1 : S1x2048.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S2048x128 .f32) (main_arg5 : FVec F S1x2048 .f32) (main_arg6 : FVec F S1 .f32) (main_v13 : IVec S_ 1) (main_v16 : IVec S128x2048 1) : IVec S_ 1 :=
  let main_c_5 : IVec S_ 1 := constantI S_ 1 1#1
  let main_v17 : IVec S_ 1 := (fun x v => Host.reduce IntOp.andi x v reducesTo_S128x2048_S_d0_1 h_S_) main_v16 main_c_5
  let main_v18 : IVec S_ 1 := andi main_v13 main_v17
  let main_v19 : FVec F S2048x128 .f32 := Host.absf main_arg4
  let main_cst_6 : FVec F S_ .f32 := constant S_ .f32 0x7F800000#32
  let main_v20 : FVec F S2048x128 .f32 := broadcastInDim S2048x128 ![] bcast_S_S2048x128 main_cst_6
  let main_v21 : IVec S2048x128 1 := cmpf .olt main_v19 main_v20
  let main_c_7 : IVec S_ 1 := constantI S_ 1 1#1
  let main_v22 : IVec S_ 1 := (fun x v => Host.reduce IntOp.andi x v reducesTo_S2048x128_S_d0_1 h_S_) main_v21 main_c_7
  let main_v23 : IVec S_ 1 := andi main_v18 main_v22
  let main_v24 : FVec F S1x2048 .f32 := Host.absf main_arg5
  let main_cst_8 : FVec F S_ .f32 := constant S_ .f32 0x7F800000#32
  let main_v25 : FVec F S1x2048 .f32 := broadcastInDim S1x2048 ![] bcast_S_S1x2048 main_cst_8
  let main_v26 : IVec S1x2048 1 := cmpf .olt main_v24 main_v25
  let main_c_9 : IVec S_ 1 := constantI S_ 1 1#1
  let main_v27 : IVec S_ 1 := (fun x v => Host.reduce IntOp.andi x v reducesTo_S1x2048_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S4x8192x2048 .f32) (main_arg1 : FVec F S4x24x128 .f32) (main_arg2 : FVec F S128x2048 .f32) (main_arg3 : FVec F S128x2048 .f32) (main_arg4 : FVec F S2048x128 .f32) (main_arg5 : FVec F S1x2048 .f32) (main_arg6 : FVec F S1 .f32) : IVec S_ 1 :=
  let main_v0 : FVec F S4x8192x2048 .f32 := Host.absf main_arg0
  let main_cst : FVec F S_ .f32 := constant S_ .f32 0x7F800000#32
  let main_v1 : FVec F S4x8192x2048 .f32 := broadcastInDim S4x8192x2048 ![] bcast_S_S4x8192x2048 main_cst
  let main_v2 : IVec S4x8192x2048 1 := cmpf .olt main_v0 main_v1
  let main_c : IVec S_ 1 := constantI S_ 1 1#1
  let main_v3 : IVec S_ 1 := (fun x v => Host.reduce IntOp.andi x v reducesTo_S4x8192x2048_S_d0_1_2 h_S_) main_v2 main_c
  let main_v4 : FVec F S4x24x128 .f32 := Host.absf main_arg1
  let main_cst_0 : FVec F S_ .f32 := constant S_ .f32 0x7F800000#32
  let main_v5 : FVec F S4x24x128 .f32 := broadcastInDim S4x24x128 ![] bcast_S_S4x24x128 main_cst_0
  let main_v6 : IVec S4x24x128 1 := cmpf .olt main_v4 main_v5
  let main_c_1 : IVec S_ 1 := constantI S_ 1 1#1
  let main_v7 : IVec S_ 1 := (fun x v => Host.reduce IntOp.andi x v reducesTo_S4x24x128_S_d0_1_2 h_S_) main_v6 main_c_1
  let main_v8 : IVec S_ 1 := andi main_v3 main_v7
  let main_v9 : FVec F S128x2048 .f32 := Host.absf main_arg2
  let main_cst_2 : FVec F S_ .f32 := constant S_ .f32 0x7F800000#32
  let main_v10 : FVec F S128x2048 .f32 := broadcastInDim S128x2048 ![] bcast_S_S128x2048 main_cst_2
  let main_v11 : IVec S128x2048 1 := cmpf .olt main_v9 main_v10
  let main_c_3 : IVec S_ 1 := constantI S_ 1 1#1
  let main_v12 : IVec S_ 1 := (fun x v => Host.reduce IntOp.andi x v reducesTo_S128x2048_S_d0_1 h_S_) main_v11 main_c_3
  let main_v13 : IVec S_ 1 := andi main_v8 main_v12
  let main_v14 : FVec F S128x2048 .f32 := Host.absf main_arg3
  let main_cst_4 : FVec F S_ .f32 := constant S_ .f32 0x7F800000#32
  let main_v15 : FVec F S128x2048 .f32 := broadcastInDim S128x2048 ![] bcast_S_S128x2048 main_cst_4
  let main_v16 : IVec S128x2048 1 := cmpf .olt main_v14 main_v15
  fn_part1 (F := F) main_arg4 main_arg5 main_arg6 main_v13 main_v16
-- ==== Kernel.lean ====
abbrev S4x8192x2048 : Shape := ⟨3, ![4, 8192, 2048]⟩
abbrev S4x24x128 : Shape := ⟨3, ![4, 24, 128]⟩
abbrev S128x2048 : Shape := ⟨2, ![128, 2048]⟩
abbrev S2048x128 : Shape := ⟨2, ![2048, 128]⟩
abbrev S1x2048 : Shape := ⟨2, ![1, 2048]⟩
abbrev S1 : Shape := ⟨1, ![1]⟩
abbrev S4x1x128 : Shape := ⟨3, ![4, 1, 128]⟩
abbrev S1x1024x2048 : Shape := ⟨3, ![1, 1024, 2048]⟩
abbrev S1x1x128 : Shape := ⟨3, ![1, 1, 128]⟩
abbrev S1x1 : Shape := ⟨2, ![1, 1]⟩
abbrev S1024x2048 : Shape := ⟨2, ![1024, 2048]⟩
abbrev S1024 : Shape := ⟨1, ![1024]⟩
abbrev S1024x1 : Shape := ⟨2, ![1024, 1]⟩
abbrev S2048 : Shape := ⟨1, ![2048]⟩
abbrev S1x128 : Shape := ⟨2, ![1, 128]⟩
abbrev S4x128 : Shape := ⟨2, ![4, 128]⟩
abbrev S4x25x128 : Shape := ⟨3, ![4, 25, 128]⟩
abbrev S_ : Shape := ⟨0, ![]⟩
abbrev S1x25x128 : Shape := ⟨3, ![1, 25, 128]⟩
abbrev S1024x128 : Shape := ⟨2, ![1024, 128]⟩
abbrev S25x128 : Shape := ⟨2, ![25, 128]⟩
abbrev S1024x25 : Shape := ⟨2, ![1024, 25]⟩

abbrev nBuf : Space → Nat
  | .hbm => 30
  | .vmem => 16
  | .smem => 0
  | _ => 0

abbrev bufTy : (tb : Table) → Fin (tcTables nBuf tb) → BufTy
  | .hbm, ⟨0, _⟩ => ⟨S4x8192x2048, .f32⟩
  | .hbm, ⟨1, _⟩ => ⟨S4x24x128, .f32⟩
  | .hbm, ⟨2, _⟩ => ⟨S128x2048, .f32⟩
  | .hbm, ⟨3, _⟩ => ⟨S128x2048, .f32⟩
  | .hbm, ⟨4, _⟩ => ⟨S2048x128, .f32⟩
  | .hbm, ⟨5, _⟩ => ⟨S1x2048, .f32⟩
  | .hbm, ⟨6, _⟩ => ⟨S1, .f32⟩
  | .hbm, ⟨7, _⟩ => ⟨S2048x128, .f32⟩
  | .hbm, ⟨8, _⟩ => ⟨S4x1x128, .f32⟩
  | .hbm, ⟨9, _⟩ => ⟨S4x128, .f32⟩
  | .hbm, ⟨10, _⟩ => ⟨S4x1x128, .f32⟩
  | .hbm, ⟨11, _⟩ => ⟨S4x25x128, .f32⟩
  | .hbm, ⟨12, _⟩ => ⟨S2048x128, .f32⟩
  | .hbm, ⟨13, _⟩ => ⟨S2048x128, .bf16⟩
  | .hbm, ⟨14, _⟩ => ⟨S1, .f32⟩
  | .hbm, ⟨15, _⟩ => ⟨S1, .f32⟩
  | .hbm, ⟨16, _⟩ => ⟨S_, .f32⟩
  | .hbm, ⟨17, _⟩ => ⟨S1, .f32⟩
  | .hbm, ⟨18, _⟩ => ⟨S1, .f32⟩
  | .hbm, ⟨19, _⟩ => ⟨S_, .f32⟩
  | .hbm, ⟨20, _⟩ => ⟨S1, .f32⟩
  | .hbm, ⟨21, _⟩ => ⟨S1, .f32⟩
  | .hbm, ⟨22, _⟩ => ⟨S_, .f32⟩
  | .hbm, ⟨23, _⟩ => ⟨S2048x128, .f32⟩
  | .hbm, ⟨24, _⟩ => ⟨S2048x128, .f32⟩
  | .hbm, ⟨25, _⟩ => ⟨S128x2048, .f32⟩
  | .hbm, ⟨26, _⟩ => ⟨S128x2048, .bf16⟩
  | .hbm, ⟨27, _⟩ => ⟨S4x8192x2048, .f32⟩
  | .hbm, ⟨28, _⟩ => ⟨S4x1x128, .f32⟩
  | .hbm, ⟨29, _⟩ => ⟨S4x25x128, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S2048x128, .f32⟩
  | .local _ .vmem, ⟨4, _⟩ => ⟨S1x1x128, .f32⟩
  | .local _ .vmem, ⟨5, _⟩ => ⟨S1x1x128, .f32⟩
  | .local _ .vmem, ⟨6, _⟩ => ⟨S1x2048, .f32⟩
  | .local _ .vmem, ⟨7, _⟩ => ⟨S1x1, .f32⟩
  | .local _ .vmem, ⟨8, _⟩ => ⟨S1x1024x2048, .f32⟩
  | .local _ .vmem, ⟨9, _⟩ => ⟨S1x1024x2048, .f32⟩
  | .local _ .vmem, ⟨10, _⟩ => ⟨S2048x128, .bf16⟩
  | .local _ .vmem, ⟨11, _⟩ => ⟨S1x25x128, .f32⟩
  | .local _ .vmem, ⟨12, _⟩ => ⟨S1x25x128, .f32⟩
  | .local _ .vmem, ⟨13, _⟩ => ⟨S128x2048, .bf16⟩
  | .local _ .vmem, ⟨14, _⟩ => ⟨S1x1024x2048, .f32⟩
  | .local _ .vmem, ⟨15, _⟩ => ⟨S1x1024x2048, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_15 : BitVec 32 := 0#32
  let v29 : BitVec 1 := Scalar.cmpi .ne v28 c0_i32_15
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S2048x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x25x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S128x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1024x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  transposes_S128x2048_S2048x128_1_0 : S128x2048.Transposes [1, 0] S2048x128
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  broadcasts_S1x2048_S1024x2048 : S1x2048.Broadcasts S1024x2048
  reduces_S1024x2048_S1024 : S1024x2048.Reduces [1] S1024
  shapeCasts_S1024_S1024x1 : S1024.ShapeCasts S1024x1
  broadcasts_S1024x1_S1024x2048 : S1024x1.Broadcasts S1024x2048
  reduces_S1024x2048_S2048 : S1024x2048.Reduces [0] S2048
  shapeCasts_S2048_S1x2048 : S2048.ShapeCasts S1x2048
  reduces_S1024x1_S1 : S1024x1.Reduces [0] S1
  shapeCasts_S1_S1x1 : S1.ShapeCasts S1x1
  broadcasts_S1x1_S1x2048 : S1x1.Broadcasts S1x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  reduces_S1x128_S1 : S1x128.Reduces [1] S1
  broadcasts_S1x1_S1x128 : S1x1.Broadcasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  shapeCasts_S4x1x128_S4x128 : S4x1x128.ShapeCasts S4x128
  bcast_S4x128_S4x1x128_0_2 : S4x128.BroadcastsInDim S4x1x128 (![0, 2] : Fin 2 → Fin S4x1x128.rank)
  concatenates_S4x1x128_S4x24x128_S4x25x128_d1 : Shape.Concatenates [S4x1x128, S4x24x128] S4x25x128 1
  bitsLt_bf16_f32 : FTy.bits .bf16 < FTy.bits .f32
  bcast_S_S1 : S_.BroadcastsInDim S1 (![] : Fin 0 → Fin S1.rank)
  shapeCasts_S1_S_ : S1.ShapeCasts S_
  bcast_S_S2048x128 : S_.BroadcastsInDim S2048x128 (![] : Fin 0 → Fin S2048x128.rank)
  transposes_S2048x128_S128x2048_1_0 : S2048x128.Transposes [1, 0] S128x2048
  inb_S1x25x128_S1x25x128_0_0_0 : ∀ a, (![0, 0, 0] : Fin 3 → Nat) a + S1x25x128.size a ≤ S1x25x128.size a
  h_S1x25x128 : 0 < S1x25x128.numel
  shapeCasts_S1x25x128_S25x128 : S1x25x128.ShapeCasts S25x128
  reduces_S1024x25_S1024 : S1024x25.Reduces [1] S1024
  broadcasts_S1024x1_S1024x25 : S1024x1.Broadcasts S1024x25
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  shapeCasts_S1024x2048_S1x1024x2048 : S1024x2048.ShapeCasts S1x1024x2048
  concatenates_S4x24x128_S4x1x128_S4x25x128_d1 : Shape.Concatenates [S4x24x128, S4x1x128] S4x25x128 1
  dot_S1x2048_S2048x128_S1x128_1_0_0_1_n_n_wf : DotDims.WF S1x2048 S2048x128 S1x128 [1] [0] [0] [1] [] []
  dot_S1024x2048_S2048x128_S1024x128_1_0_0_1_n_n_wf : DotDims.WF S1024x2048 S2048x128 S1024x128 [1] [0] [0] [1] [] []
  dot_S1024x128_S25x128_S1024x25_1_1_0_0_n_n_wf : DotDims.WF S1024x128 S25x128 S1024x25 [1] [1] [0] [0] [] []
  dot_S1024x25_S25x128_S1024x128_1_0_0_1_n_n_wf : DotDims.WF S1024x25 S25x128 S1024x128 [1] [0] [0] [1] [] []
  dot_S1024x128_S128x2048_S1024x2048_1_0_0_1_n_n_wf : DotDims.WF S1024x128 S128x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S4x8192x2048.size a
  hwx0_0 : ∀ i : grid0.Coords, EltTy.bits .f32 = 32 ∨ (Rect.block (s := S4x8192x2048) S1x1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S2048x128.size a
  hwx0_2 : ∀ i : grid0.Coords, EltTy.bits .f32 = 32 ∨ (Rect.block (s := S2048x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S4x1x128.size a
  hwx0_3 : ∀ i : grid0.Coords, EltTy.bits .f32 = 32 ∨ (Rect.block (s := S4x1x128) S1x1x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x2048.size a ≤ S4x8192x2048.size a
  hwx1_0 : ∀ i : grid1.Coords, EltTy.bits .f32 = 32 ∨ (Rect.block (s := S4x8192x2048) S1x1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S2048x128.size a
  hwx1_1 : ∀ i : grid1.Coords, EltTy.bits .bf16 = 32 ∨ (Rect.block (s := S2048x128) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x25x128.size a ≤ S4x25x128.size a
  hwx1_2 : ∀ i : grid1.Coords, EltTy.bits .f32 = 32 ∨ (Rect.block (s := S4x25x128) S1x25x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x2048.size a ≤ S128x2048.size a
  hwx1_3 : ∀ i : grid1.Coords, EltTy.bits .bf16 = 32 ∨ (Rect.block (s := S128x2048) S128x2048.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x2048.size a ≤ S4x8192x2048.size a
  hwx1_4 : ∀ i : grid1.Coords, EltTy.bits .f32 = 32 ∨ (Rect.block (s := S4x8192x2048) S1x1024x2048.size (cc1_transform_4 i) (hinb1_4 i)).WholeWords (EltTy.packing .f32)

variable [Facts₀]

def dot_S1x2048_S2048x128_S1x128_1_0_0_1_n_n : DotDims S1x2048 S2048x128 S1x128 where
  lhsContracting := [1]
  rhsContracting := [0]
  lhsNonContracting := [0]
  rhsNonContracting := [1]
  lhsBatch := []
  rhsBatch := []
  wf := dot_S1x2048_S2048x128_S1x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S25x128_S1024x25_1_1_0_0_n_n : DotDims S1024x128 S25x128 S1024x25 where
  lhsContracting := [1]
  rhsContracting := [1]
  lhsNonContracting := [0]
  rhsNonContracting := [0]
  lhsBatch := []
  rhsBatch := []
  wf := dot_S1024x128_S25x128_S1024x25_1_1_0_0_n_n_wf
def dot_S1024x25_S25x128_S1024x128_1_0_0_1_n_n : DotDims S1024x25 S25x128 S1024x128 where
  lhsContracting := [1]
  rhsContracting := [0]
  lhsNonContracting := [0]
  rhsNonContracting := [1]
  lhsBatch := []
  rhsBatch := []
  wf := dot_S1024x25_S25x128_S1024x128_1_0_0_1_n_n_wf
def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf

abbrev win0_0 : Pipeline.Window sig grid0 :=
  Pipeline.Window.ofSpec (Memref.whole main_arg0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S1x1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S2048x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x25x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S128x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x1024x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x8192x2048 : Shape := ⟨3, ![4, 8192, 2048]⟩
abbrev S4x24x128 : Shape := ⟨3, ![4, 24, 128]⟩
abbrev S128x2048 : Shape := ⟨2, ![128, 2048]⟩
abbrev S2048x128 : Shape := ⟨2, ![2048, 128]⟩
abbrev S1x2048 : Shape := ⟨2, ![1, 2048]⟩
abbrev S1 : Shape := ⟨1, ![1]⟩
abbrev S4x8192x1 : Shape := ⟨3, ![4, 8192, 1]⟩
abbrev S_ : Shape := ⟨0, ![]⟩
abbrev S4x2048 : Shape := ⟨2, ![4, 2048]⟩
abbrev S4x1 : Shape := ⟨2, ![4, 1]⟩
abbrev S4x128 : Shape := ⟨2, ![4, 128]⟩
abbrev S4 : Shape := ⟨1, ![4]⟩
abbrev S4x8192x128 : Shape := ⟨3, ![4, 8192, 128]⟩
abbrev S4x1x128 : Shape := ⟨3, ![4, 1, 128]⟩
abbrev S4x25x128 : Shape := ⟨3, ![4, 25, 128]⟩
abbrev S4x8192x25 : Shape := ⟨3, ![4, 8192, 25]⟩
abbrev S4x8192 : Shape := ⟨2, ![4, 8192]⟩
abbrev S1x1x1 : Shape := ⟨3, ![1, 1, 1]⟩

abbrev nBuf : Space → Nat
  | .hbm => 76
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x24x128, .f32⟩
  | .hbm, ⟨2, _⟩ => ⟨S128x2048, .f32⟩
  | .hbm, ⟨3, _⟩ => ⟨S128x2048, .f32⟩
  | .hbm, ⟨4, _⟩ => ⟨S2048x128, .f32⟩
  | .hbm, ⟨5, _⟩ => ⟨S1x2048, .f32⟩
  | .hbm, ⟨6, _⟩ => ⟨S1, .f32⟩
  | .hbm, ⟨7, _⟩ => ⟨S4x8192x1, .f32⟩
  | .hbm, ⟨8, _⟩ => ⟨S4x8192x1, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x2048, .f32⟩
  | .hbm, ⟨17, _⟩ => ⟨S4x8192x2048, .f32⟩
  | .hbm, ⟨18, _⟩ => ⟨S_, .f32⟩
  | .hbm, ⟨19, _⟩ => ⟨S4x2048, .f32⟩
  | .hbm, ⟨20, _⟩ => ⟨S_, .f32⟩
  | .hbm, ⟨21, _⟩ => ⟨S4x1, .f32⟩
  | .hbm, ⟨22, _⟩ => ⟨S_, .f32⟩
  | .hbm, ⟨23, _⟩ => ⟨S4x1, .f32⟩
  | .hbm, ⟨24, _⟩ => ⟨S4x1, .f32⟩
  | .hbm, ⟨25, _⟩ => ⟨S4x2048, .f32⟩
  | .hbm, ⟨26, _⟩ => ⟨S4x2048, .f32⟩
  | .hbm, ⟨27, _⟩ => ⟨S2048x128, .f32⟩
  | .hbm, ⟨28, _⟩ => ⟨S4x128, .f32⟩
  | .hbm, ⟨29, _⟩ => ⟨S4x128, .f32⟩
  | .hbm, ⟨30, _⟩ => ⟨S_, .f32⟩
  | .hbm, ⟨31, _⟩ => ⟨S4, .f32⟩
  | .hbm, ⟨32, _⟩ => ⟨S4x1, .f32⟩
  | .hbm, ⟨33, _⟩ => ⟨S4x1, .f32⟩
  | .hbm, ⟨34, _⟩ => ⟨S_, .f32⟩
  | .hbm, ⟨35, _⟩ => ⟨S4x1, .f32⟩
  | .hbm, ⟨36, _⟩ => ⟨S4x1, .f32⟩
  | .hbm, ⟨37, _⟩ => ⟨S4x128, .f32⟩
  | .hbm, ⟨38, _⟩ => ⟨S4x128, .f32⟩
  | .hbm, ⟨39, _⟩ => ⟨S4x8192x128, .f32⟩
  | .hbm, ⟨40, _⟩ => ⟨S4x1x128, .f32⟩
  | .hbm, ⟨41, _⟩ => ⟨S4x25x128, .f32⟩
  | .hbm, ⟨42, _⟩ => ⟨S4x8192x25, .f32⟩
  | .hbm, ⟨43, _⟩ => ⟨S_, .f32⟩
  | .hbm, ⟨44, _⟩ => ⟨S4x8192x25, .f32⟩
  | .hbm, ⟨45, _⟩ => ⟨S4x8192x25, .f32⟩
  | .hbm, ⟨46, _⟩ => ⟨S_, .f32⟩
  | .hbm, ⟨47, _⟩ => ⟨S4x8192, .f32⟩
  | .hbm, ⟨48, _⟩ => ⟨S_, .f32⟩
  | .hbm, ⟨49, _⟩ => ⟨S4x8192, .f32⟩
  | .hbm, ⟨50, _⟩ => ⟨S4x8192, .f32⟩
  | .hbm, ⟨51, _⟩ => ⟨S4x8192x1, .f32⟩
  | .hbm, ⟨52, _⟩ => ⟨S4x8192x25, .f32⟩
  | .hbm, ⟨53, _⟩ => ⟨S4x8192x25, .f32⟩
  | .hbm, ⟨54, _⟩ => ⟨S4x8192x25, .f32⟩
  | .hbm, ⟨55, _⟩ => ⟨S_, .f32⟩
  | .hbm, ⟨56, _⟩ => ⟨S4x8192, .f32⟩
  | .hbm, ⟨57, _⟩ => ⟨S4x8192x1, .f32⟩
  | .hbm, ⟨58, _⟩ => ⟨S4x8192x25, .f32⟩
  | .hbm, ⟨59, _⟩ => ⟨S4x8192x25, .f32⟩
  | .hbm, ⟨60, _⟩ => ⟨S4x8192x128, .f32⟩
  | .hbm, ⟨61, _⟩ => ⟨S4x8192x2048, .f32⟩
  | .hbm, ⟨62, _⟩ => ⟨S1, .f32⟩
  | .hbm, ⟨63, _⟩ => ⟨S1, .f32⟩
  | .hbm, ⟨64, _⟩ => ⟨S_, .f32⟩
  | .hbm, ⟨65, _⟩ => ⟨S1, .f32⟩
  | .hbm, ⟨66, _⟩ => ⟨S1, .f32⟩
  | .hbm, ⟨67, _⟩ => ⟨S_, .f32⟩
  | .hbm, ⟨68, _⟩ => ⟨S1, .f32⟩
  | .hbm, ⟨69, _⟩ => ⟨S1, .f32⟩
  | .hbm, ⟨70, _⟩ => ⟨S1x1x1, .f32⟩
  | .hbm, ⟨71, _⟩ => ⟨S4x8192x2048, .f32⟩
  | .hbm, ⟨72, _⟩ => ⟨S4x8192x2048, .f32⟩
  | .hbm, ⟨73, _⟩ => ⟨S4x8192x2048, .f32⟩
  | .hbm, ⟨74, _⟩ => ⟨S4x1x128, .f32⟩
  | .hbm, ⟨75, _⟩ => ⟨S4x25x128, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]

class Facts₀ : Prop where
  bcast_S_S4x8192x1 : S_.BroadcastsInDim S4x8192x1 (![] : Fin 0 → Fin S4x8192x1.rank)
  bcast_S4x8192x1_S4x8192x2048_0_1_2 : S4x8192x1.BroadcastsInDim S4x8192x2048 (![0, 1, 2] : Fin 3 → Fin S4x8192x2048.rank)
  reducesTo_S4x8192x2048_S4x2048_d1 : S4x8192x2048.ReducesTo [1] S4x2048
  h_S_ : 0 < S_.numel
  reducesTo_S4x8192x1_S4x1_d1 : S4x8192x1.ReducesTo [1] S4x1
  bcast_S_S4x1 : S_.BroadcastsInDim S4x1 (![] : Fin 0 → Fin S4x1.rank)
  bcast_S4x1_S4x2048_0_1 : S4x1.BroadcastsInDim S4x2048 (![0, 1] : Fin 2 → Fin S4x2048.rank)
  transposes_S128x2048_S2048x128_1_0 : S128x2048.Transposes [1, 0] S2048x128
  reducesTo_S4x128_S4_d1 : S4x128.ReducesTo [1] S4
  bcast_S4_S4x1_0 : S4.BroadcastsInDim S4x1 (![0] : Fin 1 → Fin S4x1.rank)
  bcast_S4x1_S4x128_0_1 : S4x1.BroadcastsInDim S4x128 (![0, 1] : Fin 2 → Fin S4x128.rank)
  bcast_S4x128_S4x1x128_0_2 : S4x128.BroadcastsInDim S4x1x128 (![0, 2] : Fin 2 → Fin S4x1x128.rank)
  concatenates_S4x1x128_S4x24x128_S4x25x128_d1 : Shape.Concatenates [S4x1x128, S4x24x128] S4x25x128 1
  bcast_S_S4x8192x25 : S_.BroadcastsInDim S4x8192x25 (![] : Fin 0 → Fin S4x8192x25.rank)
  reducesTo_S4x8192x25_S4x8192_d2 : S4x8192x25.ReducesTo [2] S4x8192
  bcast_S_S4x8192 : S_.BroadcastsInDim S4x8192 (![] : Fin 0 → Fin S4x8192.rank)
  bcast_S4x8192_S4x8192x1_0_1 : S4x8192.BroadcastsInDim S4x8192x1 (![0, 1] : Fin 2 → Fin S4x8192x1.rank)
  bcast_S4x8192x1_S4x8192x25_0_1_2 : S4x8192x1.BroadcastsInDim S4x8192x25 (![0, 1, 2] : Fin 3 → Fin S4x8192x25.rank)
  bcast_S_S1 : S_.BroadcastsInDim S1 (![] : Fin 0 → Fin S1.rank)
  bcast_S1_S1x1x1_2 : S1.BroadcastsInDim S1x1x1 (![2] : Fin 1 → Fin S1x1x1.rank)
  bcast_S1x1x1_S4x8192x2048_0_1_2 : S1x1x1.BroadcastsInDim S4x8192x2048 (![0, 1, 2] : Fin 3 → Fin S4x8192x2048.rank)
  concatenates_S4x24x128_S4x1x128_S4x25x128_d1 : Shape.Concatenates [S4x24x128, S4x1x128] S4x25x128 1
  dot_S4x8192x2048_S1x2048_S4x8192x1_2_1_01_0_n_n_wf : DotDims.WF S4x8192x2048 S1x2048 S4x8192x1 [2] [1] [0, 1] [0] [] []
  dot_S4x2048_S2048x128_S4x128_1_0_0_1_n_n_wf : DotDims.WF S4x2048 S2048x128 S4x128 [1] [0] [0] [1] [] []
  dot_S4x8192x2048_S128x2048_S4x8192x128_2_1_01_0_n_n_wf : DotDims.WF S4x8192x2048 S128x2048 S4x8192x128 [2] [1] [0, 1] [0] [] []
  dot_S4x8192x128_S4x25x128_S4x8192x25_2_2_1_1_0_0_wf : DotDims.WF S4x8192x128 S4x25x128 S4x8192x25 [2] [2] [1] [1] [0] [0]
  dot_S4x8192x25_S4x25x128_S4x8192x128_2_1_1_2_0_0_wf : DotDims.WF S4x8192x25 S4x25x128 S4x8192x128 [2] [1] [1] [2] [0] [0]
  dot_S4x8192x128_S2048x128_S4x8192x2048_2_1_01_0_n_n_wf : DotDims.WF S4x8192x128 S2048x128 S4x8192x2048 [2] [1] [0, 1] [0] [] []

variable [Facts₀]

def dot_S4x8192x2048_S1x2048_S4x8192x1_2_1_01_0_n_n : DotDims S4x8192x2048 S1x2048 S4x8192x1 where
  lhsContracting := [2]
  rhsContracting := [1]
  lhsNonContracting := [0, 1]
  rhsNonContracting := [0]
  lhsBatch := []
  rhsBatch := []
  wf := dot_S4x8192x2048_S1x2048_S4x8192x1_2_1_01_0_n_n_wf
def dot_S4x2048_S2048x128_S4x128_1_0_0_1_n_n : DotDims S4x2048 S2048x128 S4x128 where
  lhsContracting := [1]
  rhsContracting := [0]
  lhsNonContracting := [0]
  rhsNonContracting := [1]
  lhsBatch := []
  rhsBatch := []
  wf := dot_S4x2048_S2048x128_S4x128_1_0_0_1_n_n_wf
def dot_S4x8192x2048_S128x2048_S4x8192x128_2_1_01_0_n_n : DotDims S4x8192x2048 S128x2048 S4x8192x128 where
  lhsContracting := [2]
  rhsContracting := [1]
  lhsNonContracting := [0, 1]
  rhsNonContracting := [0]
  lhsBatch := []
  rhsBatch := []
  wf := dot_S4x8192x2048_S128x2048_S4x8192x128_2_1_01_0_n_n_wf
def dot_S4x8192x128_S4x25x128_S4x8192x25_2_2_1_1_0_0 : DotDims S4x8192x128 S4x25x128 S4x8192x25 where
  lhsContracting := [2]
  rhsContracting := [2]
  lhsNonContracting := [1]
  rhsNonContracting := [1]
  lhsBatch := [0]
  rhsBatch := [0]
  wf := dot_S4x8192x128_S4x25x128_S4x8192x25_2_2_1_1_0_0_wf
def dot_S4x8192x25_S4x25x128_S4x8192x128_2_1_1_2_0_0 : DotDims S4x8192x25 S4x25x128 S4x8192x128 where
  lhsContracting := [2]
  rhsContracting := [1]
  lhsNonContracting := [1]
  rhsNonContracting := [2]
  lhsBatch := [0]
  rhsBatch := [0]
  wf := dot_S4x8192x25_S4x25x128_S4x8192x128_2_1_1_2_0_0_wf
def dot_S4x8192x128_S2048x128_S4x8192x2048_2_1_01_0_n_n : DotDims S4x8192x128 S2048x128 S4x8192x2048 where
  lhsContracting := [2]
  rhsContracting := [1]
  lhsNonContracting := [0, 1]
  rhsNonContracting := [0]
  lhsBatch := []
  rhsBatch := []
  wf := dot_S4x8192x128_S2048x128_S4x8192x2048_2_1_01_0_n_n_wf

class Facts : Prop extends Facts₀ where

variable [Facts]
-- ==== Proof.BitsFramePoolBase.lean ====
/-
  The pooling kernel's region: what its runs share.

  The grid is 4 batches by 8 tiles of 1024 rows, the tile index innermost, so point t has batch t / 8 and tile t % 8.
  The body zeroes its two accumulators at tile 0, adds the tile's contribution at every tile, and at tile 7 divides,
  projects, normalises and stores the batch's summary row — the only points at which the output window is written
  and written back.  Three cases of the two conditionals therefore occur: tile 0, tiles 1–6, tile 7.
-/
import proofs.«104028_j9234179686589_2_alg».proof.Proof.Gen.Kernel.Launch
import proofs.«104028_j9234179686589_2_alg».proof.Proof.Gen.Kernel.Skeleton
import proofs.«104028_j9234179686589_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two conditionals, in closed form over the grid -/

/-- "The tile index is 0": the first conditional's condition, from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "The tile index is 7": the second conditional's condition. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from tile 7 the output window is idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At tile 7 it is live. -/
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0_3 : View sig .tc .vmem S1x1x128 .f32 := (Memref.whole cc0_stg3_0 : Memref sig .tc .vmem S1x1x128 .f32).view
abbrev ms0_0 (t : Fin cfg0.N) : Memref sig .tc .vmem S1x1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128 .f32 := win0_3.stage (cfg0.slots t 3)
abbrev hs0_3 (t : Fin cfg0.N) : (ms0_3 t).IsWhole := hstage0_3 ((cfg0.slots t 3).cast nbuf0_3)
/-- The two accumulators: whole scoped buffers of the kernel's own. -/
abbrev scM0_0 : Memref sig .tc .vmem S1x2048 .f32 := Memref.whole cc0_scratch0
abbrev scM0_1 : Memref sig .tc .vmem S1x1 .f32 := Memref.whole cc0_scratch1
abbrev VS0_0 : View sig .tc .vmem S1x2048 .f32 := scM0_0.view
abbrev VS0_1 : View sig .tc .vmem S1x1 .f32 := scM0_1.view

/-- The scoped buffers the pooling kernel never touches (the other kernel's staging buffers), each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The region's invariant before the first point: the two accumulators at anything, the untouched scoped buffers,
    the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 (F := F) c) ∗ (∃ r, prngReg c r)) := by
  unfold Pipeline.ΦA others0; rw [scopedRest0_eq]; simp only [scM0_0, scM0_1, owns_whole]; try rfl

end Region0

end Cert.Kernel.Hand

end
-- ==== Proof.BitsFramePoolA.lean ====
/-
  The pooling kernel's body at a point of tile 0: both accumulators are stored whole (zeroed, then the tile's
  contribution added), the output window is left as found.
-/
import proofs.«104028_j9234179686589_2_alg».proof.Proof.BitsFramePoolBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the output buffer (none) and in the two accumulators (last first), with the
    proof that on whole buffers — the inputs' at `x·`, the idle output's at `xi3`, the accumulators' at anything — the body
    runs to the continuation with the inputs and the output as found and the accumulators with those pieces written. -/
noncomputable def kernelRun0_A (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : cond0_0 i) (hc1 : ¬cond0_1 i)
    (x0 : Vec F S1x1024x2048 .f32) (x1 : Vec F S1x2048 .f32) (x2 : Vec F S2048x128 .f32) :
    Σ' (L3 : List (View.Piece (Elt F) S1x1x128 .f32)) (LS0 : List (View.Piece (Elt F) S1x2048 .f32)), { LS1 : List (View.Piece (Elt F) S1x1 .f32) //
      ∀ (xi3 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__pool_kernel i arg2 harg2 arg3 harg3 arg4 harg4 arg5 harg5 arg6 harg6 arg7 harg7) K } := by
  refine ⟨[], ?_, ?_, fun xi3 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.BitsFramePoolB.lean ====
/-
  The pooling kernel's body at a point of tiles 1–6: the tile's contribution is added to both accumulators, which
  hold what the point before left; the output window is left as found.
-/
import proofs.«104028_j9234179686589_2_alg».proof.Proof.BitsFramePoolA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- As for tile 0, with the accumulators entered at the contents `xs0`, `xs1` the point before left. -/
noncomputable def kernelRun0_B (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : ¬cond0_1 i)
    (x0 : Vec F S1x1024x2048 .f32) (x1 : Vec F S1x2048 .f32) (x2 : Vec F S2048x128 .f32) (xs0 : Vec F S1x2048 .f32) (xs1 : Vec F S1x1 .f32) :
    Σ' (L3 : List (View.Piece (Elt F) S1x1x128 .f32)) (LS0 : List (View.Piece (Elt F) S1x2048 .f32)), { LS1 : List (View.Piece (Elt F) S1x1 .f32) //
      ∀ (xi3 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__pool_kernel i arg2 harg2 arg3 harg3 arg4 harg4 arg5 harg5 arg6 harg6 arg7 harg7) K } := by
  refine ⟨[], ?_, ?_, fun xi3 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.BitsFramePoolC.lean ====
/-
  The pooling kernel's body at a point of tile 7: the tile's contribution is added to both accumulators, and the
  batch's summary row — the quotient, its projection, normalised — is stored whole into the output window.
-/
import proofs.«104028_j9234179686589_2_alg».proof.Proof.BitsFramePoolB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- As for tiles 1–6, with the output window's buffer entered at anything and left with its pieces written. -/
noncomputable def kernelRun0_C (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : cond0_1 i)
    (x0 : Vec F S1x1024x2048 .f32) (x1 : Vec F S1x2048 .f32) (x2 : Vec F S2048x128 .f32) (xs0 : Vec F S1x2048 .f32) (xs1 : Vec F S1x1 .f32) :
    Σ' (L3 : List (View.Piece (Elt F) S1x1x128 .f32)) (LS0 : List (View.Piece (Elt F) S1x2048 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__pool_kernel i arg2 harg2 arg3 harg3 arg4 harg4 arg5 harg5 arg6 harg6 arg7 harg7) K } := by
  refine ⟨?_, ?_, ?_, fun E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.Kernel.Hand

end
-- ==== Proof.BitsFramePool.lean ====
/-
  The pooling kernel's region, at any float instance, from the buffer contents `V` the region is entered with: what the
  output window's buffer and the two accumulators hold after each point, the region's invariant (which carries the
  accumulators from one point to the next), the proof data and the body obligation.

  After point t the accumulators hold: at tile 0, the tile's contribution added to zero; at a later tile, the tile's
  contribution added to what the point before left.  The output window's buffer holds the batch's summary row after a
  point of tile 7, computed from the accumulators as that point leaves them.
-/
import proofs.«104028_j9234179686589_2_alg».proof.Proof.BitsFramePoolC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## What each case leaves -/

/-- Tile case A: the first accumulator's pieces cover it. -/
theorem scover0_A_0 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : cond0_0 i) (hc1 : ¬cond0_1 i) (x0 : Vec F S1x1024x2048 .f32) (x1 : Vec F S1x2048 .f32) (x2 : Vec F S2048x128 .f32)  (y : S1x2048.Idx) :
    ∃ pc ∈ (kernelRun0_A c i arg2 harg2 arg3 harg3 arg4 harg4 arg5 harg5 arg6 harg6 arg7 harg7 hc0 hc1 x0 x1 x2).2.1, y ∈ pc.1.set :=
  View.cover_of_tiledL (kernelRun0_A c i arg2 harg2 arg3 harg3 arg4 harg4 arg5 harg5 arg6 harg6 arg7 harg7 hc0 hc1 x0 x1 x2).2.1 S1x2048.size (by sl_kernel_rfl) y
/-- and the second's. -/
theorem scover0_A_1 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : cond0_0 i) (hc1 : ¬cond0_1 i) (x0 : Vec F S1x1024x2048 .f32) (x1 : Vec F S1x2048 .f32) (x2 : Vec F S2048x128 .f32)  (y : S1x1.Idx) :
    ∃ pc ∈ (kernelRun0_A c i arg2 harg2 arg3 harg3 arg4 harg4 arg5 harg5 arg6 harg6 arg7 harg7 hc0 hc1 x0 x1 x2).2.2.1, y ∈ pc.1.set :=
  View.cover_of_tiledL (kernelRun0_A c i arg2 harg2 arg3 harg3 arg4 harg4 arg5 harg5 arg6 harg6 arg7 harg7 hc0 hc1 x0 x1 x2).2.2.1 S1x1.size (by sl_kernel_rfl) y
/-- What case A leaves in the first accumulator: its pieces read back. -/
def sout0_A_0 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : cond0_0 i) (hc1 : ¬cond0_1 i) (x0 : Vec F S1x1024x2048 .f32) (x1 : Vec F S1x2048 .f32) (x2 : Vec F S2048x128 .f32)  : Vec F S1x2048 .f32 :=
  VS0_0.read (Elt F) (VS0_0.writes (Elt F) VS0_0.junk (kernelRun0_A c i arg2 harg2 arg3 harg3 arg4 harg4 arg5 harg5 arg6 harg6 arg7 harg7 hc0 hc1 x0 x1 x2).2.1)
/-- and in the second. -/
def sout0_A_1 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : cond0_0 i) (hc1 : ¬cond0_1 i) (x0 : Vec F S1x1024x2048 .f32) (x1 : Vec F S1x2048 .f32) (x2 : Vec F S2048x128 .f32)  : Vec F S1x1 .f32 :=
  VS0_1.read (Elt F) (VS0_1.writes (Elt F) VS0_1.junk (kernelRun0_A c i arg2 harg2 arg3 harg3 arg4 harg4 arg5 harg5 arg6 harg6 arg7 harg7 hc0 hc1 x0 x1 x2).2.2.1)

/-- Tile case B: the first accumulator's pieces cover it. -/
theorem scover0_B_0 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : ¬cond0_1 i) (x0 : Vec F S1x1024x2048 .f32) (x1 : Vec F S1x2048 .f32) (x2 : Vec F S2048x128 .f32) (xs0 : Vec F S1x2048 .f32) (xs1 : Vec F S1x1 .f32) (y : S1x2048.Idx) :
    ∃ pc ∈ (kernelRun0_B c i arg2 harg2 arg3 harg3 arg4 harg4 arg5 harg5 arg6 harg6 arg7 harg7 hc0 hc1 x0 x1 x2 xs0 xs1).2.1, y ∈ pc.1.set :=
  View.cover_of_tiledL (kernelRun0_B c i arg2 harg2 arg3 harg3 arg4 harg4 arg5 harg5 arg6 harg6 arg7 harg7 hc0 hc1 x0 x1 x2 xs0 xs1).2.1 S1x2048.size (by sl_kernel_rfl) y
/-- and the second's. -/
theorem scover0_B_1 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : ¬cond0_1 i) (x0 : Vec F S1x1024x2048 .f32) (x1 : Vec F S1x2048 .f32) (x2 : Vec F S2048x128 .f32) (xs0 : Vec F S1x2048 .f32) (xs1 : Vec F S1x1 .f32) (y : S1x1.Idx) :
    ∃ pc ∈ (kernelRun0_B c i arg2 harg2 arg3 harg3 arg4 harg4 arg5 harg5 arg6 harg6 arg7 harg7 hc0 hc1 x0 x1 x2 xs0 xs1).2.2.1, y ∈ pc.1.set :=
  View.cover_of_tiledL (kernelRun0_B c i arg2 harg2 arg3 harg3 arg4 harg4 arg5 harg5 arg6 harg6 arg7 harg7 hc0 hc1 x0 x1 x2 xs0 xs1).2.2.1 S1x1.size (by sl_kernel_rfl) y
/-- What case B leaves in the first accumulator: its pieces read back. -/
def sout0_B_0 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : ¬cond0_1 i) (x0 : Vec F S1x1024x2048 .f32) (x1 : Vec F S1x2048 .f32) (x2 : Vec F S2048x128 .f32) (xs0 : Vec F S1x2048 .f32) (xs1 : Vec F S1x1 .f32) : Vec F S1x2048 .f32 :=
  VS0_0.read (Elt F) (VS0_0.writes (Elt F) VS0_0.junk (kernelRun0_B c i arg2 harg2 arg3 harg3 arg4 harg4 arg5 harg5 arg6 harg6 arg7 harg7 hc0 hc1 x0 x1 x2 xs0 xs1).2.1)
/-- and in the second. -/
def sout0_B_1 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : ¬cond0_1 i) (x0 : Vec F S1x1024x2048 .f32) (x1 : Vec F S1x2048 .f32) (x2 : Vec F S2048x128 .f32) (xs0 : Vec F S1x2048 .f32) (xs1 : Vec F S1x1 .f32) : Vec F S1x1 .f32 :=
  VS0_1.read (Elt F) (VS0_1.writes (Elt F) VS0_1.junk (kernelRun0_B c i arg2 harg2 arg3 harg3 arg4 harg4 arg5 harg5 arg6 harg6 arg7 harg7 hc0 hc1 x0 x1 x2 xs0 xs1).2.2.1)

/-- Tile case C: the first accumulator's pieces cover it. -/
theorem scover0_C_0 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : cond0_1 i) (x0 : Vec F S1x1024x2048 .f32) (x1 : Vec F S1x2048 .f32) (x2 : Vec F S2048x128 .f32) (xs0 : Vec F S1x2048 .f32) (xs1 : Vec F S1x1 .f32) (y : S1x2048.Idx) :
    ∃ pc ∈ (kernelRun0_C c i arg2 harg2 arg3 harg3 arg4 harg4 arg5 harg5 arg6 harg6 arg7 harg7 hc0 hc1 x0 x1 x2 xs0 xs1).2.1, y ∈ pc.1.set :=
  View.cover_of_tiledL (kernelRun0_C c i arg2 harg2 arg3 harg3 arg4 harg4 arg5 harg5 arg6 harg6 arg7 harg7 hc0 hc1 x0 x1 x2 xs0 xs1).2.1 S1x2048.size (by sl_kernel_rfl) y
/-- and the second's. -/
theorem scover0_C_1 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : cond0_1 i) (x0 : Vec F S1x1024x2048 .f32) (x1 : Vec F S1x2048 .f32) (x2 : Vec F S2048x128 .f32) (xs0 : Vec F S1x2048 .f32) (xs1 : Vec F S1x1 .f32) (y : S1x1.Idx) :
    ∃ pc ∈ (kernelRun0_C c i arg2 harg2 arg3 harg3 arg4 harg4 arg5 harg5 arg6 harg6 arg7 harg7 hc0 hc1 x0 x1 x2 xs0 xs1).2.2.1, y ∈ pc.1.set :=
  View.cover_of_tiledL (kernelRun0_C c i arg2 harg2 arg3 harg3 arg4 harg4 arg5 harg5 arg6 harg6 arg7 harg7 hc0 hc1 x0 x1 x2 xs0 xs1).2.2.1 S1x1.size (by sl_kernel_rfl) y
/-- What case C leaves in the first accumulator: its pieces read back. -/
def sout0_C_0 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : cond0_1 i) (x0 : Vec F S1x1024x2048 .f32) (x1 : Vec F S1x2048 .f32) (x2 : Vec F S2048x128 .f32) (xs0 : Vec F S1x2048 .f32) (xs1 : Vec F S1x1 .f32) : Vec F S1x2048 .f32 :=
  VS0_0.read (Elt F) (VS0_0.writes (Elt F) VS0_0.junk (kernelRun0_C c i arg2 harg2 arg3 harg3 arg4 harg4 arg5 harg5 arg6 harg6 arg7 harg7 hc0 hc1 x0 x1 x2 xs0 xs1).2.1)
/-- and in the second. -/
def sout0_C_1 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : cond0_1 i) (x0 : Vec F S1x1024x2048 .f32) (x1 : Vec F S1x2048 .f32) (x2 : Vec F S2048x128 .f32) (xs0 : Vec F S1x2048 .f32) (xs1 : Vec F S1x1 .f32) : Vec F S1x1 .f32 :=
  VS0_1.read (Elt F) (VS0_1.writes (Elt F) VS0_1.junk (kernelRun0_C c i arg2 harg2 arg3 harg3 arg4 harg4 arg5 harg5 arg6 harg6 arg7 harg7 hc0 hc1 x0 x1 x2 xs0 xs1).2.2.1)

/-- At tile 7 the output window's pieces cover its block. -/
theorem cover0_C_3 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : cond0_1 i) (x0 : Vec F S1x1024x2048 .f32) (x1 : Vec F S1x2048 .f32) (x2 : Vec F S2048x128 .f32) (xs0 : Vec F S1x2048 .f32) (xs1 : Vec F S1x1 .f32) (y : S1x1x128.Idx) :
    ∃ pc ∈ (kernelRun0_C c i arg2 harg2 arg3 harg3 arg4 harg4 arg5 harg5 arg6 harg6 arg7 harg7 hc0 hc1 x0 x1 x2 xs0 xs1).1, y ∈ pc.1.set :=
  View.cover_of_tiledL (kernelRun0_C c i arg2 harg2 arg3 harg3 arg4 harg4 arg5 harg5 arg6 harg6 arg7 harg7 hc0 hc1 x0 x1 x2 xs0 xs1).1 S1x1x128.size (by sl_kernel_rfl) y
/-- What tile 7 leaves in the output window's buffer: its pieces read back. -/
def out0_C_3 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : cond0_1 i) (x0 : Vec F S1x1024x2048 .f32) (x1 : Vec F S1x2048 .f32) (x2 : Vec F S2048x128 .f32) (xs0 : Vec F S1x2048 .f32) (xs1 : Vec F S1x1 .f32) : Vec F S1x1x128 .f32 :=
  VO0_3.read (Elt F) (VO0_3.writes (Elt F) VO0_3.junk (kernelRun0_C c i arg2 harg2 arg3 harg3 arg4 harg4 arg5 harg5 arg6 harg6 arg7 harg7 hc0 hc1 x0 x1 x2 xs0 xs1).1)
/-- A placeholder for the output window's buffer at the points that leave it idle: nothing consults it there. -/
def junk3 : Vec F S1x1x128 .f32 := VO0_3.read (Elt F) VO0_3.junk

/-! ## The accumulation, point by point -/

/-- After the body at point `n`: the output window's buffer, the first accumulator, the second — the case the closed
    forms select at `n`, run on the point's input blocks and, after tile 0, on what point `n - 1` left in the accumulators. -/
def outsAt0 (c : Dev nD) : (n : ℕ) → n < cfg0.N → Vec F S1x1x128 .f32 × Vec F S1x2048 .f32 × Vec F S1x1 .f32
  | 0, hn => (junk3, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      if h1 : (n + 1) % 8 = 7 then
        False.elim (by omega)
      else
        (junk3, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)
      else
        (junk3, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)

theorem outsAt0_A (c : Dev nD) (t : Fin cfg0.N) (h0 : t.val % 8 = 0) (h1 : ¬t.val % 8 = 7) :
    outsAt0 V c t.val t.isLt = (junk3, sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (junk3, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the first point the accumulators at anything; afterwards each at what the point before left;
    throughout, the scoped buffers the kernel never touches and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ others0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ others0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ others0 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Region0

end Cert.Kernel.Hand

end
-- ==== Proof.BitsFramePoolBody.lean ====
/-
  The pooling kernel's body obligation: at every point the body, handed the input blocks, the output window's buffer and
  the invariant, returns them as the proof data says — by the case the point's tile selects.
-/
import proofs.«104028_j9234179686589_2_alg».proof.Proof.BitsFramePool

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [outsAt0_A V c t h0 h1]
      unfold sout0_A_0 sout0_A_1; (try dsimp only)
      by_cases hz : t.val = 0
      · rw [PhiS_castSucc V c t, PhiS_zero V c _ _ hz, PhiA0_eq]
        iintro ⟨⟨⟨HS0, HS1, Hoth⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hoth Hg]
        · isplitl [HS0 HS1 Hoth]
          · isplitl [HS0]
            · unfold owns; iexists _; isplitr
              swap; · iexact HS0
              ipureintro; exact View.read_writes_of_cover _ _ _ _ _ (scover0_A_0 c _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, HS1, Hoth⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hoth Hg]
        · isplitl [HS0 HS1 Hoth]
          · isplitl [HS0]
            · unfold owns; iexists _; isplitr
              swap; · iexact HS0
              ipureintro; exact View.read_writes_of_cover _ _ _ _ _ (scover0_A_0 c _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_3 sout0_C_0 sout0_C_1; (try dsimp only)
      · rw [PhiS_castSucc V c t, PhiS_pos V c _ _ hz]
        iintro ⟨⟨⟨HS0, HS1, Hoth⟩, Hg⟩, Ho, ⟨%d0, H0⟩, ⟨%d1, H1⟩, ⟨%d2, H2⟩, ⟨%d3, H3⟩⟩
        iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) _ _).2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        iintro ⟨H0, H1, H2, ⟨%e3, H3⟩, ⟨%es0, HS0⟩, ⟨%es1, HS1⟩⟩
        isplitl [HS0 HS1 Hoth Hg]
        · isplitl [HS0 HS1 Hoth]
          · isplitl [HS0]
            · unfold owns; iexists _; isplitr
              swap; · iexact HS0
              ipureintro; exact View.read_writes_of_cover _ _ _ _ _ (scover0_C_0 c _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B_0 sout0_B_1; (try dsimp only)
      · rw [PhiS_castSucc V c t, PhiS_pos V c _ _ hz]
        iintro ⟨⟨⟨HS0, HS1, Hoth⟩, Hg⟩, Ho, ⟨%d0, H0⟩, ⟨%d1, H1⟩, ⟨%d2, H2⟩, ⟨%d3, H3⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hoth Hg]
        · isplitl [HS0 HS1 Hoth]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the launch's form back: what the accumulators hold is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

theorem hout0 (c : Dev nD) : (dat0 V c).Φ (Fin.last cfg0.N) ⊢ Pipeline.ΦA spec0 c :=
  Phi_out0 V c _ (by rw [Fin.val_last]; have : cfg0.N = 32 := N_0; omega)

end Region0

end Cert.Kernel.Hand

end
-- ==== Proof.BitsFrameMain.lean ====
/-
  The attention kernel's region, at any float instance, from the buffer contents `V` the region is entered with.

  Each grid point (b, j) reads the block of x of batch b and rows 1024·j … 1024·j+1023, the whole transposed query
  projection, the 25 bus rows of batch b and the whole transposed modulation projection, and stores one whole block of
  the result: the body's arithmetic `k1_pay1` of the four blocks.  The body keeps nothing between points, so the
  region's invariant is only the scoped buffers it does not use and the generator register, both untouched.
-/
import proofs.«104028_j9234179686589_2_alg».proof.Proof.Gen.Kernel.Launch
import proofs.«104028_j9234179686589_2_alg».proof.Proof.Gen.Kernel.Skeleton
import proofs.«104028_j9234179686589_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: where it is not fetched the
    block index has not moved since the last fetch. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rX1 : Rect S1x1024x2048 := Rect.unit (s := S1x1024x2048) ![0, 0, 0] S1x1024x2048.size inb_S1x1024x2048_S1x1024x2048_0_0_0
abbrev rQ1 : Rect S2048x128 := Rect.unit (s := S2048x128) ![0, 0] S2048x128.size inb_S2048x128_S2048x128_0_0
abbrev rA1 : Rect S1x25x128 := Rect.unit (s := S1x25x128) ![0, 0, 0] S1x25x128.size inb_S1x25x128_S1x25x128_0_0_0
abbrev rM1 : Rect S128x2048 := Rect.unit (s := S128x2048) ![0, 0] S128x2048.size inb_S128x2048_S128x2048_0_0

/-- What the body leaves in the output window's buffer, from the four input blocks: its one store. -/
def out1_4 (x0 : Vec F S1x1024x2048 .f32) (x1 : Vec F S2048x128 .bf16) (x2 : Vec F S1x25x128 .f32) (x3 : Vec F S128x2048 .bf16) : Vec F S1x1024x2048 .f32 :=
  View.canon [⟨rX1, k1_pay1 (View.ld x0 rX1) (View.ld x1 rQ1) (View.ld x2 rA1) (View.ld x3 rM1)⟩]

/-- The store covers the buffer. -/
theorem cover1_4 (p0 : Vec F S1x1024x2048 .f32) (y : S1x1024x2048.Idx) :
    ∃ pc ∈ ([⟨rX1, p0⟩] : List (View.Piece (Elt F) S1x1024x2048 .f32)), y ∈ pc.1.set :=
  View.cover_of_tiled [⟨rX1, p0⟩] S1x1024x2048.size (by rfl) y

set_option maxHeartbeats 4000000 in
/-- The body on whole staging buffers — the inputs' at contents `x·`, the output's at anything — runs to the
    continuation with the inputs as they were and the output at `out1_4` of them. -/
theorem sound_kernel1 (c : Dev nD) (E : Set ℕ) (i : grid1.Coords)
    (arg2 : Memref sig .tc .vmem S1x1024x2048 .f32) (harg2 : arg2.IsWhole) (arg3 : Memref sig .tc .vmem S2048x128 .bf16) (harg3 : arg3.IsWhole)
    (arg4 : Memref sig .tc .vmem S1x25x128 .f32) (harg4 : arg4.IsWhole) (arg5 : Memref sig .tc .vmem S128x2048 .bf16) (harg5 : arg5.IsWhole)
    (arg6 : Memref sig .tc .vmem S1x1024x2048 .f32) (harg6 : arg6.IsWhole)
    (x0 : Vec F S1x1024x2048 .f32) (x1 : Vec F S2048x128 .bf16) (x2 : Vec F S1x25x128 .f32) (x3 : Vec F S128x2048 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1_kernel i arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The region's proof data on core `c`: the arrays as the region finds them; after the body each input's buffer at
    its block and the output's at `out1_4` of the input blocks; the invariant the scoped buffers the kernel does not
    use and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 2000000 in
/-- The body at any point: the inputs' buffers hold their blocks, so the body's run applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.BitsRunAll.lean ====
/-
  The whole program's run: @main is three stretches of host operations around the two kernel regions.  The buffer contents at
  each boundary are a fold from the launch memory — a stretch applies its operations, a region leaves each of its windows'
  arrays at what its write-backs leave and every other buffer as entered.  Every weakly fair execution terminates, and the
  final memory holds every unscoped buffer at the last boundary's contents.
-/
import proofs.«104028_j9234179686589_2_alg».proof.Proof.BitsFramePoolBody
import proofs.«104028_j9234179686589_2_alg».proof.Proof.BitsFrameMain

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After the first stretch (the pooling region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the pooling region's exit. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch (the attention region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the attention region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the last stretch: the contents the program ends with. -/
abbrev W5 : Dev nD → Valuation τ sig (Elt F) := fun c => StableHlo.after hostOps2 (W4 m c)

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered with every unscoped buffer at `W1`, left with them at `W2`. Its windows'
    arrays are split out of the unscoped buffers and put back at what the write-backs leave; the generator register
    goes into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = (dat0 (V1 m) c).Φ (Fin.last cfg0.N) from rfl]
    iintro H
    have hgive := hout0 (V1 m) c
    ihave H' := hgive $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its windows'
    arrays are split out of the unscoped buffers and put back at what the write-backs leave; the generator register
    goes into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh' (W0 m)),
    .region (reg0 m),
    .host (hseg hostOps1 hostOps1_sub hostOps1_fresh' (W2 m)),
    .region (reg1 m),
    .host (hseg hostOps2 hostOps2_sub hostOps2_fresh' (W4 m)) ]

theorem main_run (c : Dev nD) : main (F := F) c = Pipeline.Seg.run (segs m) := (main_chain c).trans (by chain_rfl)

/-- The last thread state without the dues: every unscoped buffer at the last boundary's contents, the generator register. -/
abbrev Tₙ (c : Dev nD) : sProp 𝕄 := iprop(StableHlo.held (c : Thread nD τ) (Pipeline.ucRefs τ sig) (W5 m c) ∗ ∃ r, prngReg c r)

set_option backward.isDefEq.respectTransparency.types false in
/-- THE RUN: from any memory with zero counters, every weakly fair execution of @main terminates, nothing faulting,
    and every final memory holds every unscoped buffer at `W5`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => show iprop(StableHlo.held (c : Thread nD τ) (Pipeline.ucRefs τ sig) (W5 m c) ∗ R c)
        ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.Kernel.Hand

end
-- ==== Proof.BitsArgsKept.lean ====
/-
  The seven argument arrays end as launched: no stretch of host operations writes one, and a region either reads it
  through an input window (whose array the write-backs never touch) or does not mention it.
-/
import proofs.«104028_j9234179686589_2_alg».proof.Proof.BitsRunAll

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The buffers stretch 0 writes. -/
abbrev ops0_W : List (Ref sig .tc) := [main_v0]
theorem ops0_writes : (hostOps0 : List (HloOp τ sig (Elt F))).Forall fun op => op.writes ⊆ (ops0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers stretch 1 writes. -/
abbrev ops1_W : List (Ref sig .tc) := [main_v2, main_v3, main_v4, main_v5, main_v6, main_v7, main_v8, main_cst, main_v9, main_v10, main_cst_0, main_v11, main_v12, main_v13, main_v14, main_v15, main_v16, main_v17]
theorem ops1_writes : (hostOps1 : List (HloOp τ sig (Elt F))).Forall fun op => op.writes ⊆ (ops1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers stretch 2 writes. -/
abbrev ops2_W : List (Ref sig .tc) := [main_v19, main_v20]
theorem ops2_writes : (hostOps2 : List (HloOp τ sig (Elt F))).Forall fun op => op.writes ⊆ (ops2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer a stretch does not write is as before it. -/
theorem W1_of (c : Dev nD) (r : Ref sig .tc) (h : r ∉ (ops0_W : List (Ref sig .tc))) : W1 m c (Proc.devRef .tc r) = W0 m c (Proc.devRef .tc r) :=
  StableHlo.after_of_writes_sub hostOps0 _ ops0_writes h
theorem W3_of (c : Dev nD) (r : Ref sig .tc) (h : r ∉ (ops1_W : List (Ref sig .tc))) : W3 m c (Proc.devRef .tc r) = W2 m c (Proc.devRef .tc r) :=
  StableHlo.after_of_writes_sub hostOps1 _ ops1_writes h
theorem W5_of (c : Dev nD) (r : Ref sig .tc) (h : r ∉ (ops2_W : List (Ref sig .tc))) : W5 m c (Proc.devRef .tc r) = W4 m c (Proc.devRef .tc r) :=
  StableHlo.after_of_writes_sub hostOps2 _ ops2_writes h

theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of m c main_arg0 (by decide)
    _ = W3 m c (Proc.devRef .tc main_arg0) := (W4_arr m c 0).trans (((dat1 (V3 m) c).arrAt_in 0 rfl _).trans (A_eq1 (V3 m) c 0))
    _ = W2 m c (Proc.devRef .tc main_arg0) := W3_of m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := W1_of m c main_arg0 (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of m c main_arg1 (by decide)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of m c main_arg2 (by decide)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of m c main_arg3 (by decide)
    _ = W3 m c (Proc.devRef .tc main_arg3) := W4_of_ne m c main_arg3 (by decide)
    _ = W2 m c (Proc.devRef .tc main_arg3) := W3_of m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := W5_of m c main_arg4 (by decide)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl

theorem W5_main_arg5 (c : Dev nD) : W5 m c (Proc.devRef .tc main_arg5) = m ((c : Thread nD τ).loc main_arg5) :=
  calc W5 m c (Proc.devRef .tc main_arg5)
    _ = W4 m c (Proc.devRef .tc main_arg5) := W5_of m c main_arg5 (by decide)
    _ = W3 m c (Proc.devRef .tc main_arg5) := W4_of_ne m c main_arg5 (by decide)
    _ = W2 m c (Proc.devRef .tc main_arg5) := W3_of m c main_arg5 (by decide)
    _ = W1 m c (Proc.devRef .tc main_arg5) := (W2_arr m c 1).trans (((dat0 (V1 m) c).arrAt_in 1 rfl _).trans (A_eq0 (V1 m) c 1))
    _ = W0 m c (Proc.devRef .tc main_arg5) := W1_of m c main_arg5 (by decide)
    _ = m ((c : Thread nD τ).loc main_arg5) := rfl

theorem W5_main_arg6 (c : Dev nD) : W5 m c (Proc.devRef .tc main_arg6) = m ((c : Thread nD τ).loc main_arg6) :=
  calc W5 m c (Proc.devRef .tc main_arg6)
    _ = W4 m c (Proc.devRef .tc main_arg6) := W5_of m c main_arg6 (by decide)
    _ = W3 m c (Proc.devRef .tc main_arg6) := W4_of_ne m c main_arg6 (by decide)
    _ = W2 m c (Proc.devRef .tc main_arg6) := W3_of m c main_arg6 (by decide)
    _ = W1 m c (Proc.devRef .tc main_arg6) := W2_of_ne m c main_arg6 (by decide)
    _ = W0 m c (Proc.devRef .tc main_arg6) := W1_of m c main_arg6 (by decide)
    _ = m ((c : Thread nD τ).loc main_arg6) := rfl

/-- THE FRAME: every weakly fair execution of @main terminates, nothing faulting, and every argument array ends as launched. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c)⟩) (run_all m ρ)

end Cert.Kernel.Hand

end
-- ==== Proof.FramePoolBase.lean ====
/-
  The pooling kernel's region: what its runs share.

  The grid is 4 batches by 8 tiles of 1024 rows, the tile index innermost, so point t has batch t / 8 and tile t % 8.
  The body zeroes its two accumulators at tile 0, adds the tile's contribution at every tile, and at tile 7 divides,
  projects, normalises and stores the batch's summary row — the only points at which the output window is written
  and written back.  Three cases of the two conditionals therefore occur: tile 0, tiles 1–6, tile 7.
-/
import proofs.«104028_j9234179686589_2_alg».proof.Proof.Gen.KernelIdeal.Launch
import proofs.«104028_j9234179686589_2_alg».proof.Proof.Gen.KernelIdeal.Skeleton
import proofs.«104028_j9234179686589_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two conditionals, in closed form over the grid -/

/-- "The tile index is 0": the first conditional's condition, from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "The tile index is 7": the second conditional's condition. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from tile 7 the output window is idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At tile 7 it is live. -/
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0_3 : View sig .tc .vmem S1x1x128 .f32 := (Memref.whole cc0_stg3_0 : Memref sig .tc .vmem S1x1x128 .f32).view
abbrev ms0_0 (t : Fin cfg0.N) : Memref sig .tc .vmem S1x1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128 .f32 := win0_3.stage (cfg0.slots t 3)
abbrev hs0_3 (t : Fin cfg0.N) : (ms0_3 t).IsWhole := hstage0_3 ((cfg0.slots t 3).cast nbuf0_3)
/-- The two accumulators: whole scoped buffers of the kernel's own. -/
abbrev scM0_0 : Memref sig .tc .vmem S1x2048 .f32 := Memref.whole cc0_scratch0
abbrev scM0_1 : Memref sig .tc .vmem S1x1 .f32 := Memref.whole cc0_scratch1
abbrev VS0_0 : View sig .tc .vmem S1x2048 .f32 := scM0_0.view
abbrev VS0_1 : View sig .tc .vmem S1x1 .f32 := scM0_1.view

/-- The scoped buffers the pooling kernel never touches (the other kernel's staging buffers), each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The region's invariant before the first point: the two accumulators at anything, the untouched scoped buffers,
    the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 (F := F) c) ∗ (∃ r, prngReg c r)) := by
  unfold Pipeline.ΦA others0; rw [scopedRest0_eq]; simp only [scM0_0, scM0_1, owns_whole]; try rfl

end Region0

end Cert.KernelIdeal.Hand

end
-- ==== Proof.FramePoolA.lean ====
/-
  The pooling kernel's body at a point of tile 0: both accumulators are stored whole (zeroed, then the tile's
  contribution added), the output window is left as found.
-/
import proofs.«104028_j9234179686589_2_alg».proof.Proof.FramePoolBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the output buffer (none) and in the two accumulators (last first), with the
    proof that on whole buffers — the inputs' at `x·`, the idle output's at `xi3`, the accumulators' at anything — the body
    runs to the continuation with the inputs and the output as found and the accumulators with those pieces written. -/
noncomputable def kernelRun0_A (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : cond0_0 i) (hc1 : ¬cond0_1 i)
    (x0 : Vec F S1x1024x2048 .f32) (x1 : Vec F S1x2048 .f32) (x2 : Vec F S2048x128 .f32) :
    Σ' (L3 : List (View.Piece (Elt F) S1x1x128 .f32)) (LS0 : List (View.Piece (Elt F) S1x2048 .f32)), { LS1 : List (View.Piece (Elt F) S1x1 .f32) //
      ∀ (xi3 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__pool_kernel i arg2 harg2 arg3 harg3 arg4 harg4 arg5 harg5 arg6 harg6 arg7 harg7) K } := by
  refine ⟨[], ?_, ?_, fun xi3 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.FramePoolB.lean ====
/-
  The pooling kernel's body at a point of tiles 1–6: the tile's contribution is added to both accumulators, which
  hold what the point before left; the output window is left as found.
-/
import proofs.«104028_j9234179686589_2_alg».proof.Proof.FramePoolA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- As for tile 0, with the accumulators entered at the contents `xs0`, `xs1` the point before left. -/
noncomputable def kernelRun0_B (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : ¬cond0_1 i)
    (x0 : Vec F S1x1024x2048 .f32) (x1 : Vec F S1x2048 .f32) (x2 : Vec F S2048x128 .f32) (xs0 : Vec F S1x2048 .f32) (xs1 : Vec F S1x1 .f32) :
    Σ' (L3 : List (View.Piece (Elt F) S1x1x128 .f32)) (LS0 : List (View.Piece (Elt F) S1x2048 .f32)), { LS1 : List (View.Piece (Elt F) S1x1 .f32) //
      ∀ (xi3 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__pool_kernel i arg2 harg2 arg3 harg3 arg4 harg4 arg5 harg5 arg6 harg6 arg7 harg7) K } := by
  refine ⟨[], ?_, ?_, fun xi3 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.FramePoolC.lean ====
/-
  The pooling kernel's body at a point of tile 7: the tile's contribution is added to both accumulators, and the
  batch's summary row — the quotient, its projection, normalised — is stored whole into the output window.
-/
import proofs.«104028_j9234179686589_2_alg».proof.Proof.FramePoolB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- As for tiles 1–6, with the output window's buffer entered at anything and left with its pieces written. -/
noncomputable def kernelRun0_C (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : cond0_1 i)
    (x0 : Vec F S1x1024x2048 .f32) (x1 : Vec F S1x2048 .f32) (x2 : Vec F S2048x128 .f32) (xs0 : Vec F S1x2048 .f32) (xs1 : Vec F S1x1 .f32) :
    Σ' (L3 : List (View.Piece (Elt F) S1x1x128 .f32)) (LS0 : List (View.Piece (Elt F) S1x2048 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__pool_kernel i arg2 harg2 arg3 harg3 arg4 harg4 arg5 harg5 arg6 harg6 arg7 harg7) K } := by
  refine ⟨?_, ?_, ?_, fun E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.KernelIdeal.Hand

end
-- ==== Proof.FramePool.lean ====
/-
  The pooling kernel's region, at any float instance, from the buffer contents `V` the region is entered with: what the
  output window's buffer and the two accumulators hold after each point, the region's invariant (which carries the
  accumulators from one point to the next), the proof data and the body obligation.

  After point t the accumulators hold: at tile 0, the tile's contribution added to zero; at a later tile, the tile's
  contribution added to what the point before left.  The output window's buffer holds the batch's summary row after a
  point of tile 7, computed from the accumulators as that point leaves them.
-/
import proofs.«104028_j9234179686589_2_alg».proof.Proof.FramePoolC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## What each case leaves -/

/-- Tile case A: the first accumulator's pieces cover it. -/
theorem scover0_A_0 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : cond0_0 i) (hc1 : ¬cond0_1 i) (x0 : Vec F S1x1024x2048 .f32) (x1 : Vec F S1x2048 .f32) (x2 : Vec F S2048x128 .f32)  (y : S1x2048.Idx) :
    ∃ pc ∈ (kernelRun0_A c i arg2 harg2 arg3 harg3 arg4 harg4 arg5 harg5 arg6 harg6 arg7 harg7 hc0 hc1 x0 x1 x2).2.1, y ∈ pc.1.set :=
  View.cover_of_tiledL (kernelRun0_A c i arg2 harg2 arg3 harg3 arg4 harg4 arg5 harg5 arg6 harg6 arg7 harg7 hc0 hc1 x0 x1 x2).2.1 S1x2048.size (by sl_kernel_rfl) y
/-- and the second's. -/
theorem scover0_A_1 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : cond0_0 i) (hc1 : ¬cond0_1 i) (x0 : Vec F S1x1024x2048 .f32) (x1 : Vec F S1x2048 .f32) (x2 : Vec F S2048x128 .f32)  (y : S1x1.Idx) :
    ∃ pc ∈ (kernelRun0_A c i arg2 harg2 arg3 harg3 arg4 harg4 arg5 harg5 arg6 harg6 arg7 harg7 hc0 hc1 x0 x1 x2).2.2.1, y ∈ pc.1.set :=
  View.cover_of_tiledL (kernelRun0_A c i arg2 harg2 arg3 harg3 arg4 harg4 arg5 harg5 arg6 harg6 arg7 harg7 hc0 hc1 x0 x1 x2).2.2.1 S1x1.size (by sl_kernel_rfl) y
/-- What case A leaves in the first accumulator: its pieces read back. -/
def sout0_A_0 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : cond0_0 i) (hc1 : ¬cond0_1 i) (x0 : Vec F S1x1024x2048 .f32) (x1 : Vec F S1x2048 .f32) (x2 : Vec F S2048x128 .f32)  : Vec F S1x2048 .f32 :=
  VS0_0.read (Elt F) (VS0_0.writes (Elt F) VS0_0.junk (kernelRun0_A c i arg2 harg2 arg3 harg3 arg4 harg4 arg5 harg5 arg6 harg6 arg7 harg7 hc0 hc1 x0 x1 x2).2.1)
/-- and in the second. -/
def sout0_A_1 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : cond0_0 i) (hc1 : ¬cond0_1 i) (x0 : Vec F S1x1024x2048 .f32) (x1 : Vec F S1x2048 .f32) (x2 : Vec F S2048x128 .f32)  : Vec F S1x1 .f32 :=
  VS0_1.read (Elt F) (VS0_1.writes (Elt F) VS0_1.junk (kernelRun0_A c i arg2 harg2 arg3 harg3 arg4 harg4 arg5 harg5 arg6 harg6 arg7 harg7 hc0 hc1 x0 x1 x2).2.2.1)

/-- Tile case B: the first accumulator's pieces cover it. -/
theorem scover0_B_0 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : ¬cond0_1 i) (x0 : Vec F S1x1024x2048 .f32) (x1 : Vec F S1x2048 .f32) (x2 : Vec F S2048x128 .f32) (xs0 : Vec F S1x2048 .f32) (xs1 : Vec F S1x1 .f32) (y : S1x2048.Idx) :
    ∃ pc ∈ (kernelRun0_B c i arg2 harg2 arg3 harg3 arg4 harg4 arg5 harg5 arg6 harg6 arg7 harg7 hc0 hc1 x0 x1 x2 xs0 xs1).2.1, y ∈ pc.1.set :=
  View.cover_of_tiledL (kernelRun0_B c i arg2 harg2 arg3 harg3 arg4 harg4 arg5 harg5 arg6 harg6 arg7 harg7 hc0 hc1 x0 x1 x2 xs0 xs1).2.1 S1x2048.size (by sl_kernel_rfl) y
/-- and the second's. -/
theorem scover0_B_1 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : ¬cond0_1 i) (x0 : Vec F S1x1024x2048 .f32) (x1 : Vec F S1x2048 .f32) (x2 : Vec F S2048x128 .f32) (xs0 : Vec F S1x2048 .f32) (xs1 : Vec F S1x1 .f32) (y : S1x1.Idx) :
    ∃ pc ∈ (kernelRun0_B c i arg2 harg2 arg3 harg3 arg4 harg4 arg5 harg5 arg6 harg6 arg7 harg7 hc0 hc1 x0 x1 x2 xs0 xs1).2.2.1, y ∈ pc.1.set :=
  View.cover_of_tiledL (kernelRun0_B c i arg2 harg2 arg3 harg3 arg4 harg4 arg5 harg5 arg6 harg6 arg7 harg7 hc0 hc1 x0 x1 x2 xs0 xs1).2.2.1 S1x1.size (by sl_kernel_rfl) y
/-- What case B leaves in the first accumulator: its pieces read back. -/
def sout0_B_0 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : ¬cond0_1 i) (x0 : Vec F S1x1024x2048 .f32) (x1 : Vec F S1x2048 .f32) (x2 : Vec F S2048x128 .f32) (xs0 : Vec F S1x2048 .f32) (xs1 : Vec F S1x1 .f32) : Vec F S1x2048 .f32 :=
  VS0_0.read (Elt F) (VS0_0.writes (Elt F) VS0_0.junk (kernelRun0_B c i arg2 harg2 arg3 harg3 arg4 harg4 arg5 harg5 arg6 harg6 arg7 harg7 hc0 hc1 x0 x1 x2 xs0 xs1).2.1)
/-- and in the second. -/
def sout0_B_1 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : ¬cond0_1 i) (x0 : Vec F S1x1024x2048 .f32) (x1 : Vec F S1x2048 .f32) (x2 : Vec F S2048x128 .f32) (xs0 : Vec F S1x2048 .f32) (xs1 : Vec F S1x1 .f32) : Vec F S1x1 .f32 :=
  VS0_1.read (Elt F) (VS0_1.writes (Elt F) VS0_1.junk (kernelRun0_B c i arg2 harg2 arg3 harg3 arg4 harg4 arg5 harg5 arg6 harg6 arg7 harg7 hc0 hc1 x0 x1 x2 xs0 xs1).2.2.1)

/-- Tile case C: the first accumulator's pieces cover it. -/
theorem scover0_C_0 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : cond0_1 i) (x0 : Vec F S1x1024x2048 .f32) (x1 : Vec F S1x2048 .f32) (x2 : Vec F S2048x128 .f32) (xs0 : Vec F S1x2048 .f32) (xs1 : Vec F S1x1 .f32) (y : S1x2048.Idx) :
    ∃ pc ∈ (kernelRun0_C c i arg2 harg2 arg3 harg3 arg4 harg4 arg5 harg5 arg6 harg6 arg7 harg7 hc0 hc1 x0 x1 x2 xs0 xs1).2.1, y ∈ pc.1.set :=
  View.cover_of_tiledL (kernelRun0_C c i arg2 harg2 arg3 harg3 arg4 harg4 arg5 harg5 arg6 harg6 arg7 harg7 hc0 hc1 x0 x1 x2 xs0 xs1).2.1 S1x2048.size (by sl_kernel_rfl) y
/-- and the second's. -/
theorem scover0_C_1 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : cond0_1 i) (x0 : Vec F S1x1024x2048 .f32) (x1 : Vec F S1x2048 .f32) (x2 : Vec F S2048x128 .f32) (xs0 : Vec F S1x2048 .f32) (xs1 : Vec F S1x1 .f32) (y : S1x1.Idx) :
    ∃ pc ∈ (kernelRun0_C c i arg2 harg2 arg3 harg3 arg4 harg4 arg5 harg5 arg6 harg6 arg7 harg7 hc0 hc1 x0 x1 x2 xs0 xs1).2.2.1, y ∈ pc.1.set :=
  View.cover_of_tiledL (kernelRun0_C c i arg2 harg2 arg3 harg3 arg4 harg4 arg5 harg5 arg6 harg6 arg7 harg7 hc0 hc1 x0 x1 x2 xs0 xs1).2.2.1 S1x1.size (by sl_kernel_rfl) y
/-- What case C leaves in the first accumulator: its pieces read back. -/
def sout0_C_0 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : cond0_1 i) (x0 : Vec F S1x1024x2048 .f32) (x1 : Vec F S1x2048 .f32) (x2 : Vec F S2048x128 .f32) (xs0 : Vec F S1x2048 .f32) (xs1 : Vec F S1x1 .f32) : Vec F S1x2048 .f32 :=
  VS0_0.read (Elt F) (VS0_0.writes (Elt F) VS0_0.junk (kernelRun0_C c i arg2 harg2 arg3 harg3 arg4 harg4 arg5 harg5 arg6 harg6 arg7 harg7 hc0 hc1 x0 x1 x2 xs0 xs1).2.1)
/-- and in the second. -/
def sout0_C_1 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : cond0_1 i) (x0 : Vec F S1x1024x2048 .f32) (x1 : Vec F S1x2048 .f32) (x2 : Vec F S2048x128 .f32) (xs0 : Vec F S1x2048 .f32) (xs1 : Vec F S1x1 .f32) : Vec F S1x1 .f32 :=
  VS0_1.read (Elt F) (VS0_1.writes (Elt F) VS0_1.junk (kernelRun0_C c i arg2 harg2 arg3 harg3 arg4 harg4 arg5 harg5 arg6 harg6 arg7 harg7 hc0 hc1 x0 x1 x2 xs0 xs1).2.2.1)

/-- At tile 7 the output window's pieces cover its block. -/
theorem cover0_C_3 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : cond0_1 i) (x0 : Vec F S1x1024x2048 .f32) (x1 : Vec F S1x2048 .f32) (x2 : Vec F S2048x128 .f32) (xs0 : Vec F S1x2048 .f32) (xs1 : Vec F S1x1 .f32) (y : S1x1x128.Idx) :
    ∃ pc ∈ (kernelRun0_C c i arg2 harg2 arg3 harg3 arg4 harg4 arg5 harg5 arg6 harg6 arg7 harg7 hc0 hc1 x0 x1 x2 xs0 xs1).1, y ∈ pc.1.set :=
  View.cover_of_tiledL (kernelRun0_C c i arg2 harg2 arg3 harg3 arg4 harg4 arg5 harg5 arg6 harg6 arg7 harg7 hc0 hc1 x0 x1 x2 xs0 xs1).1 S1x1x128.size (by sl_kernel_rfl) y
/-- What tile 7 leaves in the output window's buffer: its pieces read back. -/
def out0_C_3 (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : cond0_1 i) (x0 : Vec F S1x1024x2048 .f32) (x1 : Vec F S1x2048 .f32) (x2 : Vec F S2048x128 .f32) (xs0 : Vec F S1x2048 .f32) (xs1 : Vec F S1x1 .f32) : Vec F S1x1x128 .f32 :=
  VO0_3.read (Elt F) (VO0_3.writes (Elt F) VO0_3.junk (kernelRun0_C c i arg2 harg2 arg3 harg3 arg4 harg4 arg5 harg5 arg6 harg6 arg7 harg7 hc0 hc1 x0 x1 x2 xs0 xs1).1)
/-- A placeholder for the output window's buffer at the points that leave it idle: nothing consults it there. -/
def junk3 : Vec F S1x1x128 .f32 := VO0_3.read (Elt F) VO0_3.junk

/-! ## The accumulation, point by point -/

/-- After the body at point `n`: the output window's buffer, the first accumulator, the second — the case the closed
    forms select at `n`, run on the point's input blocks and, after tile 0, on what point `n - 1` left in the accumulators. -/
def outsAt0 (c : Dev nD) : (n : ℕ) → n < cfg0.N → Vec F S1x1x128 .f32 × Vec F S1x2048 .f32 × Vec F S1x1 .f32
  | 0, hn => (junk3, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      if h1 : (n + 1) % 8 = 7 then
        False.elim (by omega)
      else
        (junk3, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)
      else
        (junk3, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)

theorem outsAt0_A (c : Dev nD) (t : Fin cfg0.N) (h0 : t.val % 8 = 0) (h1 : ¬t.val % 8 = 7) :
    outsAt0 V c t.val t.isLt = (junk3, sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (junk3, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the first point the accumulators at anything; afterwards each at what the point before left;
    throughout, the scoped buffers the kernel never touches and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ others0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ others0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ others0 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Region0

end Cert.KernelIdeal.Hand

end
-- ==== Proof.PoolPieces.lean ====
/-
  What the pooling kernel's stores leave, named: each accumulator after a point is the body's arithmetic (`k0_pay5`,
  `k0_pay6`) of the point's input blocks and of what the accumulator held — zero at tile 0 —; the output window's
  buffer after a point of tile 7 is `k0_pay7` of the two accumulators as that point leaves them and of the projection block.
-/
import proofs.«104028_j9234179686589_2_alg».proof.Proof.FramePool
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

theorem sout0_A_0_eq (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : cond0_0 i) (hc1 : ¬cond0_1 i) (x0 : Vec F S1x1024x2048 .f32) (x1 : Vec F S1x2048 .f32) (x2 : Vec F S2048x128 .f32)  :
    sout0_A_0 c i arg2 harg2 arg3 harg3 arg4 harg4 arg5 harg5 arg6 harg6 arg7 harg7 hc0 hc1 x0 x1 x2 = k0_pay5 x0 x1 k0_pay1 := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A; dsimp only
  sl_unfold_run_names
  rw [View.canon_cons_unit_zero hz2]
  simp only [View.readCov_unit_zero (S := S1x2048) _ hz2, View.readCov_unit_zero (S := S1x1) _ hz2, View.readAt_eq_ld, harg2.read_unread, harg3.read_unread, harg4.read_unread, harg6.read_unread, harg7.read_unread,
    View.ld_unit_zero (S := S1x1024x2048) hz3, View.ld_unit_zero (S := S1x2048) hz2, View.ld_unit_zero (S := S2048x128) hz2, View.ld_unit_zero (S := S1x1) hz2]
  try rfl

theorem sout0_A_1_eq (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : cond0_0 i) (hc1 : ¬cond0_1 i) (x0 : Vec F S1x1024x2048 .f32) (x1 : Vec F S1x2048 .f32) (x2 : Vec F S2048x128 .f32)  :
    sout0_A_1 c i arg2 harg2 arg3 harg3 arg4 harg4 arg5 harg5 arg6 harg6 arg7 harg7 hc0 hc1 x0 x1 x2 = k0_pay6 x0 x1 k0_pay2 := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A; dsimp only
  sl_unfold_run_names
  rw [View.canon_cons_unit_zero hz2]
  simp only [View.readCov_unit_zero (S := S1x2048) _ hz2, View.readCov_unit_zero (S := S1x1) _ hz2, View.readAt_eq_ld, harg2.read_unread, harg3.read_unread, harg4.read_unread, harg6.read_unread, harg7.read_unread,
    View.ld_unit_zero (S := S1x1024x2048) hz3, View.ld_unit_zero (S := S1x2048) hz2, View.ld_unit_zero (S := S2048x128) hz2, View.ld_unit_zero (S := S1x1) hz2]
  try rfl

theorem sout0_B_0_eq (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : ¬cond0_1 i) (x0 : Vec F S1x1024x2048 .f32) (x1 : Vec F S1x2048 .f32) (x2 : Vec F S2048x128 .f32) (xs0 : Vec F S1x2048 .f32) (xs1 : Vec F S1x1 .f32) :
    sout0_B_0 c i arg2 harg2 arg3 harg3 arg4 harg4 arg5 harg5 arg6 harg6 arg7 harg7 hc0 hc1 x0 x1 x2 xs0 xs1 = k0_pay5 x0 x1 xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B; dsimp only
  sl_unfold_run_names
  rw [View.canon_cons_unit_zero hz2]
  simp only [View.readCov_unit_zero (S := S1x2048) _ hz2, View.readCov_unit_zero (S := S1x1) _ hz2, View.readAt_eq_ld, harg2.read_unread, harg3.read_unread, harg4.read_unread, harg6.read_unread, harg7.read_unread,
    View.ld_unit_zero (S := S1x1024x2048) hz3, View.ld_unit_zero (S := S1x2048) hz2, View.ld_unit_zero (S := S2048x128) hz2, View.ld_unit_zero (S := S1x1) hz2]
  try rfl

theorem sout0_B_1_eq (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : ¬cond0_1 i) (x0 : Vec F S1x1024x2048 .f32) (x1 : Vec F S1x2048 .f32) (x2 : Vec F S2048x128 .f32) (xs0 : Vec F S1x2048 .f32) (xs1 : Vec F S1x1 .f32) :
    sout0_B_1 c i arg2 harg2 arg3 harg3 arg4 harg4 arg5 harg5 arg6 harg6 arg7 harg7 hc0 hc1 x0 x1 x2 xs0 xs1 = k0_pay6 x0 x1 xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B; dsimp only
  sl_unfold_run_names
  rw [View.canon_cons_unit_zero hz2]
  simp only [View.readCov_unit_zero (S := S1x2048) _ hz2, View.readCov_unit_zero (S := S1x1) _ hz2, View.readAt_eq_ld, harg2.read_unread, harg3.read_unread, harg4.read_unread, harg6.read_unread, harg7.read_unread,
    View.ld_unit_zero (S := S1x1024x2048) hz3, View.ld_unit_zero (S := S1x2048) hz2, View.ld_unit_zero (S := S2048x128) hz2, View.ld_unit_zero (S := S1x1) hz2]
  try rfl

theorem sout0_C_0_eq (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : cond0_1 i) (x0 : Vec F S1x1024x2048 .f32) (x1 : Vec F S1x2048 .f32) (x2 : Vec F S2048x128 .f32) (xs0 : Vec F S1x2048 .f32) (xs1 : Vec F S1x1 .f32) :
    sout0_C_0 c i arg2 harg2 arg3 harg3 arg4 harg4 arg5 harg5 arg6 harg6 arg7 harg7 hc0 hc1 x0 x1 x2 xs0 xs1 = k0_pay5 x0 x1 xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C; dsimp only
  sl_unfold_run_names
  rw [View.canon_cons_unit_zero hz2]
  simp only [View.readCov_unit_zero (S := S1x2048) _ hz2, View.readCov_unit_zero (S := S1x1) _ hz2, View.readAt_eq_ld, harg2.read_unread, harg3.read_unread, harg4.read_unread, harg6.read_unread, harg7.read_unread,
    View.ld_unit_zero (S := S1x1024x2048) hz3, View.ld_unit_zero (S := S1x2048) hz2, View.ld_unit_zero (S := S2048x128) hz2, View.ld_unit_zero (S := S1x1) hz2]
  try rfl

theorem sout0_C_1_eq (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : cond0_1 i) (x0 : Vec F S1x1024x2048 .f32) (x1 : Vec F S1x2048 .f32) (x2 : Vec F S2048x128 .f32) (xs0 : Vec F S1x2048 .f32) (xs1 : Vec F S1x1 .f32) :
    sout0_C_1 c i arg2 harg2 arg3 harg3 arg4 harg4 arg5 harg5 arg6 harg6 arg7 harg7 hc0 hc1 x0 x1 x2 xs0 xs1 = k0_pay6 x0 x1 xs1 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C; dsimp only
  sl_unfold_run_names
  rw [View.canon_cons_unit_zero hz2]
  simp only [View.readCov_unit_zero (S := S1x2048) _ hz2, View.readCov_unit_zero (S := S1x1) _ hz2, View.readAt_eq_ld, harg2.read_unread, harg3.read_unread, harg4.read_unread, harg6.read_unread, harg7.read_unread,
    View.ld_unit_zero (S := S1x1024x2048) hz3, View.ld_unit_zero (S := S1x2048) hz2, View.ld_unit_zero (S := S2048x128) hz2, View.ld_unit_zero (S := S1x1) hz2]
  try rfl

theorem out0_C_3_eq (c : Dev nD) (i : grid0.Coords) (arg2 : Memref sig .tc .vmem S1x1024x2048 .f32) (harg2 : arg2.IsWhole) (arg3 : Memref sig .tc .vmem S1x2048 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : cond0_1 i) (x0 : Vec F S1x1024x2048 .f32) (x1 : Vec F S1x2048 .f32) (x2 : Vec F S2048x128 .f32) (xs0 : Vec F S1x2048 .f32) (xs1 : Vec F S1x1 .f32) :
    out0_C_3 c i arg2 harg2 arg3 harg3 arg4 harg4 arg5 harg5 arg6 harg6 arg7 harg7 hc0 hc1 x0 x1 x2 xs0 xs1 = k0_pay7 (k0_pay5 x0 x1 xs0) (k0_pay6 x0 x1 xs1) x2 := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C; dsimp only
  sl_unfold_run_names
  rw [View.canon_cons_unit_zero hz3]
  simp only [View.readCov_unit_zero (S := S1x2048) _ hz2, View.readCov_unit_zero (S := S1x1) _ hz2, View.readAt_eq_ld, harg2.read_unread, harg3.read_unread, harg4.read_unread, harg6.read_unread, harg7.read_unread,
    View.ld_unit_zero (S := S1x1024x2048) hz3, View.ld_unit_zero (S := S1x2048) hz2, View.ld_unit_zero (S := S2048x128) hz2, View.ld_unit_zero (S := S1x1) hz2]
  try rfl

end Cert.KernelIdeal.Hand

end
-- ==== Proof.BlocksPool.lean ====
/-
  Which array entries the pooling kernel's blocks are.  Point t has batch t / 8 and tile t % 8: the block of x is rows
  1024·(t % 8) … of batch t / 8; the gate vector and the projection are taken whole at every point; the output block is
  row t / 8 of the summary array.
-/
import proofs.«104028_j9234179686589_2_alg».proof.Proof.FramePoolBase
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

section Region0

variable (V : (c : Dev nD) → (b : Ref sig .tc) → Buf (Elt F) ((c : Thread nD τ).loc b))

/-- The printed index maps, decided over the 32 points. -/
theorem idx0 : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 8 ∧ win0_3.index t (1 : Fin 3) = 0 ∧ win0_3.index t (2 : Fin 3) = 0 :=
  (by decide +kernel : ∀ t : Fin grid0.N, _)

/-- The block of x at point t, entry (0, r, d), is x at (t / 8, 1024·(t % 8) + r, d). -/
theorem iblk0_0_apply (c : Dev nD) (t : Fin cfg0.N) (r : Fin 1024) (d : Fin 2048) (b : Fin 4) (s : Fin 8192)
    (hb : b.val = t.val / 8) (hs : s.val = (t.val % 8) * 1024 + r.val) :
    iblk0 V c 0 t (ix3 0 r d) = V c main_arg0 (ix3 b s d) := by
  unfold iblk0
  show V c main_arg0 (((cfg0.win 0).blk t).view.emb (ix3 0 r d)) = V c main_arg0 (ix3 b s d)
  refine congrArg _ ?_
  obtain ⟨e0, e1, e2, -⟩ := idx0 t
  funext a; apply Fin.ext
  match a with
  | ⟨0, _⟩ => show win0_0.index t (0 : Fin 3) * 1 + 1 * (0 : Fin 1).val = b.val; simp only [Fin.val_zero]; omega
  | ⟨1, _⟩ => show win0_0.index t (1 : Fin 3) * 1024 + 1 * r.val = s.val; omega
  | ⟨2, _⟩ => show win0_0.index t (2 : Fin 3) * 2048 + 1 * d.val = d.val; omega

/-- The gate vector's block is the whole array. -/
theorem iblk0_1_apply (c : Dev nD) (t : Fin cfg0.N) (d : Fin 2048) :
    iblk0 V c 1 t (ix2 0 d) = V c main_arg5 (ix2 0 d) := by
  unfold iblk0
  show V c main_arg5 (((cfg0.win 1).blk t).view.emb (ix2 0 d)) = V c main_arg5 (ix2 0 d)
  refine congrArg _ ?_
  obtain ⟨-, -, -, e0, e1, -⟩ := idx0 t
  funext a; apply Fin.ext
  match a with
  | ⟨0, _⟩ => show win0_1.index t (0 : Fin 2) * 1 + 1 * (0 : Fin 1).val = (0 : Fin 1).val; simp only [Fin.val_zero]; omega
  | ⟨1, _⟩ => show win0_1.index t (1 : Fin 2) * 2048 + 1 * d.val = d.val; omega

/-- The projection's block is the whole array. -/
theorem iblk0_2_apply (c : Dev nD) (t : Fin cfg0.N) (d : Fin 2048) (o : Fin 128) :
    iblk0 V c 2 t (ix2 d o) = V c main_v0 (ix2 d o) := by
  unfold iblk0
  show V c main_v0 (((cfg0.win 2).blk t).view.emb (ix2 d o)) = V c main_v0 (ix2 d o)
  refine congrArg _ ?_
  obtain ⟨-, -, -, -, -, e0, e1, -⟩ := idx0 t
  funext a; apply Fin.ext
  match a with
  | ⟨0, _⟩ => show win0_2.index t (0 : Fin 2) * 2048 + 1 * d.val = d.val; omega
  | ⟨1, _⟩ => show win0_2.index t (1 : Fin 2) * 128 + 1 * o.val = o.val; omega

/-- The output block's entry (0, 0, o) is entry (t / 8, 0, o) of the summary array. -/
theorem oblk0_3_emb (t : Fin cfg0.N) (o : Fin 128) (b : Fin 4) (hb : b.val = t.val / 8) :
    ((cfg0.win 3).blk t).view.emb (ix3 0 0 o) = ix3 b 0 o := by
  obtain ⟨-, -, -, -, -, -, -, e0, e1, e2⟩ := idx0 t
  funext a; apply Fin.ext
  match a with
  | ⟨0, _⟩ => show win0_3.index t (0 : Fin 3) * 1 + 1 * (0 : Fin 1).val = b.val; simp only [Fin.val_zero]; omega
  | ⟨1, _⟩ => show win0_3.index t (1 : Fin 3) * 1 + 1 * (0 : Fin 1).val = (0 : Fin 1).val; simp only [Fin.val_zero]; omega
  | ⟨2, _⟩ => show win0_3.index t (2 : Fin 3) * 128 + 1 * o.val = o.val; omega

end Region0

end Cert.KernelIdeal.Hand

end
-- ==== Proof.Spec.lean ====
/-
  The mathematics both programs compute, over the extended reals, as plain functions of plain indices.

  Pooling.  For a batch b and a position s the gate is g(b,s) = logistic (Σ_d x(b,s,d)·wg(d)).  The pooled vector is
  xp(b,d) = (Σ_s x(b,s,d)·g(b,s)) / (Σ_s g(b,s) + ε₆), its projection raw(b,o) = Σ_d xp(b,d)·Wp(o,d), and the summary is
  raw(b,·) divided by max(‖raw(b,·)‖₂, ε₁₂).

  Attention over the bus.  aug(b,·,·) is the summary row followed by the 24 cached rows.  For a row x(b,s,·):
  q(o) = Σ_d x(d)·Wq(o,d); the scores are (Σ_o q(o)·aug(l,o))·scale; the weights their softmax over the 25 rows
  (the row maximum subtracted first); gathered(o) = Σ_l weight(l)·aug(l,o); the result is
  x(d) + Σ_o gathered(o)·M(o,d) for a modulation matrix M.

  The two programs differ in where the gate's logistic σ multiplies: one uses M(o,d) = Wm(d,o)·σ inside the sum
  (`outK`), the other multiplies the finished sum by σ (`outR`).
-/
import Idealize.ShloMosaic.PureOps.Ideal

noncomputable section

namespace Cert.Spec

open Idealize.ShloMosaic

/-- The literals the two programs share, as the extended reals their words denote. -/
def eps6 : EReal := Ideal.ofBits .f32 0x358637BD#32
def eps12 : EReal := Ideal.ofBits .f32 0x2B8CBCCC#32
def scale : EReal := Ideal.ofBits .f32 0x3DB504F3#32
def ninf : EReal := Ideal.ofBits .f32 0xFF800000#32

/-! ## One row of x -/

/-- The pooling gate of a row: the logistic of its inner product with the gate vector. -/
def rowGate (xr wg : Fin 2048 → EReal) : EReal := Ideal.logistic (∑ d : Fin 2048, xr d * wg d)

/-- The query of a row: q(o) = Σ_d x(d)·wq(d,o). -/
def rowQ (xr : Fin 2048 → EReal) (wq : Fin 2048 → Fin 128 → EReal) (o : Fin 128) : EReal := ∑ d : Fin 2048, xr d * wq d o

/-- The scaled scores of a row against the 25 bus rows. -/
def rowScore (xr : Fin 2048 → EReal) (wq : Fin 2048 → Fin 128 → EReal) (au : Fin 25 → Fin 128 → EReal) (l : Fin 25) : EReal :=
  (∑ o : Fin 128, rowQ xr wq o * au l o) * scale

/-- The row maximum the softmax subtracts (joined with the reduction's initial value). -/
def rowMax (f : Fin 25 → EReal) : EReal := max ninf (Finset.univ.sup f)

/-- The unnormalised softmax weights. -/
def rowExp (f : Fin 25 → EReal) (l : Fin 25) : EReal := Ideal.exp (f l - rowMax f)

/-- The softmax weights. -/
def rowAttn (f : Fin 25 → EReal) (l : Fin 25) : EReal := Ideal.div (rowExp f l) (∑ l' : Fin 25, rowExp f l')

/-- What a row gathers from the bus. -/
def rowGather (xr : Fin 2048 → EReal) (wq : Fin 2048 → Fin 128 → EReal) (au : Fin 25 → Fin 128 → EReal) (o : Fin 128) : EReal :=
  ∑ l : Fin 25, rowAttn (rowScore xr wq au) l * au l o

/-- The row's result with the modulation matrix `wm` inside the sum. -/
def rowOut (xr : Fin 2048 → EReal) (wq : Fin 2048 → Fin 128 → EReal) (au : Fin 25 → Fin 128 → EReal)
    (wm : Fin 128 → Fin 2048 → EReal) (d : Fin 2048) : EReal :=
  xr d + ∑ o : Fin 128, rowGather xr wq au o * wm o d

/-! ## The summary of pooled sums -/

/-- From the pooled sums `ax` (a vector) and `ag` (a number) and the projection `wp`: divide, project, normalise. -/
def poolXp (ax : Fin 2048 → EReal) (ag : EReal) (d : Fin 2048) : EReal := Ideal.div (ax d) (ag + eps6)
def poolRaw (ax : Fin 2048 → EReal) (ag : EReal) (wp : Fin 2048 → Fin 128 → EReal) (o : Fin 128) : EReal :=
  ∑ d : Fin 2048, poolXp ax ag d * wp d o
def poolNorm (ax : Fin 2048 → EReal) (ag : EReal) (wp : Fin 2048 → Fin 128 → EReal) : EReal :=
  Ideal.sqrt (∑ o : Fin 128, poolRaw ax ag wp o * poolRaw ax ag wp o)
def poolSummary (ax : Fin 2048 → EReal) (ag : EReal) (wp : Fin 2048 → Fin 128 → EReal) (o : Fin 128) : EReal :=
  Ideal.div (poolRaw ax ag wp o) (max (poolNorm ax ag wp) eps12)

/-! ## The whole arrays -/

/-- The seven argument arrays as functions of plain indices. -/
structure Inputs where
  x : Fin 4 → Fin 8192 → Fin 2048 → EReal
  bc : Fin 4 → Fin 24 → Fin 128 → EReal
  Wp : Fin 128 → Fin 2048 → EReal
  Wq : Fin 128 → Fin 2048 → EReal
  Wm : Fin 2048 → Fin 128 → EReal
  wg : Fin 2048 → EReal
  gate : EReal

variable (I : Inputs)

def g (b : Fin 4) (s : Fin 8192) : EReal := rowGate (I.x b s) I.wg
def accx (b : Fin 4) (d : Fin 2048) : EReal := ∑ s : Fin 8192, I.x b s d * g I b s
def accg (b : Fin 4) : EReal := ∑ s : Fin 8192, g I b s
def summary (b : Fin 4) (o : Fin 128) : EReal := poolSummary (accx I b) (accg I b) (fun d o => I.Wp o d) o

/-- The bus rows of batch b: the summary first, then the cache. -/
def aug (b : Fin 4) (l : Fin 25) (o : Fin 128) : EReal :=
  if h : l.val = 0 then summary I b o else I.bc b ⟨l.val - 1, by have := l.isLt; omega⟩ o

/-- The gate's logistic. -/
def sig : EReal := Ideal.logistic I.gate

/-- The first result with σ inside the last sum. -/
def outK (b : Fin 4) (s : Fin 8192) (d : Fin 2048) : EReal :=
  rowOut (I.x b s) (fun d o => I.Wq o d) (aug I b) (fun o d => I.Wm d o * sig I) d

/-- The first result with σ multiplying the finished sum. -/
def outR (b : Fin 4) (s : Fin 8192) (d : Fin 2048) : EReal :=
  I.x b s d + (∑ o : Fin 128, rowGather (I.x b s) (fun d o => I.Wq o d) (aug I b) o * I.Wm d o) * sig I

/-- The second result: the cache followed by the summary row. -/
def newCache (b : Fin 4) (l : Fin 25) (o : Fin 128) : EReal :=
  if h : l.val < 24 then I.bc b ⟨l.val, h⟩ o else summary I b o

end Cert.Spec

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.PayPoolGate.lean ====
/-
  The pooling kernel's gate, read at a row.

  The body views its [1, 1024, 2048] block of x as a [1024, 2048] array, multiplies each row entry by entry by the one
  row of the gate vector, sums every row along its 2048 columns and takes the logistic of the sums, kept as a
  one-column array.  So the entry of row r is the logistic of Σ_d x(r, d) · wg(d): the specification's gate of that row.
-/
import proofs.«104028_j9234179686589_2_alg».proof.Proof.Gen.KernelIdeal.Skeleton
import proofs.«104028_j9234179686589_2_alg».proof.Proof.Spec
import proofs.«104028_j9234179686589_2_alg».proof.Proof.LibKeepdims
import Idealize.ShloMosaic.Lib.ValueLayout

noncomputable section

namespace Cert.KernelIdeal.Pay

open Idealize.ShloMosaic Idealize.ShloMosaic.ValueIdx Cert.KernelIdeal Cert.KernelIdeal.Gen Cert.LibKeepdims

/-- The block of x with its leading unit axis dropped reads, at (r, d), the block at (0, r, d). -/
theorem k0_pay3_apply (v3 : Vec Ideal S1x1024x2048 .f32) (r : Fin 1024) (d : Fin 2048) :
    k0_pay3 (F := Ideal) v3 (ix2 r d) = v3 (ix3 0 r d) := by
  unfold k0_pay3
  exact shapeCast_1ab_ab_apply v3 _ r d

/-- The gate of row r: the logistic of the row's inner product with the gate vector. -/
theorem k0_pay4_apply (v3 : Vec Ideal S1x1024x2048 .f32) (v5 : Vec Ideal S1x2048 .f32) (r : Fin 1024) :
    k0_pay4 (F := Ideal) v3 v5 (ix2 r 0)
      = Cert.Spec.rowGate (fun d => v3 (ix3 0 r d)) (fun d => v5 (ix2 0 d)) := by
  unfold k0_pay4 Cert.Spec.rowGate
  refine congrArg Ideal.logistic ?_
  refine (shapeCast_a_a1_apply _ _ r 0).trans ?_
  refine (multiReduction_add_rows_apply _ _ _ _ r).trans ?_
  refine Finset.sum_congr rfl fun d _ => ?_
  rw [mulf_apply, k0_pay3_apply, broadcastTo_1b_ab_apply]

end Cert.KernelIdeal.Pay

end
-- ==== Proof.LibColumnSum.lean ====
/-
  The sum of a two-axis array along its FIRST axis, read at an entry: over the extended reals, started from the zero
  word, the sum of an `[a, b]` array over its rows is at column `j` the sum over the rows `k` of the entries
  `(k, j)`.  It holds for any extents; with `b = 1` it is the total of a one-column array.
-/
import Idealize.ShloMosaic.Lib.ValueIdx
import Idealize.ShloMosaic.PureOps.Ideal.Laws

noncomputable section

open scoped BigOperators

namespace Cert.LibColumnSum

open Idealize.ShloMosaic Idealize.ShloMosaic.ValueIdx

/-- Over the extended reals, the sum of an `[a, b]` array along its first axis, started from the zero word, is at
    column `j` the sum over the rows `k` of the entries `(k, j)`. -/
theorem multiReduction_add_cols_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ k : Fin a, src (ix2 k j) := by
  refine (Ideal.multiReduction_add_single src 0x00000000#32 h hφ hacc (ix1 j)).trans ?_
  refine Finset.sum_congr rfl fun k _ => congrArg src ?_
  funext ax
  apply Fin.ext
  match ax with
  | ⟨0, _⟩ => rfl
  | ⟨1, _⟩ => rfl

end Cert.LibColumnSum

end
-- ==== Proof.PayPoolSums.lean ====
/-
  The pooling kernel's two running sums, read at an entry.

  The body spreads each row's gate across the row's 2048 columns, multiplies the block of x by it entry by entry and
  sums the 1024 rows: at column d that is Σ_r x(r, d) · g(r), added to the running vector it loaded.  It also sums
  the 1024 gates themselves and adds them to the running number it loaded.
-/
import proofs.«104028_j9234179686589_2_alg».proof.Proof.PayPoolGate
import proofs.«104028_j9234179686589_2_alg».proof.Proof.LibColumnSum

noncomputable section

namespace Cert.KernelIdeal.Pay

open Idealize.ShloMosaic Idealize.ShloMosaic.ValueIdx Cert.KernelIdeal Cert.KernelIdeal.Gen Cert.LibKeepdims
  Cert.LibColumnSum

/-- The running vector after a block: what was loaded plus Σ_r x(r, d) · g(r). -/
theorem k0_pay5_apply (v3 : Vec Ideal S1x1024x2048 .f32) (v5 : Vec Ideal S1x2048 .f32) (v11 : Vec Ideal S1x2048 .f32)
    (d : Fin 2048) :
    k0_pay5 (F := Ideal) v3 v5 v11 (ix2 0 d)
      = v11 (ix2 0 d) + ∑ r : Fin 1024, v3 (ix3 0 r d)
          * Cert.Spec.rowGate (fun d' => v3 (ix3 0 r d')) (fun d' => v5 (ix2 0 d')) := by
  unfold k0_pay5
  rw [shapeCast_self, addf_apply]
  refine congrArg (v11 (ix2 0 d) + ·) ?_
  refine (shapeCast_a_1a_apply _ _ 0 d).trans ?_
  refine (multiReduction_add_cols_apply _ _ _ _ d).trans ?_
  refine Finset.sum_congr rfl fun r _ => ?_
  rw [mulf_apply, k0_pay3_apply, broadcastTo_a1_ab_apply, k0_pay4_apply]

/-- The running number after a block: what was loaded plus Σ_r g(r). -/
theorem k0_pay6_apply (v3 : Vec Ideal S1x1024x2048 .f32) (v5 : Vec Ideal S1x2048 .f32) (v20 : Vec Ideal S1x1 .f32) :
    k0_pay6 (F := Ideal) v3 v5 v20 (ix2 0 0)
      = v20 (ix2 0 0) + ∑ r : Fin 1024,
          Cert.Spec.rowGate (fun d' => v3 (ix3 0 r d')) (fun d' => v5 (ix2 0 d')) := by
  unfold k0_pay6
  rw [shapeCast_self, addf_apply]
  refine congrArg (v20 (ix2 0 0) + ·) ?_
  refine (shapeCast_a_1a_apply _ _ 0 0).trans ?_
  refine (multiReduction_add_cols_apply _ _ _ _ 0).trans ?_
  refine Finset.sum_congr rfl fun r _ => ?_
  rw [k0_pay4_apply]

end Cert.KernelIdeal.Pay

end
-- ==== Proof.PayPoolInit.lean ====
/-
  What the pooling kernel stores in its two running sums at the first block of a batch: the zero word, which over the
  extended reals is the number 0, at every entry.
-/
import proofs.«104028_j9234179686589_2_alg».proof.Proof.Gen.KernelIdeal.Skeleton
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen

/-- The running vector starts at 0. -/
theorem k0_pay1_apply (d : Fin 2048) : k0_pay1 (F := Ideal) (ix2 0 d) = 0 := by
  unfold k0_pay1
  rw [shapeCast_self, broadcast_apply]
  exact Ideal.ofBits_zero_f32

/-- The running number starts at 0. -/
theorem k0_pay2_apply : k0_pay2 (F := Ideal) (ix2 0 0) = 0 := by
  unfold k0_pay2
  rw [shapeCast_self, broadcast_apply]
  exact Ideal.ofBits_zero_f32

end Cert.KernelIdeal.Pay

end
-- ==== Proof.AccPool.lean ====
/-
  What the pooling kernel's two accumulators hold after each point, at the ideal instance.

  Write b = t / 8 and j = t % 8 for point t.  The tile's contribution to the first accumulator at column d is
  Σ_{r < 1024} x(b, 1024·j + r, d)·g(b, 1024·j + r) with g the row's gate, and to the second Σ_r g(b, 1024·j + r).
  After point t the first accumulator holds, at column d, the sum of the contributions of tiles 0 … j of batch b
  (tile 0 added to the zero the point stored first), and the second likewise — by induction on the point.
-/
import proofs.«104028_j9234179686589_2_alg».proof.Proof.PoolPieces
import proofs.«104028_j9234179686589_2_alg».proof.Proof.BlocksPool
import proofs.«104028_j9234179686589_2_alg».proof.Proof.PayPoolSums
import proofs.«104028_j9234179686589_2_alg».proof.Proof.PayPoolInit
import proofs.«104028_j9234179686589_2_alg».proof.Proof.Spec

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen Cert.KernelIdeal.Pay

variable (V : (c : Dev nD) → (b : Ref sig .tc) → Buf (Elt Ideal) ((c : Thread nD τ).loc b))

/-- x at batch b and position s given as numbers, zero outside the array. -/
def xN (c : Dev nD) (b s : ℕ) (d : Fin 2048) : EReal :=
  if h : b < 4 ∧ s < 8192 then V c main_arg0 (ix3 (⟨b, h.1⟩ : Fin 4) (⟨s, h.2⟩ : Fin 8192) d) else 0
/-- The gate vector. -/
def wgN (c : Dev nD) (d : Fin 2048) : EReal := V c main_arg5 (ix2 (0 : Fin 1) d)
/-- The gate of position (b, s). -/
def gN (c : Dev nD) (b s : ℕ) : EReal := Cert.Spec.rowGate (xN V c b s) (wgN V c)
/-- Tile j's contribution to the first accumulator at column d, and to the second. -/
def tile0 (c : Dev nD) (b j : ℕ) (d : Fin 2048) : EReal := ∑ r : Fin 1024, xN V c b (j * 1024 + r.val) d * gN V c b (j * 1024 + r.val)
def tile1 (c : Dev nD) (b j : ℕ) : EReal := ∑ r : Fin 1024, gN V c b (j * 1024 + r.val)

/-- The block of x at point t, read at (0, r, d). -/
theorem blkX_apply (c : Dev nD) (t : Fin cfg0.N) (r : Fin 1024) (d : Fin 2048) :
    iblk0 V c 0 t (ix3 0 r d) = xN V c (t.val / 8) (t.val % 8 * 1024 + r.val) d := by
  have hN : t.val < 32 := lt_of_lt_of_eq t.isLt (show cfg0.N = 32 from N_0)
  have hr : r.val < 1024 := r.isLt
  have hb : t.val / 8 < 4 := by omega
  have hs : t.val % 8 * 1024 + r.val < 8192 := by omega
  unfold xN
  rw [dif_pos ⟨hb, hs⟩]
  exact iblk0_0_apply V c t r d ⟨t.val / 8, hb⟩ ⟨t.val % 8 * 1024 + r.val, hs⟩ rfl rfl

/-- The gate of row r of the block at point t. -/
theorem blkGate (c : Dev nD) (t : Fin cfg0.N) (r : Fin 1024) :
    Cert.Spec.rowGate (fun d' => iblk0 V c 0 t (ix3 0 r d')) (fun d' => iblk0 V c 1 t (ix2 0 d'))
      = gN V c (t.val / 8) (t.val % 8 * 1024 + r.val) := by
  unfold gN
  congr 1
  · funext d'; exact blkX_apply V c t r d'
  · funext d'; exact iblk0_1_apply V c t d'

/-- The first accumulator's update on the blocks of point t: what it held plus the tile's contribution. -/
theorem pay5_blocks (c : Dev nD) (t : Fin cfg0.N) (prev : Vec Ideal S1x2048 .f32) (d : Fin 2048) :
    k0_pay5 (F := Ideal) (iblk0 V c 0 t) (iblk0 V c 1 t) prev (ix2 0 d) = prev (ix2 0 d) + tile0 V c (t.val / 8) (t.val % 8) d := by
  refine (k0_pay5_apply (iblk0 V c 0 t) (iblk0 V c 1 t) prev d).trans ?_
  unfold tile0
  refine congrArg (fun z => prev (ix2 0 d) + z) ?_
  refine Finset.sum_congr rfl fun r _ => ?_
  rw [blkGate V c t r, blkX_apply V c t r d]

/-- The second accumulator's update. -/
theorem pay6_blocks (c : Dev nD) (t : Fin cfg0.N) (prev : Vec Ideal S1x1 .f32) :
    k0_pay6 (F := Ideal) (iblk0 V c 0 t) (iblk0 V c 1 t) prev (ix2 0 0) = prev (ix2 0 0) + tile1 V c (t.val / 8) (t.val % 8) := by
  refine (k0_pay6_apply (iblk0 V c 0 t) (iblk0 V c 1 t) prev).trans ?_
  unfold tile1
  refine congrArg (fun z => prev (ix2 0 0) + z) ?_
  refine Finset.sum_congr rfl fun r _ => ?_
  rw [blkGate V c t r]

/-- What the accumulators hold after a point of tile 0 … -/
theorem acc_A (c : Dev nD) (t : Fin cfg0.N) (h0 : t.val % 8 = 0) (h1 : ¬t.val % 8 = 7) :
    (outsAt0 V c t.val t.isLt).2.1 = k0_pay5 (iblk0 V c 0 t) (iblk0 V c 1 t) (k0_pay1 (F := Ideal))
    ∧ (outsAt0 V c t.val t.isLt).2.2 = k0_pay6 (iblk0 V c 0 t) (iblk0 V c 1 t) (k0_pay2 (F := Ideal)) := by
  have e := outsAt0_A V c t h0 h1
  have e0 := sout0_A_0_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t)
  have e1 := sout0_A_1_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t)
  revert e
  generalize outsAt0 V c t.val t.isLt = p
  intro e
  subst e
  dsimp only
  exact ⟨e0, e1⟩

/-- … of tiles 1–6 … -/
theorem acc_B (c : Dev nD) (t : Fin cfg0.N) (h0 : ¬t.val % 8 = 0) (h1 : ¬t.val % 8 = 7) :
    (outsAt0 V c t.val t.isLt).2.1 = k0_pay5 (iblk0 V c 0 t) (iblk0 V c 1 t) (outsAt0 V c (t.val - 1) (Nat.lt_of_le_of_lt (Nat.sub_le _ _) t.isLt)).2.1
    ∧ (outsAt0 V c t.val t.isLt).2.2 = k0_pay6 (iblk0 V c 0 t) (iblk0 V c 1 t) (outsAt0 V c (t.val - 1) (Nat.lt_of_le_of_lt (Nat.sub_le _ _) t.isLt)).2.2 := by
  have e := outsAt0_B V c t h0 h1
  have e0 := sout0_B_0_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2
  have e1 := sout0_B_1_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2
  revert e
  generalize outsAt0 V c t.val t.isLt = p
  intro e
  subst e
  dsimp only
  exact ⟨e0, e1⟩

/-- … and of tile 7, where the output window's buffer is also stored. -/
theorem acc_C (c : Dev nD) (t : Fin cfg0.N) (h0 : ¬t.val % 8 = 0) (h1 : t.val % 8 = 7) :
    (outsAt0 V c t.val t.isLt).2.1 = k0_pay5 (iblk0 V c 0 t) (iblk0 V c 1 t) (outsAt0 V c (t.val - 1) (Nat.lt_of_le_of_lt (Nat.sub_le _ _) t.isLt)).2.1
    ∧ (outsAt0 V c t.val t.isLt).2.2 = k0_pay6 (iblk0 V c 0 t) (iblk0 V c 1 t) (outsAt0 V c (t.val - 1) (Nat.lt_of_le_of_lt (Nat.sub_le _ _) t.isLt)).2.2
    ∧ (outsAt0 V c t.val t.isLt).1 = k0_pay7 (k0_pay5 (iblk0 V c 0 t) (iblk0 V c 1 t) (outsAt0 V c (t.val - 1) (Nat.lt_of_le_of_lt (Nat.sub_le _ _) t.isLt)).2.1)
        (k0_pay6 (iblk0 V c 0 t) (iblk0 V c 1 t) (outsAt0 V c (t.val - 1) (Nat.lt_of_le_of_lt (Nat.sub_le _ _) t.isLt)).2.2) (iblk0 V c 2 t) := by
  have e := outsAt0_C V c t h0 h1
  have e0 := sout0_C_0_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2
  have e1 := sout0_C_1_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2
  have e3 := out0_C_3_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2
  revert e
  generalize outsAt0 V c t.val t.isLt = p
  intro e
  subst e
  dsimp only
  exact ⟨e0, e1, e3⟩

/-- THE ACCUMULATION: after point n the accumulators hold the contributions of tiles 0 … n % 8 of batch n / 8. -/
theorem acc_inv (c : Dev nD) : ∀ (n : ℕ) (hn : n < cfg0.N),
    (∀ d : Fin 2048, (outsAt0 V c n hn).2.1 (ix2 0 d) = ∑ j ∈ Finset.range (n % 8 + 1), tile0 V c (n / 8) j d)
    ∧ (outsAt0 V c n hn).2.2 (ix2 0 0) = ∑ j ∈ Finset.range (n % 8 + 1), tile1 V c (n / 8) j := by
  intro n
  induction n with
  | zero =>
    intro hn
    obtain ⟨e0, e1⟩ := acc_A V c ⟨0, hn⟩ (Nat.zero_mod 8) (by show ¬ (0 : ℕ) % 8 = 7; decide)
    refine ⟨fun d => ?_, ?_⟩
    · show (outsAt0 V c (⟨0, hn⟩ : Fin cfg0.N).val (⟨0, hn⟩ : Fin cfg0.N).isLt).2.1 (ix2 0 d) = _
      rw [e0, pay5_blocks V c ⟨0, hn⟩ _ d, k0_pay1_apply d, zero_add]
      simp only [Nat.zero_mod, Nat.zero_div, zero_add, Finset.sum_range_one]
    · show (outsAt0 V c (⟨0, hn⟩ : Fin cfg0.N).val (⟨0, hn⟩ : Fin cfg0.N).isLt).2.2 (ix2 0 0) = _
      rw [e1, pay6_blocks V c ⟨0, hn⟩ _, k0_pay2_apply, zero_add]
      simp only [Nat.zero_mod, Nat.zero_div, zero_add, Finset.sum_range_one]
  | succ n ih =>
    intro hn
    obtain ⟨ih0, ih1⟩ := ih (Nat.lt_of_succ_lt hn)
    by_cases h0 : (n + 1) % 8 = 0
    · obtain ⟨e0, e1⟩ := acc_A V c ⟨n + 1, hn⟩ h0 (by show ¬(n + 1) % 8 = 7; omega)
      refine ⟨fun d => ?_, ?_⟩
      · show (outsAt0 V c (⟨n + 1, hn⟩ : Fin cfg0.N).val (⟨n + 1, hn⟩ : Fin cfg0.N).isLt).2.1 (ix2 0 d) = _
        rw [e0, pay5_blocks V c ⟨n + 1, hn⟩ _ d, k0_pay1_apply d, zero_add]
        show tile0 V c ((n + 1) / 8) ((n + 1) % 8) d = _
        rw [h0, zero_add, Finset.sum_range_one]
      · show (outsAt0 V c (⟨n + 1, hn⟩ : Fin cfg0.N).val (⟨n + 1, hn⟩ : Fin cfg0.N).isLt).2.2 (ix2 0 0) = _
        rw [e1, pay6_blocks V c ⟨n + 1, hn⟩ _, k0_pay2_apply, zero_add]
        show tile1 V c ((n + 1) / 8) ((n + 1) % 8) = _
        rw [h0, zero_add, Finset.sum_range_one]
    · have hdiv : n / 8 = (n + 1) / 8 := by omega
      have hmod : n % 8 + 1 = (n + 1) % 8 := by omega
      have step0 : ∀ d : Fin 2048, (outsAt0 V c (n + 1) hn).2.1 (ix2 0 d)
          = (outsAt0 V c n (Nat.lt_of_succ_lt hn)).2.1 (ix2 0 d) + tile0 V c ((n + 1) / 8) ((n + 1) % 8) d := by
        intro d
        by_cases h1 : (n + 1) % 8 = 7
        · obtain ⟨e0, -, -⟩ := acc_C V c ⟨n + 1, hn⟩ h0 h1
          show (outsAt0 V c (⟨n + 1, hn⟩ : Fin cfg0.N).val (⟨n + 1, hn⟩ : Fin cfg0.N).isLt).2.1 (ix2 0 d) = _
          rw [e0]; exact pay5_blocks V c ⟨n + 1, hn⟩ _ d
        · obtain ⟨e0, -⟩ := acc_B V c ⟨n + 1, hn⟩ h0 h1
          show (outsAt0 V c (⟨n + 1, hn⟩ : Fin cfg0.N).val (⟨n + 1, hn⟩ : Fin cfg0.N).isLt).2.1 (ix2 0 d) = _
          rw [e0]; exact pay5_blocks V c ⟨n + 1, hn⟩ _ d
      have step1 : (outsAt0 V c (n + 1) hn).2.2 (ix2 0 0)
          = (outsAt0 V c n (Nat.lt_of_succ_lt hn)).2.2 (ix2 0 0) + tile1 V c ((n + 1) / 8) ((n + 1) % 8) := by
        by_cases h1 : (n + 1) % 8 = 7
        · obtain ⟨-, e1, -⟩ := acc_C V c ⟨n + 1, hn⟩ h0 h1
          show (outsAt0 V c (⟨n + 1, hn⟩ : Fin cfg0.N).val (⟨n + 1, hn⟩ : Fin cfg0.N).isLt).2.2 (ix2 0 0) = _
          rw [e1]; exact pay6_blocks V c ⟨n + 1, hn⟩ _
        · obtain ⟨-, e1⟩ := acc_B V c ⟨n + 1, hn⟩ h0 h1
          show (outsAt0 V c (⟨n + 1, hn⟩ : Fin cfg0.N).val (⟨n + 1, hn⟩ : Fin cfg0.N).isLt).2.2 (ix2 0 0) = _
          rw [e1]; exact pay6_blocks V c ⟨n + 1, hn⟩ _
      refine ⟨fun d => ?_, ?_⟩
      · rw [step0 d, ih0 d, hdiv, hmod, Finset.sum_range_succ]
      · rw [step1, ih1, hdiv, hmod, Finset.sum_range_succ]

end Cert.KernelIdeal.Hand

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.PayPoolSummary.lean ====
/-
  The pooling kernel's summary row, read at an entry.

  At the last block of a batch the body divides the pooled vector ax by the pooled number plus ε₆, multiplies the
  quotient (one row) by the projection matrix, and divides the product row by the larger of its Euclidean norm and ε₁₂.
  Entry o of the product row is raw(o) = Σ_d (ax(d) / (ag + ε₆)) · wp(d, o); the norm is the square root of
  Σ_o raw(o)²; the stored entry is raw(o) / max(norm, ε₁₂): the specification's summary.
-/
import proofs.«104028_j9234179686589_2_alg».proof.Proof.Gen.KernelIdeal.Skeleton
import proofs.«104028_j9234179686589_2_alg».proof.Proof.Spec
import proofs.«104028_j9234179686589_2_alg».proof.Proof.LibKeepdims
import proofs.«104028_j9234179686589_2_alg».proof.Proof.LibPlainDot
import Idealize.ShloMosaic.Lib.ValueLayout

noncomputable section

namespace Cert.KernelIdeal.Pay

open Idealize.ShloMosaic Idealize.ShloMosaic.ValueIdx Cert.KernelIdeal Cert.KernelIdeal.Gen Cert.LibKeepdims
  Cert.LibPlainDot

/-- The projection is a plain product [1, 2048] × [2048, 128]. -/
theorem plain_pool : Plain dot_S1x2048_S2048x128_S1x128_1_0_0_1_n_n := ⟨rfl, rfl, rfl, rfl, rfl, rfl⟩

/-- The product row: the pooled vector over the pooled number plus ε₆, times the projection matrix. -/
def poolRawVec (v30 : FVec Ideal S1x2048 .f32) (v31 : FVec Ideal S1x1 .f32) (v36 : FVec Ideal S2048x128 .f32) :
    FVec Ideal S1x128 .f32 :=
  matmul dot_S1x2048_S2048x128_S1x128_1_0_0_1_n_n none
    (divf v30 (broadcastTo S1x2048 (addf v31 (broadcast S1x1 (Scalar.ofBits (F := Ideal) .f32 0x358637BD#32)))
      broadcasts_S1x1_S1x2048))
    (shapeCast S2048x128 v36 shapeCasts_S2048x128_S2048x128)
    (constant (F := Ideal) S1x128 .f32 0x00000000#32)

/-- A row divided by the larger of its Euclidean norm and ε₁₂, stored with a leading unit axis. -/
def normalisedVec (v38 : FVec Ideal S1x128 .f32) : FVec Ideal S1x1x128 .f32 :=
  shapeCast S1x1x128
    (divf v38 (broadcastTo S1x128
      (maximumf
        (sqrt (shapeCast S1x1
          (multiReduction (F := Ideal) .add [1] S1 (mulf v38 v38) 0x00000000#32 reduces_S1x128_S1 (.inl rfl) rfl)
          shapeCasts_S1_S1x1))
        (broadcast S1x1 (Scalar.ofBits (F := Ideal) .f32 0x2B8CBCCC#32)))
      broadcasts_S1x1_S1x128))
    shapeCasts_S1x128_S1x1x128

/-- The stored value is the product row, normalised. -/
theorem k0_pay7_eq (v30 : Vec Ideal S1x2048 .f32) (v31 : Vec Ideal S1x1 .f32) (v36 : Vec Ideal S2048x128 .f32) :
    k0_pay7 (F := Ideal) v30 v31 v36 = normalisedVec (poolRawVec v30 v31 v36) := rfl

/-- Entry o of the product row is Σ_d (ax(d) / (ag + ε₆)) · wp(d, o). -/
theorem poolRawVec_apply (v30 : FVec Ideal S1x2048 .f32) (v31 : FVec Ideal S1x1 .f32) (v36 : FVec Ideal S2048x128 .f32)
    (o : Fin 128) :
    poolRawVec v30 v31 v36 (ix2 0 o)
      = Cert.Spec.poolRaw (fun d => v30 (ix2 0 d)) (v31 (ix2 0 0)) (fun d o => v36 (ix2 d o)) o := by
  unfold poolRawVec Cert.Spec.poolRaw Cert.Spec.poolXp Cert.Spec.eps6
  refine (plain_pool.matmul_zero_apply none _ _ 0 o).trans ?_
  refine Finset.sum_congr rfl fun d _ => ?_
  rw [shapeCast_self, divf_apply, broadcastTo_a1_ab_apply, addf_apply, broadcast_apply]
  rfl

/-- Entry o of a normalised row. -/
theorem normalisedVec_apply (v38 : FVec Ideal S1x128 .f32) (o : Fin 128) :
    normalisedVec v38 (ix3 0 0 o)
      = Ideal.div (v38 (ix2 0 o))
          (max (Ideal.sqrt (∑ o' : Fin 128, v38 (ix2 0 o') * v38 (ix2 0 o'))) Cert.Spec.eps12) := by
  unfold normalisedVec
  refine (shapeCast_ab_1ab_apply _ _ 0 0 o).trans ?_
  rw [divf_apply, broadcastTo_a1_ab_apply, maximumf_apply, broadcast_apply]
  refine congrArg (fun t => Ideal.div (v38 (ix2 0 o)) (max (Ideal.sqrt t) Cert.Spec.eps12)) ?_
  refine (shapeCast_a_a1_apply _ _ 0 0).trans ?_
  refine (multiReduction_add_rows_apply _ _ _ _ 0).trans ?_
  rfl

/-- The summary row of a batch. -/
theorem k0_pay7_apply (v30 : Vec Ideal S1x2048 .f32) (v31 : Vec Ideal S1x1 .f32) (v36 : Vec Ideal S2048x128 .f32)
    (o : Fin 128) :
    k0_pay7 (F := Ideal) v30 v31 v36 (ix3 0 0 o)
      = Cert.Spec.poolSummary (fun d => v30 (ix2 0 d)) (v31 (ix2 0 0)) (fun d o => v36 (ix2 d o)) o := by
  rw [k0_pay7_eq, normalisedVec_apply]
  unfold Cert.Spec.poolSummary Cert.Spec.poolNorm
  simp only [poolRawVec_apply]

end Cert.KernelIdeal.Pay

end
-- ==== Proof.LibTileSum.lean ====
/-
  A sum over J consecutive tiles of R entries each is the sum over all J * R entries.

  For `f : ℕ → M` into any additive commutative monoid (the extended reals among them), any tile length `R` and any
  number of tiles `J`:

    `tile_sum` :  Σ_{j < J} Σ_{r : Fin R} f (j * R + r) = Σ_{s : Fin (J * R)} f s.

  This is pure reindexing (the position `s` is `j * R + r` with `j = s / R`, `r = s % R`); no property of the
  summands is used.  `tile_sum_range` is the same with both sides as sums over ranges of naturals, and
  `tile_sum_fin` has the outer sum over `Fin J`.
-/
import Mathlib.Algebra.BigOperators.Fin
import Mathlib.Algebra.BigOperators.Intervals

open scoped BigOperators

namespace Cert.LibTileSum

variable {M : Type*} [AddCommMonoid M]

/-- Both sides over ranges of naturals: Σ_{j < J} Σ_{r < R} f (j * R + r) = Σ_{s < J * R} f s. -/
theorem tile_sum_range (R : ℕ) (f : ℕ → M) (J : ℕ) :
    ∑ j ∈ Finset.range J, ∑ r ∈ Finset.range R, f (j * R + r) = ∑ s ∈ Finset.range (J * R), f s := by
  induction J with
  | zero => simp
  | succ J ih =>
    rw [Finset.sum_range_succ, ih, Nat.succ_mul, Finset.sum_range_add]

/-- A sum over J consecutive tiles of R entries each is the sum over all J * R entries. -/
theorem tile_sum (R : ℕ) (f : ℕ → M) (J : ℕ) :
    (Finset.range J).sum (fun j => ∑ r : Fin R, f (j * R + r.val)) = ∑ s : Fin (J * R), f s.val := by
  rw [Fin.sum_univ_eq_sum_range (fun s => f s) (J * R), ← tile_sum_range R f J]
  refine Finset.sum_congr rfl fun j _ => ?_
  exact Fin.sum_univ_eq_sum_range (fun r => f (j * R + r)) R

/-- The same with the outer sum over `Fin J`. -/
theorem tile_sum_fin (R : ℕ) (f : ℕ → M) (J : ℕ) :
    ∑ j : Fin J, ∑ r : Fin R, f (j.val * R + r.val) = ∑ s : Fin (J * R), f s.val := by
  rw [← tile_sum R f J]
  exact Fin.sum_univ_eq_sum_range (fun j => ∑ r : Fin R, f (j * R + r.val)) J

end Cert.LibTileSum
-- ==== Proof.FramePoolBody.lean ====
/-
  The pooling kernel's body obligation: at every point the body, handed the input blocks, the output window's buffer and
  the invariant, returns them as the proof data says — by the case the point's tile selects.
-/
import proofs.«104028_j9234179686589_2_alg».proof.Proof.FramePool

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [outsAt0_A V c t h0 h1]
      unfold sout0_A_0 sout0_A_1; (try dsimp only)
      by_cases hz : t.val = 0
      · rw [PhiS_castSucc V c t, PhiS_zero V c _ _ hz, PhiA0_eq]
        iintro ⟨⟨⟨HS0, HS1, Hoth⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hoth Hg]
        · isplitl [HS0 HS1 Hoth]
          · isplitl [HS0]
            · unfold owns; iexists _; isplitr
              swap; · iexact HS0
              ipureintro; exact View.read_writes_of_cover _ _ _ _ _ (scover0_A_0 c _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, HS1, Hoth⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hoth Hg]
        · isplitl [HS0 HS1 Hoth]
          · isplitl [HS0]
            · unfold owns; iexists _; isplitr
              swap; · iexact HS0
              ipureintro; exact View.read_writes_of_cover _ _ _ _ _ (scover0_A_0 c _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_3 sout0_C_0 sout0_C_1; (try dsimp only)
      · rw [PhiS_castSucc V c t, PhiS_pos V c _ _ hz]
        iintro ⟨⟨⟨HS0, HS1, Hoth⟩, Hg⟩, Ho, ⟨%d0, H0⟩, ⟨%d1, H1⟩, ⟨%d2, H2⟩, ⟨%d3, H3⟩⟩
        iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) _ _).2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        iintro ⟨H0, H1, H2, ⟨%e3, H3⟩, ⟨%es0, HS0⟩, ⟨%es1, HS1⟩⟩
        isplitl [HS0 HS1 Hoth Hg]
        · isplitl [HS0 HS1 Hoth]
          · isplitl [HS0]
            · unfold owns; iexists _; isplitr
              swap; · iexact HS0
              ipureintro; exact View.read_writes_of_cover _ _ _ _ _ (scover0_C_0 c _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B_0 sout0_B_1; (try dsimp only)
      · rw [PhiS_castSucc V c t, PhiS_pos V c _ _ hz]
        iintro ⟨⟨⟨HS0, HS1, Hoth⟩, Hg⟩, Ho, ⟨%d0, H0⟩, ⟨%d1, H1⟩, ⟨%d2, H2⟩, ⟨%d3, H3⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hoth Hg]
        · isplitl [HS0 HS1 Hoth]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the launch's form back: what the accumulators hold is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

theorem hout0 (c : Dev nD) : (dat0 V c).Φ (Fin.last cfg0.N) ⊢ Pipeline.ΦA spec0 c :=
  Phi_out0 V c _ (by rw [Fin.val_last]; have : cfg0.N = 32 := N_0; omega)

end Region0

end Cert.KernelIdeal.Hand

end
-- ==== Proof.SummaryPool.lean ====
/-
  The summary array the pooling region leaves, at the ideal instance: row b is the pooled sums of batch b over all 8192
  positions — the eight tiles' contributions regrouped into one sum — divided, projected and normalised.  Only the
  points of tile 7 write the array, each its batch's row, and together they cover it.
-/
import proofs.«104028_j9234179686589_2_alg».proof.Proof.AccPool
import proofs.«104028_j9234179686589_2_alg».proof.Proof.PayPoolSummary
import proofs.«104028_j9234179686589_2_alg».proof.Proof.LibTileSum
import proofs.«104028_j9234179686589_2_alg».proof.Proof.FramePoolBody
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Pay

variable (V : (c : Dev nD) → (b : Ref sig .tc) → Buf (Elt Ideal) ((c : Thread nD τ).loc b))

/-- The pooled sums of batch b over all positions. -/
def accxV (c : Dev nD) (b : ℕ) (d : Fin 2048) : EReal := ∑ s : Fin 8192, xN V c b s.val d * gN V c b s.val
def accgV (c : Dev nD) (b : ℕ) : EReal := ∑ s : Fin 8192, gN V c b s.val
/-- The summary row of batch b. -/
def summaryV (c : Dev nD) (b : ℕ) (o : Fin 128) : EReal :=
  Cert.Spec.poolSummary (accxV V c b) (accgV V c b) (fun d o => V c main_v0 (ix2 d o)) o

/-- After a point of tile 7 the accumulators hold the sums over all positions: eight tiles of 1024 are 8192 positions. -/
theorem acc_full0 (c : Dev nD) (t : Fin cfg0.N) (h1 : t.val % 8 = 7) (d : Fin 2048) :
    (outsAt0 V c t.val t.isLt).2.1 (ix2 0 d) = accxV V c (t.val / 8) d := by
  rw [(acc_inv V c t.val t.isLt).1 d, h1]
  show ∑ j ∈ Finset.range 8, tile0 V c (t.val / 8) j d = _
  unfold tile0 accxV
  exact Cert.LibTileSum.tile_sum 1024 (fun s => xN V c (t.val / 8) s d * gN V c (t.val / 8) s) 8

theorem acc_full1 (c : Dev nD) (t : Fin cfg0.N) (h1 : t.val % 8 = 7) :
    (outsAt0 V c t.val t.isLt).2.2 (ix2 0 0) = accgV V c (t.val / 8) := by
  rw [(acc_inv V c t.val t.isLt).2, h1]
  show ∑ j ∈ Finset.range 8, tile1 V c (t.val / 8) j = _
  unfold tile1 accgV
  exact Cert.LibTileSum.tile_sum 1024 (fun s => gN V c (t.val / 8) s) 8

/-- What a point of tile 7 leaves in the output window's buffer: its batch's summary row. -/
theorem out_C_apply (c : Dev nD) (t : Fin cfg0.N) (h1 : t.val % 8 = 7) (o : Fin 128) :
    (outsAt0 V c t.val t.isLt).1 (ix3 0 0 o) = summaryV V c (t.val / 8) o := by
  have h0 : ¬ t.val % 8 = 0 := by omega
  obtain ⟨e0, e1, e3⟩ := acc_C V c t h0 h1
  rw [e3]
  refine (k0_pay7_apply _ _ _ o).trans ?_
  rw [← e0, ← e1]
  unfold summaryV
  congr 1
  · funext d; exact acc_full0 V c t h1 d
  · exact acc_full1 V c t h1
  · funext d o'; exact iblk0_2_apply V c t d o'

/-- The summary array: row b, the one middle coordinate, column o. -/
def G0 (c : Dev nD) : S4x1x128.Idx → EReal := fun i => summaryV V c (i 0).val (i 2)

/-- What a writing point writes back is its block of the summary array. -/
theorem flushed0_3_eq (c : Dev nD) (t : Fin cfg0.N) (hf : (cfg0.win 3).flush t = true) :
    (dat0 V c).flushed 3 t = ((cfg0.win 3).blk t).view.read (Elt Ideal) (G0 V c) := by
  have h1 : t.val % 8 = 7 := (flush0_3 t).mp hf
  have hN : t.val < 32 := lt_of_lt_of_eq t.isLt (show cfg0.N = 32 from N_0)
  show (cfg0.win 3).cut (grid0.coords t) ((dat0 V c).after 3 t) = _
  rw [after0_3]
  funext j
  have hj0 : (j 0).val < 1 := (j 0).isLt
  have hj1 : (j 1).val < 1 := (j 1).isLt
  have e : j = ix3 (0 : Fin 1) (0 : Fin 1) (j 2) := by
    funext a
    match a with
    | ⟨0, _⟩ => exact Fin.ext (by show (j 0).val = 0; omega)
    | ⟨1, _⟩ => exact Fin.ext (by show (j 1).val = 0; omega)
    | ⟨2, _⟩ => rfl
  rw [e]
  show (outsAt0 V c t.val t.isLt).1 (ix3 0 0 (j 2)) = G0 V c (((cfg0.win 3).blk t).view.emb (ix3 0 0 (j 2)))
  rw [oblk0_3_emb t (j 2) ⟨t.val / 8, by omega⟩ rfl, out_C_apply V c t h1 (j 2)]
  rfl

/-- An index of the summary array is in point t's block iff each coordinate is in the block's range. -/
theorem mem_blk0_3 (t : Fin cfg0.N) (i : S4x1x128.Idx) :
    i ∈ ((cfg0.win 3).blk t).view.set ↔ ∀ a : Fin 3, win0_3.index t a * S1x1x128.size a ≤ (i a).val ∧ (i a).val < win0_3.index t a * S1x1x128.size a + S1x1x128.size a := by
  show i ∈ ((View.whole main_v1).slice (win0_3.rect t)).set ↔ _
  rw [View.set_slice_whole, Rect.mem_set_unit]
  exact Iff.rfl

/-- Every row is some tile-7 point's block. -/
theorem cover0_3 (i : S4x1x128.Idx) : ∃ t : Fin cfg0.N, (cfg0.win 3).flush t = true ∧ i ∈ ((cfg0.win 3).blk t).view.set := by
  have hi0 : (i 0).val < 4 := (i 0).isLt
  have hi1 : (i 1).val < 1 := (i 1).isLt
  have hi2 : (i 2).val < 128 := (i 2).isLt
  have hN : cfg0.N = 32 := N_0
  have ht : 8 * (i 0).val + 7 < cfg0.N := by omega
  refine ⟨⟨8 * (i 0).val + 7, ht⟩, (flush0_3 _).mpr (by show (8 * (i 0).val + 7) % 8 = 7; omega), ?_⟩
  rw [mem_blk0_3]
  obtain ⟨-, -, -, -, -, -, -, e0, e1, e2⟩ := idx0 ⟨8 * (i 0).val + 7, ht⟩
  have e0' : win0_3.index ⟨8 * (i 0).val + 7, ht⟩ (0 : Fin 3) = (i 0).val := by rw [e0]; show (8 * (i 0).val + 7) / 8 = _; omega
  intro a
  match a with
  | ⟨0, _⟩ => show win0_3.index ⟨8 * (i 0).val + 7, ht⟩ (0 : Fin 3) * 1 ≤ (i 0).val ∧ (i 0).val < win0_3.index ⟨8 * (i 0).val + 7, ht⟩ (0 : Fin 3) * 1 + 1; omega
  | ⟨1, _⟩ => show win0_3.index ⟨8 * (i 0).val + 7, ht⟩ (1 : Fin 3) * 1 ≤ (i 1).val ∧ (i 1).val < win0_3.index ⟨8 * (i 0).val + 7, ht⟩ (1 : Fin 3) * 1 + 1; omega
  | ⟨2, _⟩ => show win0_3.index ⟨8 * (i 0).val + 7, ht⟩ (2 : Fin 3) * 128 ≤ (i 2).val ∧ (i 2).val < win0_3.index ⟨8 * (i 0).val + 7, ht⟩ (2 : Fin 3) * 128 + 128; omega

/-- THE SUMMARY ARRAY after the region. -/
theorem final0 (c : Dev nD) : (dat0 V c).arrAt 3 cfg0.N = G0 V c :=
  (dat0 V c).arrAt_eq_of_cover 3 (G0 V c) (fun t hf => flushed0_3_eq V c t hf) cover0_3

end Cert.KernelIdeal.Hand

end
-- ==== Proof.FrameMain.lean ====
/-
  The attention kernel's region, at any float instance, from the buffer contents `V` the region is entered with.

  Each grid point (b, j) reads the block of x of batch b and rows 1024·j … 1024·j+1023, the whole transposed query
  projection, the 25 bus rows of batch b and the whole transposed modulation projection, and stores one whole block of
  the result: the body's arithmetic `k1_pay1` of the four blocks.  The body keeps nothing between points, so the
  region's invariant is only the scoped buffers it does not use and the generator register, both untouched.
-/
import proofs.«104028_j9234179686589_2_alg».proof.Proof.Gen.KernelIdeal.Launch
import proofs.«104028_j9234179686589_2_alg».proof.Proof.Gen.KernelIdeal.Skeleton
import proofs.«104028_j9234179686589_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: where it is not fetched the
    block index has not moved since the last fetch. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rX1 : Rect S1x1024x2048 := Rect.unit (s := S1x1024x2048) ![0, 0, 0] S1x1024x2048.size inb_S1x1024x2048_S1x1024x2048_0_0_0
abbrev rQ1 : Rect S2048x128 := Rect.unit (s := S2048x128) ![0, 0] S2048x128.size inb_S2048x128_S2048x128_0_0
abbrev rA1 : Rect S1x25x128 := Rect.unit (s := S1x25x128) ![0, 0, 0] S1x25x128.size inb_S1x25x128_S1x25x128_0_0_0
abbrev rM1 : Rect S128x2048 := Rect.unit (s := S128x2048) ![0, 0] S128x2048.size inb_S128x2048_S128x2048_0_0

/-- What the body leaves in the output window's buffer, from the four input blocks: its one store. -/
def out1_4 (x0 : Vec F S1x1024x2048 .f32) (x1 : Vec F S2048x128 .bf16) (x2 : Vec F S1x25x128 .f32) (x3 : Vec F S128x2048 .bf16) : Vec F S1x1024x2048 .f32 :=
  View.canon [⟨rX1, k1_pay1 (View.ld x0 rX1) (View.ld x1 rQ1) (View.ld x2 rA1) (View.ld x3 rM1)⟩]

/-- The store covers the buffer. -/
theorem cover1_4 (p0 : Vec F S1x1024x2048 .f32) (y : S1x1024x2048.Idx) :
    ∃ pc ∈ ([⟨rX1, p0⟩] : List (View.Piece (Elt F) S1x1024x2048 .f32)), y ∈ pc.1.set :=
  View.cover_of_tiled [⟨rX1, p0⟩] S1x1024x2048.size (by rfl) y

set_option maxHeartbeats 4000000 in
/-- The body on whole staging buffers — the inputs' at contents `x·`, the output's at anything — runs to the
    continuation with the inputs as they were and the output at `out1_4` of them. -/
theorem sound_kernel1 (c : Dev nD) (E : Set ℕ) (i : grid1.Coords)
    (arg2 : Memref sig .tc .vmem S1x1024x2048 .f32) (harg2 : arg2.IsWhole) (arg3 : Memref sig .tc .vmem S2048x128 .bf16) (harg3 : arg3.IsWhole)
    (arg4 : Memref sig .tc .vmem S1x25x128 .f32) (harg4 : arg4.IsWhole) (arg5 : Memref sig .tc .vmem S128x2048 .bf16) (harg5 : arg5.IsWhole)
    (arg6 : Memref sig .tc .vmem S1x1024x2048 .f32) (harg6 : arg6.IsWhole)
    (x0 : Vec F S1x1024x2048 .f32) (x1 : Vec F S2048x128 .bf16) (x2 : Vec F S1x25x128 .f32) (x3 : Vec F S128x2048 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1_kernel i arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The region's proof data on core `c`: the arrays as the region finds them; after the body each input's buffer at
    its block and the output's at `out1_4` of the input blocks; the invariant the scoped buffers the kernel does not
    use and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 2000000 in
/-- The body at any point: the inputs' buffers hold their blocks, so the body's run applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.BlocksMain.lean ====
/-
  Which array entries the attention kernel's blocks are.  Point t has batch t / 8 and tile t % 8: the blocks of x and
  of the result are rows 1024·(t % 8) … of batch t / 8; the bus rows are those of batch t / 8; the two projections are
  taken whole at every point.
-/
import proofs.«104028_j9234179686589_2_alg».proof.Proof.FrameMain
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

section Region1

variable (V : (c : Dev nD) → (b : Ref sig .tc) → Buf (Elt F) ((c : Thread nD τ).loc b))

/-- The printed index maps, decided over the 32 points. -/
theorem idx1 : ∀ t : Fin cfg1.N,
    win1_0.index t (0 : Fin 3) = t.val / 8 ∧ win1_0.index t (1 : Fin 3) = t.val % 8 ∧ win1_0.index t (2 : Fin 3) = 0
    ∧ win1_1.index t (0 : Fin 2) = 0 ∧ win1_1.index t (1 : Fin 2) = 0
    ∧ win1_2.index t (0 : Fin 3) = t.val / 8 ∧ win1_2.index t (1 : Fin 3) = 0 ∧ win1_2.index t (2 : Fin 3) = 0
    ∧ win1_3.index t (0 : Fin 2) = 0 ∧ win1_3.index t (1 : Fin 2) = 0
    ∧ win1_4.index t (0 : Fin 3) = t.val / 8 ∧ win1_4.index t (1 : Fin 3) = t.val % 8 ∧ win1_4.index t (2 : Fin 3) = 0 :=
  (by decide +kernel : ∀ t : Fin grid1.N, _)

theorem iblk1_0_apply (c : Dev nD) (t : Fin cfg1.N) (r : Fin 1024) (d : Fin 2048) (b : Fin 4) (s : Fin 8192)
    (hb : b.val = t.val / 8) (hs : s.val = (t.val % 8) * 1024 + r.val) :
    iblk1 V c 0 t (ix3 0 r d) = V c main_arg0 (ix3 b s d) := by
  unfold iblk1
  show V c main_arg0 (((cfg1.win 0).blk t).view.emb (ix3 0 r d)) = V c main_arg0 (ix3 b s d)
  refine congrArg _ ?_
  obtain ⟨e0, e1, e2, -⟩ := idx1 t
  funext a; apply Fin.ext
  match a with
  | ⟨0, _⟩ => show win1_0.index t (0 : Fin 3) * 1 + 1 * (0 : Fin 1).val = b.val; simp only [Fin.val_zero]; omega
  | ⟨1, _⟩ => show win1_0.index t (1 : Fin 3) * 1024 + 1 * r.val = s.val; omega
  | ⟨2, _⟩ => show win1_0.index t (2 : Fin 3) * 2048 + 1 * d.val = d.val; omega

theorem iblk1_1_apply (c : Dev nD) (t : Fin cfg1.N) (d : Fin 2048) (o : Fin 128) :
    iblk1 V c 1 t (ix2 d o) = V c main_v6 (ix2 d o) := by
  unfold iblk1
  show V c main_v6 (((cfg1.win 1).blk t).view.emb (ix2 d o)) = V c main_v6 (ix2 d o)
  refine congrArg _ ?_
  obtain ⟨-, -, -, e0, e1, -⟩ := idx1 t
  funext a; apply Fin.ext
  match a with
  | ⟨0, _⟩ => show win1_1.index t (0 : Fin 2) * 2048 + 1 * d.val = d.val; omega
  | ⟨1, _⟩ => show win1_1.index t (1 : Fin 2) * 128 + 1 * o.val = o.val; omega

theorem iblk1_2_apply (c : Dev nD) (t : Fin cfg1.N) (l : Fin 25) (o : Fin 128) (b : Fin 4) (hb : b.val = t.val / 8) :
    iblk1 V c 2 t (ix3 0 l o) = V c main_v4 (ix3 b l o) := by
  unfold iblk1
  show V c main_v4 (((cfg1.win 2).blk t).view.emb (ix3 0 l o)) = V c main_v4 (ix3 b l o)
  refine congrArg _ ?_
  obtain ⟨-, -, -, -, -, e0, e1, e2, -⟩ := idx1 t
  funext a; apply Fin.ext
  match a with
  | ⟨0, _⟩ => show win1_2.index t (0 : Fin 3) * 1 + 1 * (0 : Fin 1).val = b.val; simp only [Fin.val_zero]; omega
  | ⟨1, _⟩ => show win1_2.index t (1 : Fin 3) * 25 + 1 * l.val = l.val; omega
  | ⟨2, _⟩ => show win1_2.index t (2 : Fin 3) * 128 + 1 * o.val = o.val; omega

theorem iblk1_3_apply (c : Dev nD) (t : Fin cfg1.N) (o : Fin 128) (d : Fin 2048) :
    iblk1 V c 3 t (ix2 o d) = V c main_v17 (ix2 o d) := by
  unfold iblk1
  show V c main_v17 (((cfg1.win 3).blk t).view.emb (ix2 o d)) = V c main_v17 (ix2 o d)
  refine congrArg _ ?_
  obtain ⟨-, -, -, -, -, -, -, -, e0, e1, -⟩ := idx1 t
  funext a; apply Fin.ext
  match a with
  | ⟨0, _⟩ => show win1_3.index t (0 : Fin 2) * 128 + 1 * o.val = o.val; omega
  | ⟨1, _⟩ => show win1_3.index t (1 : Fin 2) * 2048 + 1 * d.val = d.val; omega

/-- The result block's entry (0, r, d) is entry (t / 8, 1024·(t % 8) + r, d) of the result array. -/
theorem oblk1_4_emb (t : Fin cfg1.N) (r : Fin 1024) (d : Fin 2048) (b : Fin 4) (s : Fin 8192)
    (hb : b.val = t.val / 8) (hs : s.val = (t.val % 8) * 1024 + r.val) :
    ((cfg1.win 4).blk t).view.emb (ix3 0 r d) = ix3 b s d := by
  obtain ⟨-, -, -, -, -, -, -, -, -, -, e0, e1, e2⟩ := idx1 t
  funext a; apply Fin.ext
  match a with
  | ⟨0, _⟩ => show win1_4.index t (0 : Fin 3) * 1 + 1 * (0 : Fin 1).val = b.val; simp only [Fin.val_zero]; omega
  | ⟨1, _⟩ => show win1_4.index t (1 : Fin 3) * 1024 + 1 * r.val = s.val; omega
  | ⟨2, _⟩ => show win1_4.index t (2 : Fin 3) * 2048 + 1 * d.val = d.val; omega

end Region1

end Cert.KernelIdeal.Hand

end
-- ==== Proof.PayMainDefs.lean ====
/-
  The attention kernel's stored value, cut into its stages.

  The body computes, for the 1024 rows of its block of x at once: the queries (x times the query matrix), the scaled
  scores against the 25 bus rows, their softmax along the 25 (the row maximum subtracted first), what each row gathers
  from the bus, and x plus the gathered rows times the modulation matrix.  Each stage is named here as a function of
  the arrays it reads, and the stored value is their composition, by unfolding.
-/
import proofs.«104028_j9234179686589_2_alg».proof.Proof.Gen.KernelIdeal.Skeleton
import Idealize.ShloMosaic.PureOps.Ideal

noncomputable section

namespace Cert.KernelIdeal.Pay

open Idealize.ShloMosaic Cert.KernelIdeal Cert.KernelIdeal.Gen

/-- The queries: the block of x, as a [1024, 2048] array, times the query matrix. -/
def qVec (v0 : FVec Ideal S1x1024x2048 .f32) (v3 : FVec Ideal S2048x128 .bf16) : FVec Ideal S1024x128 .f32 :=
  have v1 : FVec Ideal S1024x2048 .f32 := shapeCast S1024x2048 v0 shapeCasts_S1x1024x2048_S1024x2048
  have v2 : FVec Ideal S1024x2048 .bf16 := truncf .bf16 v1 bitsLt_bf16_f32
  have v4 : FVec Ideal S2048x128 .bf16 := shapeCast S2048x128 v3 shapeCasts_S2048x128_S2048x128
  have cst : FVec Ideal S1024x128 .f32 := constant S1024x128 .f32 0x00000000#32
  matmul dot_S1024x2048_S2048x128_S1024x128_1_0_0_1_n_n none v2 v4 cst

/-- The bus rows of the batch, as a [25, 128] array. -/
def busVec (v6 : FVec Ideal S1x25x128 .f32) : FVec Ideal S25x128 .f32 :=
  shapeCast S25x128 v6 shapeCasts_S1x25x128_S25x128

/-- The scaled scores: each query against each bus row, times the scale. -/
def scoreVec (v5 : FVec Ideal S1024x128 .f32) (v7 : FVec Ideal S25x128 .f32) : FVec Ideal S1024x25 .f32 :=
  have cst_7 : FVec Ideal S1024x25 .f32 := constant S1024x25 .f32 0x00000000#32
  have v8 : FVec Ideal S1024x25 .f32 := matmul dot_S1024x128_S25x128_S1024x25_1_1_0_0_n_n none v5 v7 cst_7
  have cst_8 : Ideal .f32 := Scalar.ofBits .f32 0x3DB504F3#32
  have v9 : FVec Ideal S1024x25 .f32 := broadcast S1024x25 cst_8
  mulf v8 v9

/-- The row maxima, joined with the word of −∞. -/
def rowMaxVec (v10 : FVec Ideal S1024x25 .f32) : FVec Ideal S1024 .f32 :=
  have v11 : FVec Ideal S1024 .f32 := multiReduction .maximumf [1] S1024 v10 0xFF800000#32 reduces_S1024x25_S1024 (.inl rfl) rfl
  have cst_10 : Ideal .f32 := Scalar.ofBits .f32 0xFF800000#32
  have v12 : FVec Ideal S1024 .f32 := broadcast S1024 cst_10
  maximumf v12 v11

/-- The exponentials of the scores less their row's maximum. -/
def expVec (v10 : FVec Ideal S1024x25 .f32) : FVec Ideal S1024x25 .f32 :=
  have v14 : FVec Ideal S1024x1 .f32 := shapeCast S1024x1 (rowMaxVec v10) shapeCasts_S1024_S1024x1
  have v15 : FVec Ideal S1024x25 .f32 := broadcastTo S1024x25 v14 broadcasts_S1024x1_S1024x25
  have v16 : FVec Ideal S1024x25 .f32 := subf v10 v15
  exp v16

/-- The softmax weights: the exponentials over their row's sum. -/
def softmaxVec (v10 : FVec Ideal S1024x25 .f32) : FVec Ideal S1024x25 .f32 :=
  have v18 : FVec Ideal S1024 .f32 := multiReduction .add [1] S1024 (expVec v10) 0x00000000#32 reduces_S1024x25_S1024 (.inl rfl) rfl
  have v19 : FVec Ideal S1024x1 .f32 := shapeCast S1024x1 v18 shapeCasts_S1024_S1024x1
  have v20 : FVec Ideal S1024x25 .f32 := broadcastTo S1024x25 v19 broadcasts_S1024x1_S1024x25
  divf (expVec v10) v20

/-- What the rows gather from the bus: the weights times the bus rows. -/
def gatherVec (v21 : FVec Ideal S1024x25 .f32) (v7 : FVec Ideal S25x128 .f32) : FVec Ideal S1024x128 .f32 :=
  have cst_12 : FVec Ideal S1024x128 .f32 := constant S1024x128 .f32 0x00000000#32
  matmul dot_S1024x25_S25x128_S1024x128_1_0_0_1_n_n none v21 v7 cst_12

/-- The result: the block of x plus the gathered rows times the modulation matrix, stored with the leading unit axis. -/
def outVec (v0 : FVec Ideal S1x1024x2048 .f32) (v22 : FVec Ideal S1024x128 .f32) (v24 : FVec Ideal S128x2048 .bf16) :
    FVec Ideal S1x1024x2048 .f32 :=
  have v1 : FVec Ideal S1024x2048 .f32 := shapeCast S1024x2048 v0 shapeCasts_S1x1024x2048_S1024x2048
  have v23 : FVec Ideal S1024x128 .bf16 := truncf .bf16 v22 bitsLt_bf16_f32
  have v25 : FVec Ideal S128x2048 .bf16 := shapeCast S128x2048 v24 shapeCasts_S128x2048_S128x2048
  have cst_15 : FVec Ideal S1024x2048 .f32 := constant S1024x2048 .f32 0x00000000#32
  have v26 : FVec Ideal S1024x2048 .f32 := matmul dot_S1024x128_S128x2048_S1024x2048_1_0_0_1_n_n none v23 v25 cst_15
  have v27 : FVec Ideal S1024x2048 .f32 := addf v1 v26
  shapeCast S1x1024x2048 v27 shapeCasts_S1024x2048_S1x1024x2048

/-- The stored value is the composition of the stages. -/
theorem k1_pay1_eq (v0 : Vec Ideal S1x1024x2048 .f32) (v3 : Vec Ideal S2048x128 .bf16) (v6 : Vec Ideal S1x25x128 .f32)
    (v24 : Vec Ideal S128x2048 .bf16) :
    k1_pay1 (F := Ideal) v0 v3 v6 v24
      = outVec v0 (gatherVec (softmaxVec (scoreVec (qVec v0 v3) (busVec v6))) (busVec v6)) v24 := rfl

end Cert.KernelIdeal.Pay

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«104028_j9234179686589_2_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.LibRowsDot.lean ====
/-
  A product of a matrix with the transpose of another, read at an entry.

  A contraction whose dimension numbers say "the second axis of an [A, K] operand against the second axis of a [B, K]
  operand, no batch axis, result [A, B]" reads its left operand at (row of the result, k) and its right operand at
  (column of the result, k), `k` ranging over the one contracted axis.  So the sum over the contraction index of the
  operands' products, at result entry (p, c), is `Σ_{k < K} l (p, k) · r (c, k)`: row p of the left operand against
  row c of the right one; a `tpu.matmul` into the zero splat is exactly that sum at the ideal values.  Generic in A, K, B,
  in the record and in the operands' float formats: the hypotheses are the record's six lists.
-/
import Idealize.ShloMosaic.PureOps.Ideal.Laws
import Idealize.ShloMosaic.Lib.ValueIdx

noncomputable section

namespace Cert.LibRowsDot

open Idealize.ShloMosaic Idealize.ShloMosaic.ValueIdx

/-- The dimension numbers of a product of rows `[A, K] × [B, K] → [A, B]`. -/
structure Rows {A K B : Nat} (D : DotDims ⟨2, ![A, K]⟩ ⟨2, ![B, K]⟩ ⟨2, ![A, B]⟩) : Prop where
  lc : D.lhsContracting = [1]
  rc : D.rhsContracting = [1]
  ln : D.lhsNonContracting = [0]
  rn : D.rhsNonContracting = [0]
  lb : D.lhsBatch = []
  rb : D.rhsBatch = []

variable {A K B : Nat} {D : DotDims ⟨2, ![A, K]⟩ ⟨2, ![B, K]⟩ ⟨2, ![A, B]⟩}

/-- One axis is contracted. -/
theorem Rows.rank (h : Rows D) : D.contr.rank = 1 := by rw [D.rank_contr, h.lc]; rfl

/-- Its extent is `K`. -/
theorem Rows.size (h : Rows D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Rows.lhs0 (h : Rows D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Rows.lhs1 (h : Rows D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the result's column, which is ITS row … -/
theorem Rows.rhs0 (h : Rows D) (j : (⟨2, ![A, B]⟩ : Shape).Idx) (q : D.contr.Idx) : (D.rhsIdx j q 0).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- … and the contraction position. -/
theorem Rows.rhs1 (h : Rows D) (j : (⟨2, ![A, B]⟩ : Shape).Idx) (q : D.contr.Idx) :
    (D.rhsIdx j q 1).val = (q ⟨0, by rw [h.rank]; exact Nat.one_pos⟩).val :=
  D.rhsIdx_val_of_single h.rc j q

/-- The contraction sum at result entry `(p, c)` is `Σ_k l (p, k) · r (c, k)`. -/
theorem Rows.sum_eq (h : Rows D) (l : (⟨2, ![A, K]⟩ : Shape).Idx → EReal) (r : (⟨2, ![B, K]⟩ : Shape).Idx → EReal)
    (p : Fin A) (c : Fin B) :
    ∑ q : D.contr.Idx, l (D.lhsIdx (ix2 p c) q) * r (D.rhsIdx (ix2 p c) q) = ∑ k : Fin K, l (ix2 p k) * r (ix2 c k) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 c k := funext fun a => Fin.ext (by
    match a with
    | ⟨0, _⟩ => exact h.rhs0 _ _
    | ⟨1, _⟩ => exact (h.rhs1 _ _).trans hk)
  rw [el, er]

/-- A `tpu.matmul` of such dimension numbers into the zero accumulator, at the ideal values, read at `(p, c)`. -/
theorem Rows.matmul_zero_apply (h : Rows D) (prec : Option ContractPrecision) {φ₁ φ₂ : FTy}
    (l : FVec Ideal ⟨2, ![A, K]⟩ φ₁) (r : FVec Ideal ⟨2, ![B, K]⟩ φ₂) (p : Fin A) (c : Fin B) :
    FloatOps.matmul D prec l r (constant ⟨2, ![A, B]⟩ .f32 0x00000000#32) (ix2 p c) = ∑ k : Fin K, l (ix2 p k) * r (ix2 c k) :=
  (Ideal.matmul_constant_zero_apply D prec l r (ix2 p c)).trans (h.sum_eq l r p c)

end Cert.LibRowsDot

end
-- ==== Proof.PayMainDots.lean ====
/-
  The attention kernel's four matrix products, each read at an entry.

  The queries: q(r, o) = Σ_d x(r, d) · wq(d, o).  The scores: each query against each bus row (both along their 128
  columns), times the scale.  The gather: g(r, o) = Σ_l a(r, l) · bus(l, o).  The result: x(r, d) + Σ_o g(r, o) · wm(o, d).
  A change of float format is the identity over the extended reals, so the narrowed operands read as the operands.
-/
import proofs.«104028_j9234179686589_2_alg».proof.Proof.PayMainDefs
import proofs.«104028_j9234179686589_2_alg».proof.Proof.Spec
import proofs.«104028_j9234179686589_2_alg».proof.Proof.LibPlainDotFormats
import proofs.«104028_j9234179686589_2_alg».proof.Proof.LibRowsDot
import Idealize.ShloMosaic.Lib.ValueLayout

noncomputable section

namespace Cert.KernelIdeal.Pay

open Idealize.ShloMosaic Idealize.ShloMosaic.ValueIdx Cert.KernelIdeal Cert.KernelIdeal.Gen Cert.LibPlainDot
  Cert.LibRowsDot

/-- The query product is plain: [1024, 2048] × [2048, 128]. -/
theorem plain_q : Plain dot_S1024x2048_S2048x128_S1024x128_1_0_0_1_n_n := ⟨rfl, rfl, rfl, rfl, rfl, rfl⟩
/-- The score product contracts the columns of both operands: [1024, 128] × [25, 128]. -/
theorem rows_score : Rows dot_S1024x128_S25x128_S1024x25_1_1_0_0_n_n := ⟨rfl, rfl, rfl, rfl, rfl, rfl⟩
/-- The gather product is plain: [1024, 25] × [25, 128]. -/
theorem plain_gather : Plain dot_S1024x25_S25x128_S1024x128_1_0_0_1_n_n := ⟨rfl, rfl, rfl, rfl, rfl, rfl⟩
/-- The last product is plain: [1024, 128] × [128, 2048]. -/
theorem plain_out : Plain dot_S1024x128_S128x2048_S1024x2048_1_0_0_1_n_n := ⟨rfl, rfl, rfl, rfl, rfl, rfl⟩

/-- The query of row r at column o. -/
theorem qVec_apply (v0 : FVec Ideal S1x1024x2048 .f32) (v3 : FVec Ideal S2048x128 .bf16) (r : Fin 1024) (o : Fin 128) :
    qVec v0 v3 (ix2 r o) = Cert.Spec.rowQ (fun d => v0 (ix3 0 r d)) (fun d o => v3 (ix2 d o)) o := by
  unfold qVec Cert.Spec.rowQ
  refine (plain_q.matmul_zero_apply_formats none _ _ r o).trans ?_
  refine Finset.sum_congr rfl fun d _ => ?_
  rw [truncf_apply, shapeCast_1ab_ab_apply, shapeCast_self]

/-- Bus row l at column o. -/
theorem busVec_apply (v6 : FVec Ideal S1x25x128 .f32) (l : Fin 25) (o : Fin 128) :
    busVec v6 (ix2 l o) = v6 (ix3 0 l o) := by
  unfold busVec
  exact shapeCast_1ab_ab_apply v6 _ l o

/-- The scaled score of row r against bus row l. -/
theorem scoreVec_apply (v5 : FVec Ideal S1024x128 .f32) (v7 : FVec Ideal S25x128 .f32) (r : Fin 1024) (l : Fin 25) :
    scoreVec v5 v7 (ix2 r l) = (∑ o : Fin 128, v5 (ix2 r o) * v7 (ix2 l o)) * Cert.Spec.scale := by
  unfold scoreVec Cert.Spec.scale
  rw [mulf_apply, broadcast_apply]
  refine congrArg (· * Ideal.ofBits .f32 0x3DB504F3#32) ?_
  exact rows_score.matmul_zero_apply none v5 v7 r l

/-- What row r gathers at column o. -/
theorem gatherVec_apply (v21 : FVec Ideal S1024x25 .f32) (v7 : FVec Ideal S25x128 .f32) (r : Fin 1024) (o : Fin 128) :
    gatherVec v21 v7 (ix2 r o) = ∑ l : Fin 25, v21 (ix2 r l) * v7 (ix2 l o) := by
  unfold gatherVec
  exact plain_gather.matmul_zero_apply none v21 v7 r o

/-- The result at (0, r, d). -/
theorem outVec_apply (v0 : FVec Ideal S1x1024x2048 .f32) (v22 : FVec Ideal S1024x128 .f32) (v24 : FVec Ideal S128x2048 .bf16)
    (r : Fin 1024) (d : Fin 2048) :
    outVec v0 v22 v24 (ix3 0 r d) = v0 (ix3 0 r d) + ∑ o : Fin 128, v22 (ix2 r o) * v24 (ix2 o d) := by
  unfold outVec
  refine (shapeCast_ab_1ab_apply _ _ 0 r d).trans ?_
  rw [addf_apply, shapeCast_1ab_ab_apply]
  refine congrArg (v0 (ix3 0 r d) + ·) ?_
  refine (plain_out.matmul_zero_apply_formats none _ _ r d).trans ?_
  refine Finset.sum_congr rfl fun o _ => ?_
  rw [truncf_apply, shapeCast_self]

end Cert.KernelIdeal.Pay

end
-- ==== Proof.LibRowMax.lean ====
/-
  The maximum of a two-axis array along its second axis, read at a row: over the extended reals, started from the word
  of −∞ (which denotes the least extended real), the maximum of an `[a, b]` array along its columns is at row `i` the
  supremum over the columns `k` of the entries `(i, k)`.  It holds for any extents.
-/
import Idealize.ShloMosaic.Lib.ValueIdx
import Idealize.ShloMosaic.PureOps.Ideal.Laws

noncomputable section

open scoped BigOperators

namespace Cert.LibRowMax

open Idealize.ShloMosaic Idealize.ShloMosaic.ValueIdx

/-- The f32 word of −∞ denotes the least extended real. -/
theorem ofBits_neg_inf_f32 : Ideal.ofBits .f32 0xFF800000#32 = (⊥ : EReal) := by
  simp [Ideal.ofBits, Ideal.ieee]

/-- A fold of `max` from the least element is the supremum. -/
theorem fold_max_bot_eq_sup {ι : Type*} (s : Finset ι) (f : ι → EReal) : s.fold max ⊥ f = s.sup f := rfl

/-- Over the extended reals, the maximum of an `[a, b]` array along its second axis, started from the word of −∞, is
    at row `i` the supremum over the columns `k` of the entries `(i, k)`. -/
theorem multiReduction_max_rows_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (i : Fin a) :
    multiReduction .maximumf [1] ⟨1, ![a]⟩ src 0xFF800000#32 h hφ hacc (ix1 i)
      = Finset.univ.sup fun k : Fin b => src (ix2 i k) := by
  refine (Ideal.multiReduction_maximumf_single src 0xFF800000#32 h hφ hacc (ix1 i)).trans ?_
  have hf : (src ∘ h.lift (ix1 i)) = fun k : Fin b => src (ix2 i k) :=
    funext fun k => congrArg src (funext fun ax => Fin.ext (by
      match ax with
      | ⟨0, _⟩ => rfl
      | ⟨1, _⟩ => rfl))
  rw [hf]
  show (Finset.univ : Finset (Fin b)).fold max (Ideal.ofBits .f32 0xFF800000#32) _ = _
  rw [ofBits_neg_inf_f32]
  exact fold_max_bot_eq_sup _ _

end Cert.LibRowMax

end
-- ==== Proof.PayMainSoftmax.lean ====
/-
  The attention kernel's softmax along the 25 bus rows, read at an entry.

  For a row of 25 scores f the body takes the row's maximum (a maximum started from −∞, then joined with −∞ once
  more), subtracts it, exponentiates, sums the 25 exponentials and divides each by the sum: the specification's
  `rowMax`, `rowExp`, `rowAttn` of f.
-/
import proofs.«104028_j9234179686589_2_alg».proof.Proof.PayMainDefs
import proofs.«104028_j9234179686589_2_alg».proof.Proof.Spec
import proofs.«104028_j9234179686589_2_alg».proof.Proof.LibKeepdims
import proofs.«104028_j9234179686589_2_alg».proof.Proof.LibRowMax
import Idealize.ShloMosaic.Lib.ValueLayout

noncomputable section

namespace Cert.KernelIdeal.Pay

open Idealize.ShloMosaic Idealize.ShloMosaic.ValueIdx Cert.KernelIdeal Cert.KernelIdeal.Gen Cert.LibKeepdims
  Cert.LibRowMax

/-- The maximum of row r. -/
theorem rowMaxVec_apply (v10 : FVec Ideal S1024x25 .f32) (r : Fin 1024) :
    rowMaxVec v10 (ix1 r) = Cert.Spec.rowMax (fun l => v10 (ix2 r l)) := by
  unfold rowMaxVec Cert.Spec.rowMax Cert.Spec.ninf
  rw [maximumf_apply, broadcast_apply]
  refine congrArg (max (Ideal.ofBits .f32 0xFF800000#32)) ?_
  exact multiReduction_max_rows_apply v10 _ _ _ r

/-- The exponential at (r, l). -/
theorem expVec_apply (v10 : FVec Ideal S1024x25 .f32) (r : Fin 1024) (l : Fin 25) :
    expVec v10 (ix2 r l) = Cert.Spec.rowExp (fun l => v10 (ix2 r l)) l := by
  unfold expVec Cert.Spec.rowExp
  refine congrArg Ideal.exp ?_
  rw [subf_apply, broadcastTo_a1_ab_apply, shapeCast_a_a1_apply, rowMaxVec_apply]

/-- The softmax weight at (r, l). -/
theorem softmaxVec_apply (v10 : FVec Ideal S1024x25 .f32) (r : Fin 1024) (l : Fin 25) :
    softmaxVec v10 (ix2 r l) = Cert.Spec.rowAttn (fun l => v10 (ix2 r l)) l := by
  unfold softmaxVec Cert.Spec.rowAttn
  rw [divf_apply, broadcastTo_a1_ab_apply, shapeCast_a_a1_apply, expVec_apply]
  refine congrArg (Ideal.div _) ?_
  refine (multiReduction_add_rows_apply _ _ _ _ r).trans ?_
  exact Finset.sum_congr rfl fun l' _ => expVec_apply v10 r l'

end Cert.KernelIdeal.Pay

end
-- ==== Proof.PayMain.lean ====
/-
  The attention kernel's stored value, read at an entry: row r of the block, column d, is the specification's
  `rowOut` of that row of x, the query matrix, the 25 bus rows and the modulation matrix.
-/
import proofs.«104028_j9234179686589_2_alg».proof.Proof.PayMainDots
import proofs.«104028_j9234179686589_2_alg».proof.Proof.PayMainSoftmax

noncomputable section

namespace Cert.KernelIdeal.Pay

open Idealize.ShloMosaic Idealize.ShloMosaic.ValueIdx Cert.KernelIdeal Cert.KernelIdeal.Gen

/-- The attention kernel's stored value at (0, r, d). -/
theorem k1_pay1_apply (v0 : Vec Ideal S1x1024x2048 .f32) (v3 : Vec Ideal S2048x128 .bf16) (v6 : Vec Ideal S1x25x128 .f32)
    (v24 : Vec Ideal S128x2048 .bf16) (r : Fin 1024) (d : Fin 2048) :
    k1_pay1 (F := Ideal) v0 v3 v6 v24 (ix3 0 r d)
      = Cert.Spec.rowOut (fun d => v0 (ix3 0 r d)) (fun d o => v3 (ix2 d o)) (fun l o => v6 (ix3 0 l o))
          (fun o d => v24 (ix2 o d)) d := by
  rw [k1_pay1_eq, outVec_apply]
  unfold Cert.Spec.rowOut Cert.Spec.rowGather
  refine congrArg (v0 (ix3 0 r d) + ·) (Finset.sum_congr rfl fun o _ => congrArg (· * v24 (ix2 o d)) ?_)
  rw [gatherVec_apply]
  refine Finset.sum_congr rfl fun l _ => ?_
  rw [softmaxVec_apply, busVec_apply]
  refine congrArg (fun f => Cert.Spec.rowAttn f l * v6 (ix3 0 l o)) (funext fun l' => ?_)
  rw [scoreVec_apply]
  unfold Cert.Spec.rowScore
  refine congrArg (· * Cert.Spec.scale) (Finset.sum_congr rfl fun o' _ => ?_)
  rw [qVec_apply, busVec_apply]

end Cert.KernelIdeal.Pay

end
-- ==== Proof.ValueMain.lean ====
/-
  The result array the attention region leaves, at the ideal instance: entry (b, s, d) is the row computation of the
  specification on row (b, s) of x, the transposed query projection, the 25 bus rows of batch b and the modulation matrix
  the region was handed.  Every point writes its block back, and the 32 blocks tile the array.
-/
import proofs.«104028_j9234179686589_2_alg».proof.Proof.BlocksMain
import proofs.«104028_j9234179686589_2_alg».proof.Proof.PayMain
import proofs.«104028_j9234179686589_2_alg».proof.Proof.Spec
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Pay

variable (V : (c : Dev nD) → (b : Ref sig .tc) → Buf (Elt Ideal) ((c : Thread nD τ).loc b))

/-- The result array as one function of the arrays the region is entered with. -/
def G1 (c : Dev nD) : S4x8192x2048.Idx → EReal := fun i =>
  Cert.Spec.rowOut (fun d => V c main_arg0 (ix3 (i 0) (i 1) d)) (fun d o => V c main_v6 (ix2 d o))
    (fun l o => V c main_v4 (ix3 (i 0) l o)) (fun o d => V c main_v17 (ix2 o d)) (i 2)

theorem hz3' : (![0, 0, 0] : Fin 3 → Nat) = fun _ => 0 := funext fun a => by fin_cases a <;> rfl
theorem hz2' : (![0, 0] : Fin 2 → Nat) = fun _ => 0 := funext fun a => by fin_cases a <;> rfl

/-- What point t writes back is its block of the result array. -/
theorem flushed1_4_eq (c : Dev nD) (t : Fin cfg1.N) :
    (dat1 V c).flushed 4 t = ((cfg1.win 4).blk t).view.read (Elt Ideal) (G1 V c) := by
  have hN : t.val < 32 := lt_of_lt_of_eq t.isLt (show cfg1.N = 32 from N_1)
  show (cfg1.win 4).cut (grid1.coords t) ((dat1 V c).after 4 t) = _
  rw [after1_4]
  unfold out1_4
  rw [View.canon_unit_zero hz3']
  simp only [View.ld_unit_zero (S := S1x1024x2048) hz3', View.ld_unit_zero (S := S2048x128) hz2', View.ld_unit_zero (S := S1x25x128) hz3', View.ld_unit_zero (S := S128x2048) hz2']
  funext j
  have hj0 : (j 0).val < 1 := (j 0).isLt
  have hj1 : (j 1).val < 1024 := (j 1).isLt
  have e : j = ix3 (0 : Fin 1) (⟨(j 1).val, hj1⟩ : Fin 1024) (j 2) := by
    funext a
    match a with
    | ⟨0, _⟩ => exact Fin.ext (by show (j 0).val = 0; omega)
    | ⟨1, _⟩ => rfl
    | ⟨2, _⟩ => rfl
  rw [e]
  show k1_pay1 (F := Ideal) (iblk1 V c 0 t) (iblk1 V c 1 t) (iblk1 V c 2 t) (iblk1 V c 3 t) (ix3 0 ⟨(j 1).val, hj1⟩ (j 2))
    = G1 V c (((cfg1.win 4).blk t).view.emb (ix3 0 ⟨(j 1).val, hj1⟩ (j 2)))
  have hb : t.val / 8 < 4 := by omega
  have hs : t.val % 8 * 1024 + (j 1).val < 8192 := by omega
  rw [oblk1_4_emb t ⟨(j 1).val, hj1⟩ (j 2) ⟨t.val / 8, hb⟩ ⟨t.val % 8 * 1024 + (j 1).val, hs⟩ rfl rfl]
  refine (k1_pay1_apply _ _ _ _ ⟨(j 1).val, hj1⟩ (j 2)).trans ?_
  unfold G1
  show Cert.Spec.rowOut _ _ _ _ (j 2) = Cert.Spec.rowOut _ _ _ _ (j 2)
  congr 1
  · funext d; exact iblk1_0_apply V c t ⟨(j 1).val, hj1⟩ d ⟨t.val / 8, hb⟩ ⟨t.val % 8 * 1024 + (j 1).val, hs⟩ rfl rfl
  · funext d o; exact iblk1_1_apply V c t d o
  · funext l o; exact iblk1_2_apply V c t l o ⟨t.val / 8, hb⟩ rfl
  · funext o d; exact iblk1_3_apply V c t o d

theorem mem_blk1_4 (t : Fin cfg1.N) (i : S4x8192x2048.Idx) :
    i ∈ ((cfg1.win 4).blk t).view.set ↔ ∀ a : Fin 3, win1_4.index t a * S1x1024x2048.size a ≤ (i a).val ∧ (i a).val < win1_4.index t a * S1x1024x2048.size a + S1x1024x2048.size a := by
  show i ∈ ((View.whole main_v18).slice (win1_4.rect t)).set ↔ _
  rw [View.set_slice_whole, Rect.mem_set_unit]
  exact Iff.rfl

/-- Every entry is in some point's block: batch b, tile s / 1024. -/
theorem blocks_cover1_4 (i : S4x8192x2048.Idx) : ∃ t : Fin cfg1.N, (cfg1.win 4).flush t = true ∧ i ∈ ((cfg1.win 4).blk t).view.set := by
  have hi0 : (i 0).val < 4 := (i 0).isLt
  have hi1 : (i 1).val < 8192 := (i 1).isLt
  have hi2 : (i 2).val < 2048 := (i 2).isLt
  have hN : cfg1.N = 32 := N_1
  have ht : 8 * (i 0).val + (i 1).val / 1024 < cfg1.N := by omega
  refine ⟨⟨8 * (i 0).val + (i 1).val / 1024, ht⟩, flush1_4 _, ?_⟩
  rw [mem_blk1_4]
  obtain ⟨-, -, -, -, -, -, -, -, -, -, e0, e1, e2⟩ := idx1 ⟨8 * (i 0).val + (i 1).val / 1024, ht⟩
  have e0' : win1_4.index ⟨8 * (i 0).val + (i 1).val / 1024, ht⟩ (0 : Fin 3) = (i 0).val := by rw [e0]; show (8 * (i 0).val + (i 1).val / 1024) / 8 = _; omega
  have e1' : win1_4.index ⟨8 * (i 0).val + (i 1).val / 1024, ht⟩ (1 : Fin 3) = (i 1).val / 1024 := by rw [e1]; show (8 * (i 0).val + (i 1).val / 1024) % 8 = _; omega
  intro a
  match a with
  | ⟨0, _⟩ => show win1_4.index ⟨8 * (i 0).val + (i 1).val / 1024, ht⟩ (0 : Fin 3) * 1 ≤ (i 0).val ∧ (i 0).val < win1_4.index ⟨8 * (i 0).val + (i 1).val / 1024, ht⟩ (0 : Fin 3) * 1 + 1; omega
  | ⟨1, _⟩ => show win1_4.index ⟨8 * (i 0).val + (i 1).val / 1024, ht⟩ (1 : Fin 3) * 1024 ≤ (i 1).val ∧ (i 1).val < win1_4.index ⟨8 * (i 0).val + (i 1).val / 1024, ht⟩ (1 : Fin 3) * 1024 + 1024; omega
  | ⟨2, _⟩ => show win1_4.index ⟨8 * (i 0).val + (i 1).val / 1024, ht⟩ (2 : Fin 3) * 2048 ≤ (i 2).val ∧ (i 2).val < win1_4.index ⟨8 * (i 0).val + (i 1).val / 1024, ht⟩ (2 : Fin 3) * 2048 + 2048; omega

/-- THE RESULT ARRAY after the region. -/
theorem final1 (c : Dev nD) : (dat1 V c).arrAt 4 cfg1.N = G1 V c :=
  (dat1 V c).arrAt_eq_of_cover 4 (G1 V c) (fun t _ => flushed1_4_eq V c t) blocks_cover1_4

end Cert.KernelIdeal.Hand

end
-- ==== Proof.RunAll.lean ====
/-
  The whole program's run: @main is three stretches of host operations around the two kernel regions.  The buffer contents at
  each boundary are a fold from the launch memory — a stretch applies its operations, a region leaves each of its windows'
  arrays at what its write-backs leave and every other buffer as entered.  Every weakly fair execution terminates, and the
  final memory holds every unscoped buffer at the last boundary's contents.
-/
import proofs.«104028_j9234179686589_2_alg».proof.Proof.FramePoolBody
import proofs.«104028_j9234179686589_2_alg».proof.Proof.FrameMain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After the first stretch (the pooling region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the pooling region's exit. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch (the attention region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the attention region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the last stretch: the contents the program ends with. -/
abbrev W5 : Dev nD → Valuation τ sig (Elt F) := fun c => StableHlo.after hostOps2 (W4 m c)

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered with every unscoped buffer at `W1`, left with them at `W2`. Its windows'
    arrays are split out of the unscoped buffers and put back at what the write-backs leave; the generator register
    goes into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = (dat0 (V1 m) c).Φ (Fin.last cfg0.N) from rfl]
    iintro H
    have hgive := hout0 (V1 m) c
    ihave H' := hgive $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its windows'
    arrays are split out of the unscoped buffers and put back at what the write-backs leave; the generator register
    goes into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh' (W0 m)),
    .region (reg0 m),
    .host (hseg hostOps1 hostOps1_sub hostOps1_fresh' (W2 m)),
    .region (reg1 m),
    .host (hseg hostOps2 hostOps2_sub hostOps2_fresh' (W4 m)) ]

theorem main_run (c : Dev nD) : main (F := F) c = Pipeline.Seg.run (segs m) := (main_chain c).trans (by chain_rfl)

/-- The last thread state without the dues: every unscoped buffer at the last boundary's contents, the generator register. -/
abbrev Tₙ (c : Dev nD) : sProp 𝕄 := iprop(StableHlo.held (c : Thread nD τ) (Pipeline.ucRefs τ sig) (W5 m c) ∗ ∃ r, prngReg c r)

set_option backward.isDefEq.respectTransparency.types false in
/-- THE RUN: from any memory with zero counters, every weakly fair execution of @main terminates, nothing faulting,
    and every final memory holds every unscoped buffer at `W5`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => show iprop(StableHlo.held (c : Thread nD τ) (Pipeline.ucRefs τ sig) (W5 m c) ∗ R c)
        ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.KernelIdeal.Hand

end
-- ==== Proof.ArgsKept.lean ====
/-
  The seven argument arrays end as launched: no stretch of host operations writes one, and a region either reads it
  through an input window (whose array the write-backs never touch) or does not mention it.
-/
import proofs.«104028_j9234179686589_2_alg».proof.Proof.RunAll

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The buffers stretch 0 writes. -/
abbrev ops0_W : List (Ref sig .tc) := [main_v0]
theorem ops0_writes : (hostOps0 : List (HloOp τ sig (Elt F))).Forall fun op => op.writes ⊆ (ops0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers stretch 1 writes. -/
abbrev ops1_W : List (Ref sig .tc) := [main_v2, main_v3, main_v4, main_v5, main_v6, main_v7, main_v8, main_cst, main_v9, main_v10, main_cst_0, main_v11, main_v12, main_v13, main_v14, main_v15, main_v16, main_v17]
theorem ops1_writes : (hostOps1 : List (HloOp τ sig (Elt F))).Forall fun op => op.writes ⊆ (ops1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers stretch 2 writes. -/
abbrev ops2_W : List (Ref sig .tc) := [main_v19, main_v20]
theorem ops2_writes : (hostOps2 : List (HloOp τ sig (Elt F))).Forall fun op => op.writes ⊆ (ops2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer a stretch does not write is as before it. -/
theorem W1_of (c : Dev nD) (r : Ref sig .tc) (h : r ∉ (ops0_W : List (Ref sig .tc))) : W1 m c (Proc.devRef .tc r) = W0 m c (Proc.devRef .tc r) :=
  StableHlo.after_of_writes_sub hostOps0 _ ops0_writes h
theorem W3_of (c : Dev nD) (r : Ref sig .tc) (h : r ∉ (ops1_W : List (Ref sig .tc))) : W3 m c (Proc.devRef .tc r) = W2 m c (Proc.devRef .tc r) :=
  StableHlo.after_of_writes_sub hostOps1 _ ops1_writes h
theorem W5_of (c : Dev nD) (r : Ref sig .tc) (h : r ∉ (ops2_W : List (Ref sig .tc))) : W5 m c (Proc.devRef .tc r) = W4 m c (Proc.devRef .tc r) :=
  StableHlo.after_of_writes_sub hostOps2 _ ops2_writes h

theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of m c main_arg0 (by decide)
    _ = W3 m c (Proc.devRef .tc main_arg0) := (W4_arr m c 0).trans (((dat1 (V3 m) c).arrAt_in 0 rfl _).trans (A_eq1 (V3 m) c 0))
    _ = W2 m c (Proc.devRef .tc main_arg0) := W3_of m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := W1_of m c main_arg0 (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of m c main_arg1 (by decide)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of m c main_arg2 (by decide)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of m c main_arg3 (by decide)
    _ = W3 m c (Proc.devRef .tc main_arg3) := W4_of_ne m c main_arg3 (by decide)
    _ = W2 m c (Proc.devRef .tc main_arg3) := W3_of m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := W5_of m c main_arg4 (by decide)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl

theorem W5_main_arg5 (c : Dev nD) : W5 m c (Proc.devRef .tc main_arg5) = m ((c : Thread nD τ).loc main_arg5) :=
  calc W5 m c (Proc.devRef .tc main_arg5)
    _ = W4 m c (Proc.devRef .tc main_arg5) := W5_of m c main_arg5 (by decide)
    _ = W3 m c (Proc.devRef .tc main_arg5) := W4_of_ne m c main_arg5 (by decide)
    _ = W2 m c (Proc.devRef .tc main_arg5) := W3_of m c main_arg5 (by decide)
    _ = W1 m c (Proc.devRef .tc main_arg5) := (W2_arr m c 1).trans (((dat0 (V1 m) c).arrAt_in 1 rfl _).trans (A_eq0 (V1 m) c 1))
    _ = W0 m c (Proc.devRef .tc main_arg5) := W1_of m c main_arg5 (by decide)
    _ = m ((c : Thread nD τ).loc main_arg5) := rfl

theorem W5_main_arg6 (c : Dev nD) : W5 m c (Proc.devRef .tc main_arg6) = m ((c : Thread nD τ).loc main_arg6) :=
  calc W5 m c (Proc.devRef .tc main_arg6)
    _ = W4 m c (Proc.devRef .tc main_arg6) := W5_of m c main_arg6 (by decide)
    _ = W3 m c (Proc.devRef .tc main_arg6) := W4_of_ne m c main_arg6 (by decide)
    _ = W2 m c (Proc.devRef .tc main_arg6) := W3_of m c main_arg6 (by decide)
    _ = W1 m c (Proc.devRef .tc main_arg6) := W2_of_ne m c main_arg6 (by decide)
    _ = W0 m c (Proc.devRef .tc main_arg6) := W1_of m c main_arg6 (by decide)
    _ = m ((c : Thread nD τ).loc main_arg6) := rfl

/-- THE FRAME: every weakly fair execution of @main terminates, nothing faulting, and every argument array ends as launched. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c)⟩) (run_all m ρ)

end Cert.KernelIdeal.Hand

end
-- ==== Proof.ArgsAt.lean ====
/-
  The argument arrays at every boundary of the run are the launch memory's (at any float instance).
-/
import proofs.«104028_j9234179686589_2_alg».proof.Proof.ArgsKept
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable {F : FTy → Type} [FloatOps F] (m : (ℓ : Loc nD τ sig) → Buf (Elt F) ℓ)

theorem W1_arg0 (c : Dev nD) : W1 m c (Proc.devRef .tc main_arg0) = m ((c : Thread nD τ).loc main_arg0) :=
  (W1_of m c main_arg0 (by decide)).trans rfl
theorem W2_arg0 (c : Dev nD) : W2 m c (Proc.devRef .tc main_arg0) = m ((c : Thread nD τ).loc main_arg0) :=
  ((W2_arr m c 0).trans (((dat0 (V1 m) c).arrAt_in 0 rfl _).trans (A_eq0 (V1 m) c 0))).trans (W1_arg0 m c)
theorem W3_arg0 (c : Dev nD) : W3 m c (Proc.devRef .tc main_arg0) = m ((c : Thread nD τ).loc main_arg0) :=
  (W3_of m c main_arg0 (by decide)).trans (W2_arg0 m c)
theorem W4_arg0 (c : Dev nD) : W4 m c (Proc.devRef .tc main_arg0) = m ((c : Thread nD τ).loc main_arg0) :=
  ((W4_arr m c 0).trans (((dat1 (V3 m) c).arrAt_in 0 rfl _).trans (A_eq1 (V3 m) c 0))).trans (W3_arg0 m c)

theorem W1_arg1 (c : Dev nD) : W1 m c (Proc.devRef .tc main_arg1) = m ((c : Thread nD τ).loc main_arg1) :=
  (W1_of m c main_arg1 (by decide)).trans rfl
theorem W2_arg1 (c : Dev nD) : W2 m c (Proc.devRef .tc main_arg1) = m ((c : Thread nD τ).loc main_arg1) :=
  (W2_of_ne m c main_arg1 (by decide)).trans (W1_arg1 m c)
theorem W3_arg1 (c : Dev nD) : W3 m c (Proc.devRef .tc main_arg1) = m ((c : Thread nD τ).loc main_arg1) :=
  (W3_of m c main_arg1 (by decide)).trans (W2_arg1 m c)
theorem W4_arg1 (c : Dev nD) : W4 m c (Proc.devRef .tc main_arg1) = m ((c : Thread nD τ).loc main_arg1) :=
  (W4_of_ne m c main_arg1 (by decide)).trans (W3_arg1 m c)

theorem W1_arg2 (c : Dev nD) : W1 m c (Proc.devRef .tc main_arg2) = m ((c : Thread nD τ).loc main_arg2) :=
  (W1_of m c main_arg2 (by decide)).trans rfl
theorem W2_arg2 (c : Dev nD) : W2 m c (Proc.devRef .tc main_arg2) = m ((c : Thread nD τ).loc main_arg2) :=
  (W2_of_ne m c main_arg2 (by decide)).trans (W1_arg2 m c)
theorem W3_arg2 (c : Dev nD) : W3 m c (Proc.devRef .tc main_arg2) = m ((c : Thread nD τ).loc main_arg2) :=
  (W3_of m c main_arg2 (by decide)).trans (W2_arg2 m c)
theorem W4_arg2 (c : Dev nD) : W4 m c (Proc.devRef .tc main_arg2) = m ((c : Thread nD τ).loc main_arg2) :=
  (W4_of_ne m c main_arg2 (by decide)).trans (W3_arg2 m c)

theorem W1_arg3 (c : Dev nD) : W1 m c (Proc.devRef .tc main_arg3) = m ((c : Thread nD τ).loc main_arg3) :=
  (W1_of m c main_arg3 (by decide)).trans rfl
theorem W2_arg3 (c : Dev nD) : W2 m c (Proc.devRef .tc main_arg3) = m ((c : Thread nD τ).loc main_arg3) :=
  (W2_of_ne m c main_arg3 (by decide)).trans (W1_arg3 m c)
theorem W3_arg3 (c : Dev nD) : W3 m c (Proc.devRef .tc main_arg3) = m ((c : Thread nD τ).loc main_arg3) :=
  (W3_of m c main_arg3 (by decide)).trans (W2_arg3 m c)
theorem W4_arg3 (c : Dev nD) : W4 m c (Proc.devRef .tc main_arg3) = m ((c : Thread nD τ).loc main_arg3) :=
  (W4_of_ne m c main_arg3 (by decide)).trans (W3_arg3 m c)

theorem W1_arg4 (c : Dev nD) : W1 m c (Proc.devRef .tc main_arg4) = m ((c : Thread nD τ).loc main_arg4) :=
  (W1_of m c main_arg4 (by decide)).trans rfl
theorem W2_arg4 (c : Dev nD) : W2 m c (Proc.devRef .tc main_arg4) = m ((c : Thread nD τ).loc main_arg4) :=
  (W2_of_ne m c main_arg4 (by decide)).trans (W1_arg4 m c)
theorem W3_arg4 (c : Dev nD) : W3 m c (Proc.devRef .tc main_arg4) = m ((c : Thread nD τ).loc main_arg4) :=
  (W3_of m c main_arg4 (by decide)).trans (W2_arg4 m c)
theorem W4_arg4 (c : Dev nD) : W4 m c (Proc.devRef .tc main_arg4) = m ((c : Thread nD τ).loc main_arg4) :=
  (W4_of_ne m c main_arg4 (by decide)).trans (W3_arg4 m c)

theorem W1_arg5 (c : Dev nD) : W1 m c (Proc.devRef .tc main_arg5) = m ((c : Thread nD τ).loc main_arg5) :=
  (W1_of m c main_arg5 (by decide)).trans rfl
theorem W2_arg5 (c : Dev nD) : W2 m c (Proc.devRef .tc main_arg5) = m ((c : Thread nD τ).loc main_arg5) :=
  ((W2_arr m c 1).trans (((dat0 (V1 m) c).arrAt_in 1 rfl _).trans (A_eq0 (V1 m) c 1))).trans (W1_arg5 m c)
theorem W3_arg5 (c : Dev nD) : W3 m c (Proc.devRef .tc main_arg5) = m ((c : Thread nD τ).loc main_arg5) :=
  (W3_of m c main_arg5 (by decide)).trans (W2_arg5 m c)
theorem W4_arg5 (c : Dev nD) : W4 m c (Proc.devRef .tc main_arg5) = m ((c : Thread nD τ).loc main_arg5) :=
  (W4_of_ne m c main_arg5 (by decide)).trans (W3_arg5 m c)

theorem W1_arg6 (c : Dev nD) : W1 m c (Proc.devRef .tc main_arg6) = m ((c : Thread nD τ).loc main_arg6) :=
  (W1_of m c main_arg6 (by decide)).trans rfl
theorem W2_arg6 (c : Dev nD) : W2 m c (Proc.devRef .tc main_arg6) = m ((c : Thread nD τ).loc main_arg6) :=
  (W2_of_ne m c main_arg6 (by decide)).trans (W1_arg6 m c)
theorem W3_arg6 (c : Dev nD) : W3 m c (Proc.devRef .tc main_arg6) = m ((c : Thread nD τ).loc main_arg6) :=
  (W3_of m c main_arg6 (by decide)).trans (W2_arg6 m c)
theorem W4_arg6 (c : Dev nD) : W4 m c (Proc.devRef .tc main_arg6) = m ((c : Thread nD τ).loc main_arg6) :=
  (W4_of_ne m c main_arg6 (by decide)).trans (W3_arg6 m c)

end Cert.KernelIdeal.Hand

end
-- ==== Proof.HostReadsPool.lean ====
/-
  What the host lines before the pooling call leave in the buffer the call reads: the projection matrix transposed,
  so entry (d, o) of the buffer is entry (o, d) of the argument.
-/
import proofs.«104028_j9234179686589_2_alg».proof.Proof.Gen.KernelIdeal.Launch
import Idealize.ShloMosaic.Lib.StableHlo.Run
import Idealize.ShloMosaic.Lib.ValueLayout
import Idealize.ShloMosaic.PureOps.Ideal

noncomputable section

namespace Cert.KernelIdeal.Pay

open Idealize.ShloMosaic Idealize.ShloMosaic.ValueIdx Cert.KernelIdeal Cert.KernelIdeal.Gen

/-- The buffer the pooling call reads as its projection is the transpose of the projection argument. -/
theorem host0_v0_eq (W : Valuation τ sig (Elt Ideal)) :
    (StableHlo.after (hostOps0 (F := Ideal)) W (Proc.devRef .tc main_v0) : S2048x128.Idx → EReal)
      = transpose S2048x128 [1, 0] (W (Proc.devRef .tc main_arg2) : S128x2048.Idx → EReal)
          transposes_S128x2048_S2048x128_1_0 := by
  dsimp only [hostOps0]
  after_results

/-- Entry (d, o) of that buffer is entry (o, d) of the argument. -/
theorem host0_v0_apply (W : Valuation τ sig (Elt Ideal)) (d : Fin 2048) (o : Fin 128) :
    StableHlo.after (hostOps0 (F := Ideal)) W (Proc.devRef .tc main_v0) (ix2 d o)
      = W (Proc.devRef .tc main_arg2) (ix2 o d) :=
  (congrFun (host0_v0_eq W) (ix2 d o)).trans (transpose_ix2_apply _ _ d o)

end Cert.KernelIdeal.Pay

end
-- ==== Proof.HostReadsBus.lean ====
/-
  What the host lines between and after the two calls leave in the buffers that carry the summary and the bus rows.

  The pooling call's result, a [4, 1, 128] array, is viewed as [4, 128]: entry (b, o) is entry (b, 0, o).  It is then
  spread back to [4, 1, 128] and joined with the 24 cached rows along the row axis: in front of them for the bus rows
  the attention call reads (row 0 the summary, row l > 0 the cached row l - 1), behind them for the new cache (row
  l < 24 the cached row l, row 24 the summary).
-/
import proofs.«104028_j9234179686589_2_alg».proof.Proof.Gen.KernelIdeal.Launch
import Idealize.ShloMosaic.Lib.StableHlo.Run
import Idealize.ShloMosaic.Lib.Pipeline.Value
import Idealize.ShloMosaic.Lib.ValueLayout
import Idealize.ShloMosaic.PureOps.Ideal

noncomputable section

namespace Cert.KernelIdeal.Pay

open Idealize.ShloMosaic Idealize.ShloMosaic.ValueIdx Cert.KernelIdeal Cert.KernelIdeal.Gen

/-- A [4, 1, 128] array viewed as [4, 128] reads, at (b, o), the operand at (b, 0, o). -/
theorem shapeCast_4x1x128_4x128_apply {α : Type} (x : S4x1x128.Idx → α) (b : Fin 4) (o : Fin 128) :
    shapeCast S4x128 x shapeCasts_S4x1x128_S4x128 (ix2 b o) = x (ix3 b (0 : Fin 1) o) :=
  shapeCast_apply x _ _ _ (by
    rw [Shape.rowMajor_val_three, Shape.rowMajor_val_two]
    show (b.val * 1 + 0) * 128 + o.val = b.val * 128 + o.val
    rw [Nat.mul_one, Nat.add_zero])

/-- A [4, 128] array spread to [4, 1, 128] along axes 0 and 2 reads, at (b, u, o), the operand at (b, o). -/
theorem broadcastInDim_4x128_4x1x128_apply {α : Type} (x : S4x128.Idx → α) (b : Fin 4) (u : Fin 1) (o : Fin 128) :
    broadcastInDim S4x1x128 ![0, 2] bcast_S4x128_S4x1x128_0_2 x (ix3 b u o) = x (ix2 b o) :=
  broadcastInDim_apply _ _ x (ix3 b u o) (ix2 b o) fun a => by
    match a with
    | ⟨0, _⟩ => rfl
    | ⟨1, _⟩ => rfl

/-! ## The lines between the calls -/

/-- The summary as a [4, 128] array is the pooling call's result, viewed so. -/
theorem host1_v2_eq (W : Valuation τ sig (Elt Ideal)) :
    (StableHlo.after (hostOps1 (F := Ideal)) W (Proc.devRef .tc main_v2) : S4x128.Idx → EReal)
      = shapeCast S4x128 (W (Proc.devRef .tc main_v1) : S4x1x128.Idx → EReal) shapeCasts_S4x1x128_S4x128 := by
  dsimp only [hostOps1]
  after_results <;> rfl

/-- Entry (b, o) of the summary is entry (b, 0, o) of the pooling call's result. -/
theorem host1_v2_apply (W : Valuation τ sig (Elt Ideal)) (b : Fin 4) (o : Fin 128) :
    StableHlo.after (hostOps1 (F := Ideal)) W (Proc.devRef .tc main_v2) (ix2 b o)
      = W (Proc.devRef .tc main_v1) (ix3 b 0 o) :=
  (congrFun (host1_v2_eq W) (ix2 b o)).trans (shapeCast_4x1x128_4x128_apply _ b o)

/-- The bus rows: the summary, spread to one row, in front of the cached rows. -/
theorem host1_v4_eq (W : Valuation τ sig (Elt Ideal)) :
    (StableHlo.after (hostOps1 (F := Ideal)) W (Proc.devRef .tc main_v4) : S4x25x128.Idx → EReal)
      = concatenate S4x25x128 1
          [⟨S4x1x128, broadcastInDim S4x1x128 ![0, 2] bcast_S4x128_S4x1x128_0_2
              (shapeCast S4x128 (W (Proc.devRef .tc main_v1) : S4x1x128.Idx → EReal) shapeCasts_S4x1x128_S4x128)⟩,
           ⟨S4x24x128, (W (Proc.devRef .tc main_arg1) : S4x24x128.Idx → EReal)⟩]
          concatenates_S4x1x128_S4x24x128_S4x25x128_d1 := by
  dsimp only [hostOps1]
  after_results <;> rfl

/-- Bus row 0 is the summary; bus row l > 0 is cached row l - 1. -/
theorem host1_v4_apply (W : Valuation τ sig (Elt Ideal)) (b : Fin 4) (l : Fin 25) (o : Fin 128) :
    StableHlo.after (hostOps1 (F := Ideal)) W (Proc.devRef .tc main_v4) (ix3 b l o)
      = if h : l.val = 0 then W (Proc.devRef .tc main_v1) (ix3 b 0 o)
        else W (Proc.devRef .tc main_arg1) (ix3 b ⟨l.val - 1, by have := l.isLt; omega⟩ o) := by
  refine (congrFun (host1_v4_eq W) (ix3 b l o)).trans ?_
  by_cases h : l.val = 0
  · rw [dif_pos h]
    refine (concatenate_pair_apply_left (t := S4x25x128) (s₁ := S4x1x128) (s₂ := S4x24x128) (1 : Fin S4x25x128.rank) _ _ _
      (ix3 b l o) rfl (ix3 b (0 : Fin 1) o) ?_).trans ?_
    · intro c
      match c with
      | ⟨0, _⟩ => rfl
      | ⟨1, _⟩ => exact h.symm
      | ⟨2, _⟩ => rfl
    · rw [broadcastInDim_4x128_4x1x128_apply, shapeCast_4x1x128_4x128_apply]
  · rw [dif_neg h]
    have hl : l.val - 1 < 24 := by have := l.isLt; omega
    refine (concatenate_pair_apply_right (t := S4x25x128) (s₁ := S4x1x128) (s₂ := S4x24x128) (1 : Fin S4x25x128.rank) _ _ _
      (ix3 b l o) rfl rfl (ix3 b (⟨l.val - 1, hl⟩ : Fin 24) o) ?_ ?_).trans ?_
    · intro c hc
      match c, hc with
      | ⟨0, _⟩, _ => rfl
      | ⟨1, _⟩, hc => exact absurd rfl hc
      | ⟨2, _⟩, _ => rfl
    · show l.val - 1 + 1 = l.val
      omega
    · rfl

/-! ## The lines after the calls -/

/-- The new cache: the cached rows in front of the summary, spread to one row. -/
theorem host2_v20_eq (W : Valuation τ sig (Elt Ideal)) :
    (StableHlo.after (hostOps2 (F := Ideal)) W (Proc.devRef .tc main_v20) : S4x25x128.Idx → EReal)
      = concatenate S4x25x128 1
          [⟨S4x24x128, (W (Proc.devRef .tc main_arg1) : S4x24x128.Idx → EReal)⟩,
           ⟨S4x1x128, broadcastInDim S4x1x128 ![0, 2] bcast_S4x128_S4x1x128_0_2
              (W (Proc.devRef .tc main_v2) : S4x128.Idx → EReal)⟩]
          concatenates_S4x24x128_S4x1x128_S4x25x128_d1 := by
  dsimp only [hostOps2]
  after_results <;> rfl

/-- New cache row l < 24 is cached row l; row 24 is the summary. -/
theorem host2_v20_apply (W : Valuation τ sig (Elt Ideal)) (b : Fin 4) (l : Fin 25) (o : Fin 128) :
    StableHlo.after (hostOps2 (F := Ideal)) W (Proc.devRef .tc main_v20) (ix3 b l o)
      = if h : l.val < 24 then W (Proc.devRef .tc main_arg1) (ix3 b ⟨l.val, h⟩ o)
        else W (Proc.devRef .tc main_v2) (ix2 b o) := by
  refine (congrFun (host2_v20_eq W) (ix3 b l o)).trans ?_
  by_cases h : l.val < 24
  · rw [dif_pos h]
    refine (concatenate_pair_apply_left (t := S4x25x128) (s₁ := S4x24x128) (s₂ := S4x1x128) (1 : Fin S4x25x128.rank) _ _ _
      (ix3 b l o) rfl (ix3 b (⟨l.val, h⟩ : Fin 24) o) ?_).trans ?_
    · intro c
      match c with
      | ⟨0, _⟩ => rfl
      | ⟨1, _⟩ => rfl
      | ⟨2, _⟩ => rfl
    · rfl
  · rw [dif_neg h]
    refine (concatenate_pair_apply_right (t := S4x25x128) (s₁ := S4x24x128) (s₂ := S4x1x128) (1 : Fin S4x25x128.rank) _ _ _
      (ix3 b l o) rfl rfl (ix3 b (0 : Fin 1) o) ?_ ?_).trans ?_
    · intro c hc
      match c, hc with
      | ⟨0, _⟩, _ => rfl
      | ⟨1, _⟩, hc => exact absurd rfl hc
      | ⟨2, _⟩, _ => rfl
    · show 0 + 24 = l.val
      have := l.isLt
      omega
    · exact broadcastInDim_4x128_4x1x128_apply _ b 0 o

end Cert.KernelIdeal.Pay

end
-- ==== Proof.RefWords.lean ====
/-
  Two float words as extended reals: the word of 1.0 is the number 1, and the word of negative infinity is ⊥.
-/
import Idealize.ShloMosaic.PureOps.Ideal

noncomputable section

open scoped BigOperators

namespace Cert.RefValue

open Idealize.ShloMosaic

/-- The word 0x3F800000 (sign 0, exponent 127, fraction 0) is 2^23 · 2^(127 - 127 - 23) = 1. -/
theorem ofBits_one_f32 : Ideal.ofBits .f32 0x3F800000#32 = 1 := by
  simp [Ideal.ofBits, Ideal.ieee]
  rw [← EReal.coe_mul, ← EReal.coe_one]
  congr 1
  norm_num

/-- The word 0xFF800000 (sign 1, exponent all ones, fraction 0) is negative infinity. -/
theorem ofBits_ninf_f32 : Ideal.ofBits .f32 0xFF800000#32 = ⊥ := by
  simp [Ideal.ofBits, Ideal.ieee]

end Cert.RefValue

end
-- ==== Proof.HostReadsMain.lean ====
/-
  What the host lines between the calls leave in the two matrix buffers the attention call reads.

  The query matrix is the query argument transposed (then narrowed, which over the extended reals changes nothing):
  entry (d, o) is entry (o, d) of the argument.  The modulation matrix is the modulation argument times the gate's
  logistic, transposed (and narrowed): entry (o, d) is wm(d, o) · σ, where the lines spell σ = 1 / (1 + exp (−gate))
  with the word of 1.0 for both ones.
-/
import proofs.«104028_j9234179686589_2_alg».proof.Proof.Gen.KernelIdeal.Launch
import proofs.«104028_j9234179686589_2_alg».proof.Proof.RefWords
import Idealize.ShloMosaic.Lib.StableHlo.Run
import Idealize.ShloMosaic.Lib.Pipeline.Value
import Idealize.ShloMosaic.Lib.ValueLayout
import Idealize.ShloMosaic.PureOps.Ideal

noncomputable section

namespace Cert.KernelIdeal.Pay

open Idealize.ShloMosaic Idealize.ShloMosaic.ValueIdx Cert.KernelIdeal Cert.KernelIdeal.Gen

/-! ## The query matrix -/

/-- The query buffer is the query argument transposed, then narrowed. -/
theorem host1_v6_eq (W : Valuation τ sig (Elt Ideal)) :
    (StableHlo.after (hostOps1 (F := Ideal)) W (Proc.devRef .tc main_v6) : FVec Ideal S2048x128 .bf16)
      = truncf .bf16 (transpose S2048x128 [1, 0] (W (Proc.devRef .tc main_arg3) : FVec Ideal S128x2048 .f32)
          transposes_S128x2048_S2048x128_1_0 : FVec Ideal S2048x128 .f32) bitsLt_bf16_f32 := by
  dsimp only [hostOps1]
  after_results <;> rfl

/-- Entry (d, o) of the query buffer is entry (o, d) of the query argument. -/
theorem host1_v6_apply (W : Valuation τ sig (Elt Ideal)) (d : Fin 2048) (o : Fin 128) :
    StableHlo.after (hostOps1 (F := Ideal)) W (Proc.devRef .tc main_v6) (ix2 d o)
      = W (Proc.devRef .tc main_arg3) (ix2 o d) := by
  refine (congrFun (host1_v6_eq W) (ix2 d o)).trans ?_
  rw [truncf_apply]
  exact transpose_ix2_apply _ _ d o

/-! ## The modulation matrix -/

/-- The gate's logistic as the lines spell it: 1 / (1 + exp (−gate)), on a one-entry array. -/
def sigVec (a6 : FVec Ideal S1 .f32) : FVec Ideal S1 .f32 :=
  Host.divf (broadcastInDim S1 ![] bcast_S_S1 (constant (F := Ideal) S_ .f32 0x3F800000#32))
    (addf (broadcastInDim S1 ![] bcast_S_S1 (constant (F := Ideal) S_ .f32 0x3F800000#32)) (Host.exp (Host.negf a6)))

/-- Its one entry is the logistic of the gate. -/
theorem sigVec_apply (a6 : FVec Ideal S1 .f32) : sigVec a6 (ix1 0) = Ideal.logistic (a6 (ix1 0)) := by
  unfold Ideal.logistic
  show Ideal.div (Ideal.ofBits .f32 0x3F800000#32) (Ideal.ofBits .f32 0x3F800000#32 + Ideal.exp (-(a6 (ix1 0))))
    = Ideal.div 1 (1 + Ideal.exp (-(a6 (ix1 0))))
  rw [Cert.RefValue.ofBits_one_f32]

/-- The modulation buffer is the modulation argument times the spread logistic, transposed, then narrowed. -/
theorem host1_v17_eq (W : Valuation τ sig (Elt Ideal)) :
    (StableHlo.after (hostOps1 (F := Ideal)) W (Proc.devRef .tc main_v17) : FVec Ideal S128x2048 .bf16)
      = truncf .bf16 (transpose S128x2048 [1, 0]
          (mulf (W (Proc.devRef .tc main_arg4) : FVec Ideal S2048x128 .f32)
            (broadcastInDim S2048x128 ![] bcast_S_S2048x128
              (shapeCast S_ (sigVec (W (Proc.devRef .tc main_arg6) : FVec Ideal S1 .f32)) shapeCasts_S1_S_)))
          transposes_S2048x128_S128x2048_1_0 : FVec Ideal S128x2048 .f32) bitsLt_bf16_f32 := by
  dsimp only [hostOps1]
  after_results <;> rfl

/-- Entry (o, d) of the modulation buffer is wm(d, o) times the gate's logistic. -/
theorem host1_v17_apply (W : Valuation τ sig (Elt Ideal)) (o : Fin 128) (d : Fin 2048) :
    StableHlo.after (hostOps1 (F := Ideal)) W (Proc.devRef .tc main_v17) (ix2 o d)
      = HMul.hMul (α := EReal) (β := EReal) (γ := EReal) (W (Proc.devRef .tc main_arg4) (ix2 d o))
          (Ideal.logistic (W (Proc.devRef .tc main_arg6) (ix1 0))) := by
  refine (congrFun (host1_v17_eq W) (ix2 o d)).trans ?_
  rw [truncf_apply]
  refine (transpose_ix2_apply _ _ o d).trans ?_
  rw [mulf_apply]
  refine congrArg (fun t : EReal => HMul.hMul (α := EReal) (β := EReal) (γ := EReal)
    (W (Proc.devRef .tc main_arg4) (ix2 d o)) t) ?_
  refine (broadcastInDim_apply _ _ _ (ix2 d o) ix0 fun a => a.elim0).trans ?_
  refine (shapeCast_apply _ _ ix0 (ix1 (0 : Fin 1)) (by rw [Shape.rowMajor_val_one]; rfl)).trans ?_
  exact sigVec_apply _

end Cert.KernelIdeal.Pay

end
-- ==== Proof.SpecIdx.lean ====
/-
  The seven argument arrays, given as functions of array indices, read at plain coordinates: the specification's inputs.
-/
import proofs.«104028_j9234179686589_2_alg».proof.Proof.Spec
import Idealize.ShloMosaic.Lib.ValueIdx

noncomputable section

namespace Cert.Spec

open Idealize.ShloMosaic Idealize.ShloMosaic.ValueIdx

/-- x is [4, 8192, 2048]; the cache [4, 24, 128]; the publish and query projections [128, 2048]; the modulation
    projection [2048, 128]; the gate vector the one row of a [1, 2048] array; the gate the one entry of a [1] array. -/
def inputsOf (a0 : (⟨3, ![4, 8192, 2048]⟩ : Shape).Idx → EReal) (a1 : (⟨3, ![4, 24, 128]⟩ : Shape).Idx → EReal)
    (a2 a3 : (⟨2, ![128, 2048]⟩ : Shape).Idx → EReal) (a4 : (⟨2, ![2048, 128]⟩ : Shape).Idx → EReal)
    (a5 : (⟨2, ![1, 2048]⟩ : Shape).Idx → EReal) (a6 : (⟨1, ![1]⟩ : Shape).Idx → EReal) : Inputs where
  x b s d := a0 (ix3 b s d)
  bc b l o := a1 (ix3 b l o)
  Wp o d := a2 (ix2 o d)
  Wq o d := a3 (ix2 o d)
  Wm d o := a4 (ix2 d o)
  wg d := a5 (ix2 0 d)
  gate := a6 (ix1 0)

end Cert.Spec

end
-- ==== Proof.Bridge.lean ====
/-
  The kernel program's two results are the specification's, at the ideal instance.

  Every array the two regions read is identified with the specification's inputs (the launch memory read at coordinates):
  the argument arrays are the launch memory's at every boundary; the transposed projections are the arguments read with
  the coordinates swapped; the summary array the pooling region leaves is the specification's summary; the bus rows the
  attention region reads are the summary row followed by the cache; the modulation matrix it reads is the transposed
  modulation projection times the gate's logistic.  Hence the first result is `outK` and the second `newCache`.
-/
import proofs.«104028_j9234179686589_2_alg».proof.Proof.SummaryPool
import proofs.«104028_j9234179686589_2_alg».proof.Proof.ValueMain
import proofs.«104028_j9234179686589_2_alg».proof.Proof.ArgsAt
import proofs.«104028_j9234179686589_2_alg».proof.Proof.HostReadsPool
import proofs.«104028_j9234179686589_2_alg».proof.Proof.HostReadsBus
import proofs.«104028_j9234179686589_2_alg».proof.Proof.HostReadsMain
import proofs.«104028_j9234179686589_2_alg».proof.Proof.SpecIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Pay

variable (m : (ℓ : Loc nD τ sig) → Buf (Elt Ideal) ℓ)

/-- The specification's inputs: core c's launch memory read at coordinates. -/
def inputsAt (c : Dev nD) : Cert.Spec.Inputs :=
  Cert.Spec.inputsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-! ## The pooling region's entry contents -/

theorem xN_eq (c : Dev nD) (b : Fin 4) (s : Fin 8192) (d : Fin 2048) : xN (V1 m) c b.val s.val d = (inputsAt m c).x b s d := by
  unfold xN
  rw [dif_pos ⟨b.isLt, s.isLt⟩]
  exact congrFun (W1_arg0 m c) _

theorem wgN_eq (c : Dev nD) (d : Fin 2048) : wgN (V1 m) c d = (inputsAt m c).wg d :=
  congrFun (W1_arg5 m c) _

theorem gN_eq (c : Dev nD) (b : Fin 4) (s : Fin 8192) : gN (V1 m) c b.val s.val = Cert.Spec.g (inputsAt m c) b s := by
  unfold gN Cert.Spec.g
  exact congrArg₂ Cert.Spec.rowGate (funext fun d => xN_eq m c b s d) (funext fun d => wgN_eq m c d)

theorem accxV_eq (c : Dev nD) (b : Fin 4) (d : Fin 2048) : accxV (V1 m) c b.val d = Cert.Spec.accx (inputsAt m c) b d := by
  unfold accxV Cert.Spec.accx
  exact Finset.sum_congr rfl fun s _ => by rw [xN_eq m c b s d, gN_eq m c b s]

theorem accgV_eq (c : Dev nD) (b : Fin 4) : accgV (V1 m) c b.val = Cert.Spec.accg (inputsAt m c) b := by
  unfold accgV Cert.Spec.accg
  exact Finset.sum_congr rfl fun s _ => gN_eq m c b s

/-- The transposed publish projection the pooling region reads. -/
theorem wp_eq (c : Dev nD) (d : Fin 2048) (o : Fin 128) : V1 m c main_v0 (ix2 d o) = (inputsAt m c).Wp o d :=
  host0_v0_apply (W0 m c) d o

/-- The summary array the pooling region leaves is the specification's summary. -/
theorem summary_eq (c : Dev nD) (b : Fin 4) (o : Fin 128) :
    W2 m c (Proc.devRef .tc main_v1) (ix3 b 0 o) = Cert.Spec.summary (inputsAt m c) b o := by
  have e : W2 m c (Proc.devRef .tc main_v1) = G0 (V1 m) c := (W2_arr m c 3).trans (final0 (V1 m) c)
  rw [e]
  show summaryV (V1 m) c b.val o = _
  unfold summaryV Cert.Spec.summary
  congr 1
  · funext d; exact accxV_eq m c b d
  · exact accgV_eq m c b
  · funext d o'; exact wp_eq m c d o'

/-! ## The attention region's entry contents -/

theorem x3_eq (c : Dev nD) (b : Fin 4) (s : Fin 8192) (d : Fin 2048) : V3 m c main_arg0 (ix3 b s d) = (inputsAt m c).x b s d :=
  congrFun (W3_arg0 m c) _

theorem wq_eq (c : Dev nD) (d : Fin 2048) (o : Fin 128) : V3 m c main_v6 (ix2 d o) = (inputsAt m c).Wq o d :=
  (host1_v6_apply (W2 m c) d o).trans (congrFun (W2_arg3 m c) _)

theorem aug_eq (c : Dev nD) (b : Fin 4) (l : Fin 25) (o : Fin 128) : V3 m c main_v4 (ix3 b l o) = Cert.Spec.aug (inputsAt m c) b l o := by
  refine (host1_v4_apply (W2 m c) b l o).trans ?_
  unfold Cert.Spec.aug
  by_cases h : l.val = 0
  · rw [dif_pos h, dif_pos h]; exact summary_eq m c b o
  · rw [dif_neg h, dif_neg h]; exact congrFun (W2_arg1 m c) _

theorem wm_eq (c : Dev nD) (o : Fin 128) (d : Fin 2048) : V3 m c main_v17 (ix2 o d) = (inputsAt m c).Wm d o * Cert.Spec.sig (inputsAt m c) := by
  refine (host1_v17_apply (W2 m c) o d).trans ?_
  rw [W2_arg4 m c, W2_arg6 m c]
  rfl

/-- The result array the attention region leaves, entry by entry. -/
theorem G1_eq (c : Dev nD) (b : Fin 4) (s : Fin 8192) (d : Fin 2048) : G1 (V3 m) c (ix3 b s d) = Cert.Spec.outK (inputsAt m c) b s d := by
  unfold G1 Cert.Spec.outK
  show Cert.Spec.rowOut _ _ _ _ d = Cert.Spec.rowOut _ _ _ _ d
  congr 1
  · funext d'; exact x3_eq m c b s d'
  · funext d' o; exact wq_eq m c d' o
  · funext l o; exact aug_eq m c b l o
  · funext o d'; exact wm_eq m c o d'

/-! ## The two results -/

/-- THE FIRST RESULT. -/
theorem kernel_out (c : Dev nD) :
    W5 m c (Proc.devRef .tc main_v18) = fun j : S4x8192x2048.Idx => Cert.Spec.outK (inputsAt m c) (j 0) (j 1) (j 2) := by
  have e : W5 m c (Proc.devRef .tc main_v18) = G1 (V3 m) c :=
    (W5_of m c main_v18 (by decide)).trans ((W4_arr m c 4).trans (final1 (V3 m) c))
  rw [e]
  funext j
  rw [eq_ix3 j]
  exact G1_eq m c (j 0) (j 1) (j 2)

/-- THE SECOND RESULT. -/
theorem kernel_cache (c : Dev nD) :
    W5 m c (Proc.devRef .tc main_v20) = fun j : S4x25x128.Idx => Cert.Spec.newCache (inputsAt m c) (j 0) (j 1) (j 2) := by
  funext j
  rw [eq_ix3 j]
  refine (host2_v20_apply (W4 m c) (j 0) (j 1) (j 2)).trans ?_
  show _ = Cert.Spec.newCache (inputsAt m c) (j 0) (j 1) (j 2)
  unfold Cert.Spec.newCache
  by_cases h : (j 1).val < 24
  · rw [dif_pos h, dif_pos h]; exact congrFun (W4_arg1 m c) _
  · rw [dif_neg h, dif_neg h]
    have e2 : W4 m c (Proc.devRef .tc main_v2) = W3 m c (Proc.devRef .tc main_v2) := W4_of_ne m c main_v2 (by decide)
    rw [e2]
    exact (host1_v2_apply (W2 m c) (j 0) (j 2)).trans (summary_eq m c (j 0) (j 2))

end Cert.KernelIdeal.Hand

end
-- ==== Proof.RefGate.lean ====
/-
  The reference program's pooling gate: its stage %6 at (b, s, ·) is the logistic of the inner product of the row
  x(b, s, ·) with the gate vector, spelt by the program as 1 / (1 + exp(-t)).
-/
import proofs.«104028_j9234179686589_2_alg».proof.Proof.Gen.ReferenceIdeal.Read
import proofs.«104028_j9234179686589_2_alg».proof.Proof.RefWords

noncomputable section

open scoped BigOperators

namespace Cert.RefValue

open Cert.ReferenceIdeal Cert.ReferenceIdeal.Read Idealize.ShloMosaic Idealize.ShloMosaic.ValueIdx

/-- Stage %6 read at (b, s, u): the logistic of Σ_d x(b,s,d) · wg(0,d). -/
theorem gate_apply (a0 : (⟨S4x8192x2048, .f32⟩ : BufTy).Contents (Elt Ideal)) (a5 : (⟨S1x2048, .f32⟩ : BufTy).Contents (Elt Ideal))
    (b : Fin 4) (s : Fin 8192) (u : Fin 1) :
    val_main_v6 (F := Ideal) a0 a5 (ix3 b s u) = Ideal.logistic (∑ d : Fin 2048, a0 (ix3 b s d) * a5 (ix2 (0 : Fin 1) d)) := by
  have hu : u = 0 := Subsingleton.elim _ _
  subst hu
  have hl : ∀ k : Fin 2048, lidx_main_v0 (ix3 b s (0 : Fin 1)) k = ix3 b s k := fun k =>
    funext fun a => Fin.ext (by match a with | ⟨0, _⟩ => rfl | ⟨1, _⟩ => rfl | ⟨2, _⟩ => rfl)
  have hr : ∀ k : Fin 2048, ridx_main_v0 (ix3 b s (0 : Fin 1)) k = ix2 (0 : Fin 1) k := fun k =>
    funext fun a => Fin.ext (by match a with | ⟨0, _⟩ => rfl | ⟨1, _⟩ => rfl)
  rw [val_main_v6_apply, val_main_v5_apply, val_main_cst_0_apply, val_main_v4_apply, val_main_v3_apply, val_main_cst_apply,
    val_main_v2_apply, val_main_v1_apply, val_main_v0_apply]
  simp only [hl, hr, Ideal.hostDivf_def, Ideal.addf_def, Ideal.hostUnary_exp_def, Ideal.hostNegf_def, Ideal.negf_def,
    Ideal.ofBits_def, ofBits_one_f32]
  rfl

end Cert.RefValue

end
-- ==== Proof.RefPool.lean ====
/-
  The reference program's pooled summary (stages %9 … %24), read at plain coordinates, is the specification's:
  the gated sums over the positions, the division by the gate mass plus ε₆, the projection, and the division by
  max(‖·‖₂, ε₁₂).  A host sum is its initial value, the zero word, plus the sum.
-/
import proofs.«104028_j9234179686589_2_alg».proof.Proof.RefGate
import proofs.«104028_j9234179686589_2_alg».proof.Proof.SpecIdx

noncomputable section

open scoped BigOperators

namespace Cert.RefValue

open Cert.ReferenceIdeal Cert.ReferenceIdeal.Read Idealize.ShloMosaic Idealize.ShloMosaic.ValueIdx

variable (a0 : (⟨S4x8192x2048, .f32⟩ : BufTy).Contents (Elt Ideal)) (a1 : (⟨S4x24x128, .f32⟩ : BufTy).Contents (Elt Ideal))
  (a2 a3 : (⟨S128x2048, .f32⟩ : BufTy).Contents (Elt Ideal)) (a4 : (⟨S2048x128, .f32⟩ : BufTy).Contents (Elt Ideal))
  (a5 : (⟨S1x2048, .f32⟩ : BufTy).Contents (Elt Ideal)) (a6 : (⟨S1, .f32⟩ : BufTy).Contents (Elt Ideal))

local notation "II" => Cert.Spec.inputsOf a0 a1 a2 a3 a4 a5 a6

/-- Stage %6 is the specification's gate. -/
theorem gate_eq (b : Fin 4) (s : Fin 8192) (u : Fin 1) :
    val_main_v6 (F := Ideal) a0 a5 (ix3 b s u) = Cert.Spec.g II b s :=
  gate_apply a0 a5 b s u

/-- Stage %9: the gated sum of x over the positions. -/
theorem accx_eq (b : Fin 4) (d : Fin 2048) :
    val_main_v9 (F := Ideal) a0 a5 (ix2 b d) = Cert.Spec.accx II b d := by
  have h9 : ∀ k : Fin 8192, idx_main_v9 (ix2 b d) k = ix3 b k d := fun k => funext fun a => Fin.ext (by match a with | ⟨0, _⟩ => rfl | ⟨1, _⟩ => rfl | ⟨2, _⟩ => rfl)
  have h7 : ∀ k : Fin 8192, idx_main_v7 (ix3 b k d) = ix3 b k (0 : Fin 1) := fun k => funext fun a => Fin.ext (by match a with | ⟨0, _⟩ => rfl | ⟨1, _⟩ => rfl | ⟨2, _⟩ => rfl)
  rw [val_main_v9_apply, val_main_cst_1_apply]
  simp only [h9, val_main_v8_apply, val_main_v7_apply, h7, gate_eq a0 a1 a2 a3 a4 a5 a6, Ideal.mulf_def, Ideal.ofBits_def,
    Ideal.ofBits_zero_f32, zero_add]
  rfl

/-- Stage %10: the gate mass. -/
theorem accg_eq (b : Fin 4) (u : Fin 1) :
    val_main_v10 (F := Ideal) a0 a5 (ix2 b u) = Cert.Spec.accg II b := by
  have hu : u = 0 := Subsingleton.elim _ _
  subst hu
  have h10 : ∀ k : Fin 8192, idx_main_v10 (ix2 b (0 : Fin 1)) k = ix3 b k (0 : Fin 1) := fun k => funext fun a => Fin.ext (by match a with | ⟨0, _⟩ => rfl | ⟨1, _⟩ => rfl | ⟨2, _⟩ => rfl)
  rw [val_main_v10_apply, val_main_cst_2_apply]
  simp only [h10, gate_eq a0 a1 a2 a3 a4 a5 a6, Ideal.ofBits_def, Ideal.ofBits_zero_f32, zero_add]
  rfl

/-- Stage %14: the pooled vector. -/
theorem xp_eq (b : Fin 4) (d : Fin 2048) :
    val_main_v14 (F := Ideal) a0 a5 (ix2 b d) = Cert.Spec.poolXp (Cert.Spec.accx II b) (Cert.Spec.accg II b) d := by
  have h13 : idx_main_v13 (ix2 b d) = ix2 b (0 : Fin 1) := funext fun a => Fin.ext (by match a with | ⟨0, _⟩ => rfl | ⟨1, _⟩ => rfl)
  rw [val_main_v14_apply, val_main_v13_apply, h13, val_main_v12_apply, val_main_v11_apply, val_main_cst_3_apply,
    accx_eq a0 a1 a2 a3 a4 a5 a6, accg_eq a0 a1 a2 a3 a4 a5 a6]
  simp only [Ideal.hostDivf_def, Ideal.addf_def, Ideal.ofBits_def]
  rfl

/-- Stage %16: the projection of the pooled vector. -/
theorem raw_eq (b : Fin 4) (o : Fin 128) :
    val_main_v16 (F := Ideal) a0 a2 a5 (ix2 b o)
      = Cert.Spec.poolRaw (Cert.Spec.accx II b) (Cert.Spec.accg II b) (fun d o => (II).Wp o d) o := by
  have hl : ∀ k : Fin 2048, lidx_main_v16 (ix2 b o) k = ix2 b k := fun k => funext fun a => Fin.ext (by match a with | ⟨0, _⟩ => rfl | ⟨1, _⟩ => rfl)
  have hr : ∀ k : Fin 2048, ridx_main_v16 (ix2 b o) k = ix2 k o := fun k => funext fun a => Fin.ext (by match a with | ⟨0, _⟩ => rfl | ⟨1, _⟩ => rfl)
  have h15 : ∀ k : Fin 2048, idx_main_v15 (ix2 k o) = ix2 o k := fun k => funext fun a => Fin.ext (by match a with | ⟨0, _⟩ => rfl | ⟨1, _⟩ => rfl)
  rw [val_main_v16_apply]
  simp only [hl, hr, val_main_v15_apply, h15, xp_eq a0 a1 a2 a3 a4 a5 a6]
  rfl

/-- Stage %22: the norm of the projection joined with ε₁₂. -/
theorem normMax_eq (b : Fin 4) (u : Fin 1) :
    val_main_v22 (F := Ideal) a0 a2 a5 (ix2 b u)
      = max (Cert.Spec.poolNorm (Cert.Spec.accx II b) (Cert.Spec.accg II b) (fun d o => (II).Wp o d)) Cert.Spec.eps12 := by
  have h19 : idx_main_v19 (ix2 b u) = ix1 b := funext fun a => Fin.ext (by match a with | ⟨0, _⟩ => rfl)
  have h18 : ∀ k : Fin 128, idx_main_v18 (ix1 b) k = ix2 b k := fun k => funext fun a => Fin.ext (by match a with | ⟨0, _⟩ => rfl | ⟨1, _⟩ => rfl)
  rw [val_main_v22_apply, val_main_v21_apply, val_main_cst_5_apply, val_main_v20_apply, val_main_v19_apply, h19,
    val_main_v18_apply, val_main_cst_4_apply]
  simp only [h18, val_main_v17_apply, raw_eq a0 a1 a2 a3 a4 a5 a6, Ideal.mulf_def, Ideal.maximumf_def, Ideal.hostUnary_sqrt_def,
    Ideal.ofBits_def, Ideal.ofBits_zero_f32, zero_add]
  rfl

/-- Stage %24 is the specification's summary. -/
theorem summary_eq (b : Fin 4) (o : Fin 128) :
    val_main_v24 (F := Ideal) a0 a2 a5 (ix2 b o) = Cert.Spec.summary II b o := by
  have h23 : idx_main_v23 (ix2 b o) = ix2 b (0 : Fin 1) := funext fun a => Fin.ext (by match a with | ⟨0, _⟩ => rfl | ⟨1, _⟩ => rfl)
  rw [val_main_v24_apply, val_main_v23_apply, h23, normMax_eq a0 a1 a2 a3 a4 a5 a6, raw_eq a0 a1 a2 a3 a4 a5 a6]
  simp only [Ideal.hostDivf_def]
  rfl

end Cert.RefValue

end
-- ==== Proof.RefAug.lean ====
/-
  The reference program's two concatenations along the row axis, read at plain coordinates.  Stage %27 puts the
  summary row in front of the 24 cached rows: row 0 is the summary, row l > 0 the cached row l - 1 (the specification's
  bus rows).  Stage %55 puts the summary row behind them: row l < 24 is the cached row l, row 24 the summary (the new cache).
-/
import proofs.«104028_j9234179686589_2_alg».proof.Proof.RefPool
import Idealize.ShloMosaic.Lib.Pipeline.Value

noncomputable section

open scoped BigOperators

namespace Cert.RefValue

open Cert.ReferenceIdeal Cert.ReferenceIdeal.Read Idealize.ShloMosaic Idealize.ShloMosaic.ValueIdx

variable (a0 : (⟨S4x8192x2048, .f32⟩ : BufTy).Contents (Elt Ideal)) (a1 : (⟨S4x24x128, .f32⟩ : BufTy).Contents (Elt Ideal))
  (a2 a3 : (⟨S128x2048, .f32⟩ : BufTy).Contents (Elt Ideal)) (a4 : (⟨S2048x128, .f32⟩ : BufTy).Contents (Elt Ideal))
  (a5 : (⟨S1x2048, .f32⟩ : BufTy).Contents (Elt Ideal)) (a6 : (⟨S1, .f32⟩ : BufTy).Contents (Elt Ideal))

local notation "II" => Cert.Spec.inputsOf a0 a1 a2 a3 a4 a5 a6

/-- Stage %27 is the specification's bus rows. -/
theorem aug_eq (b : Fin 4) (l : Fin 25) (o : Fin 128) :
    val_main_v27 (F := Ideal) a0 a1 a2 a5 (ix3 b l o) = Cert.Spec.aug II b l o := by
  unfold val_main_v27
  by_cases h : l.val = 0
  · rw [Cert.Spec.aug, dif_pos h]
    refine (concatenate_pair_apply_left (t := S4x25x128) (s₁ := S4x1x128) (s₂ := S4x24x128) (1 : Fin S4x25x128.rank) _ _ _ (ix3 b l o) rfl (ix3 b (0 : Fin 1) o) ?_).trans ?_
    · intro c
      match c with
      | ⟨0, _⟩ => rfl
      | ⟨1, _⟩ => exact h.symm
      | ⟨2, _⟩ => rfl
    · have h26 : idx_main_v26 (ix3 b (0 : Fin 1) o) = ix2 b o := funext fun a => Fin.ext (by match a with | ⟨0, _⟩ => rfl | ⟨1, _⟩ => rfl)
      rw [val_main_v26_apply, h26, summary_eq a0 a1 a2 a3 a4 a5 a6]
  · rw [Cert.Spec.aug, dif_neg h]
    have hl : l.val - 1 < 24 := by have := l.isLt; omega
    refine (concatenate_pair_apply_right (t := S4x25x128) (s₁ := S4x1x128) (s₂ := S4x24x128) (1 : Fin S4x25x128.rank) _ _ _ (ix3 b l o) rfl rfl (ix3 b (⟨l.val - 1, hl⟩ : Fin 24) o) ?_ ?_).trans ?_
    · intro c hc
      match c, hc with
      | ⟨0, _⟩, _ => rfl
      | ⟨1, _⟩, hc => exact absurd rfl hc
      | ⟨2, _⟩, _ => rfl
    · show l.val - 1 + 1 = l.val
      omega
    · rfl

/-- Stage %55 is the specification's new cache. -/
theorem newCache_eq (b : Fin 4) (l : Fin 25) (o : Fin 128) :
    val_main_v55 (F := Ideal) a0 a1 a2 a5 (ix3 b l o) = Cert.Spec.newCache II b l o := by
  unfold val_main_v55
  by_cases h : l.val < 24
  · rw [Cert.Spec.newCache, dif_pos h]
    refine (concatenate_pair_apply_left (t := S4x25x128) (s₁ := S4x24x128) (s₂ := S4x1x128) (1 : Fin S4x25x128.rank) _ _ _ (ix3 b l o) rfl (ix3 b (⟨l.val, h⟩ : Fin 24) o) ?_).trans ?_
    · intro c
      match c with
      | ⟨0, _⟩ => rfl
      | ⟨1, _⟩ => rfl
      | ⟨2, _⟩ => rfl
    · rfl
  · rw [Cert.Spec.newCache, dif_neg h]
    refine (concatenate_pair_apply_right (t := S4x25x128) (s₁ := S4x24x128) (s₂ := S4x1x128) (1 : Fin S4x25x128.rank) _ _ _ (ix3 b l o) rfl rfl (ix3 b (0 : Fin 1) o) ?_ ?_).trans ?_
    · intro c hc
      match c, hc with
      | ⟨0, _⟩, _ => rfl
      | ⟨1, _⟩, hc => exact absurd rfl hc
      | ⟨2, _⟩, _ => rfl
    · show 0 + 24 = l.val
      have := l.isLt
      omega
    · have h54 : idx_main_v54 (ix3 b (0 : Fin 1) o) = ix2 b o := funext fun a => Fin.ext (by match a with | ⟨0, _⟩ => rfl | ⟨1, _⟩ => rfl)
      rw [val_main_v54_apply, h54, summary_eq a0 a1 a2 a3 a4 a5 a6]

end Cert.RefValue

end
-- ==== Proof.RefAttn.lean ====
/-
  The reference program's attention over the bus rows (stages %25 … %42), read at plain coordinates, is the
  specification's: the query of a row, its scaled scores against the 25 bus rows, the softmax with the row maximum
  subtracted, and what the row gathers.

  The row maximum is a fold of max from the word of -∞ over the 25 scores, joined once more with that word.  The word
  is ⊥, so the fold is the supremum over the 25 rows.
-/
import proofs.«104028_j9234179686589_2_alg».proof.Proof.RefAug
import Idealize.ShloMosaic.PureOps.Reduce

noncomputable section

open scoped BigOperators

namespace Cert.RefValue

open Cert.ReferenceIdeal Cert.ReferenceIdeal.Gen Cert.ReferenceIdeal.Read Idealize.ShloMosaic Idealize.ShloMosaic.ValueIdx

variable (a0 : (⟨S4x8192x2048, .f32⟩ : BufTy).Contents (Elt Ideal)) (a1 : (⟨S4x24x128, .f32⟩ : BufTy).Contents (Elt Ideal))
  (a2 a3 : (⟨S128x2048, .f32⟩ : BufTy).Contents (Elt Ideal)) (a4 : (⟨S2048x128, .f32⟩ : BufTy).Contents (Elt Ideal))
  (a5 : (⟨S1x2048, .f32⟩ : BufTy).Contents (Elt Ideal)) (a6 : (⟨S1, .f32⟩ : BufTy).Contents (Elt Ideal))

local notation "II" => Cert.Spec.inputsOf a0 a1 a2 a3 a4 a5 a6

/-- The scaled scores of the row (b, s) against the bus rows of batch b, as the specification states them. -/
def scoreRow (b : Fin 4) (s : Fin 8192) : Fin 25 → EReal :=
  Cert.Spec.rowScore ((II).x b s) (fun d o => (II).Wq o d) (Cert.Spec.aug II b)

local notation "SC" => scoreRow a0 a1 a2 a3 a4 a5 a6

/-- Stage %25: the query of a row. -/
theorem q_eq (b : Fin 4) (s : Fin 8192) (o : Fin 128) :
    val_main_v25 (F := Ideal) a0 a3 (ix3 b s o) = Cert.Spec.rowQ ((II).x b s) (fun d o => (II).Wq o d) o := by
  have hl : ∀ k : Fin 2048, lidx_main_v25 (ix3 b s o) k = ix3 b s k := fun k => funext fun a => Fin.ext (by match a with | ⟨0, _⟩ => rfl | ⟨1, _⟩ => rfl | ⟨2, _⟩ => rfl)
  have hr : ∀ k : Fin 2048, ridx_main_v25 (ix3 b s o) k = ix2 o k := fun k => funext fun a => Fin.ext (by match a with | ⟨0, _⟩ => rfl | ⟨1, _⟩ => rfl)
  rw [val_main_v25_apply]
  simp only [hl, hr]
  rfl

/-- Stage %30: the scaled scores. -/
theorem score_eq (b : Fin 4) (s : Fin 8192) (l : Fin 25) :
    val_main_v30 (F := Ideal) a0 a1 a2 a3 a5 (ix3 b s l) = SC b s l := by
  have hl : ∀ k : Fin 128, lidx_main_v28 (ix3 b s l) k = ix3 b s k := fun k => funext fun a => Fin.ext (by match a with | ⟨0, _⟩ => rfl | ⟨1, _⟩ => rfl | ⟨2, _⟩ => rfl)
  have hr : ∀ k : Fin 128, ridx_main_v28 (ix3 b s l) k = ix3 b l k := fun k => funext fun a => Fin.ext (by match a with | ⟨0, _⟩ => rfl | ⟨1, _⟩ => rfl | ⟨2, _⟩ => rfl)
  rw [val_main_v30_apply, val_main_v29_apply, val_main_cst_6_apply, val_main_v28_apply]
  simp only [hl, hr, q_eq a0 a1 a2 a3 a4 a5 a6, aug_eq a0 a1 a2 a3 a4 a5 a6, Ideal.mulf_def, Ideal.ofBits_def]
  rfl

/-- The reduced index (b, s) with the row k put back on the last axis is (b, s, k). -/
private theorem lift_ix3 (h : S4x8192x25.Reduces [2] S4x8192) (b : Fin 4) (s : Fin 8192) (k : Fin (S4x8192x25.size 2)) :
    h.lift (ix2 b s) k = ix3 b s (⟨k.val, k.isLt⟩ : Fin 25) := by
  funext c; apply Fin.ext
  fin_cases c <;> rfl

/-- Stage %31: the fold of max from -∞ over the 25 scores of a row is their supremum. -/
theorem max31_eq (b : Fin 4) (s : Fin 8192) :
    val_main_v31 (F := Ideal) a0 a1 a2 a3 a5 (ix2 b s) = Finset.univ.sup (SC b s) := by
  have hred : S4x8192x25.Reduces [2] S4x8192 := by decide
  unfold val_main_v31
  rw [Host.reduce_eq_fold_single FloatOps.maximumf _ _ reducesTo_S4x8192x25_S4x8192_d2 hred h_S_]
  have hf : (val_main_v30 (F := Ideal) a0 a1 a2 a3 a5 ∘ hred.lift (ix2 b s)) = fun k : Fin 25 => SC b s k :=
    funext fun k => by
      show val_main_v30 (F := Ideal) a0 a1 a2 a3 a5 (hred.lift (ix2 b s) k) = _
      rw [lift_ix3 hred b s k]
      exact score_eq a0 a1 a2 a3 a4 a5 a6 b s _
  have hb : (val_main_cst_7 (F := Ideal)) (Shape.Idx.first h_S_) = (⊥ : EReal) := by
    rw [val_main_cst_7_apply]
    exact ofBits_ninf_f32
  rw [hb]
  exact congrArg (fun f => Finset.fold max (⊥ : EReal) f (Finset.univ : Finset (Fin 25))) hf

/-- Stage %33: the row maximum the softmax subtracts. -/
theorem max_eq (b : Fin 4) (s : Fin 8192) :
    val_main_v33 (F := Ideal) a0 a1 a2 a3 a5 (ix2 b s) = Cert.Spec.rowMax (SC b s) := by
  rw [val_main_v33_apply, val_main_v32_apply, val_main_cst_8_apply, max31_eq a0 a1 a2 a3 a4 a5 a6]
  simp only [Ideal.maximumf_def, Ideal.ofBits_def]
  rfl

/-- Stage %37: the unnormalised weights. -/
theorem exp_eq (b : Fin 4) (s : Fin 8192) (l : Fin 25) :
    val_main_v37 (F := Ideal) a0 a1 a2 a3 a5 (ix3 b s l) = Cert.Spec.rowExp (SC b s) l := by
  have h35 : idx_main_v35 (ix3 b s l) = ix3 b s (0 : Fin 1) := funext fun a => Fin.ext (by match a with | ⟨0, _⟩ => rfl | ⟨1, _⟩ => rfl | ⟨2, _⟩ => rfl)
  have h34 : idx_main_v34 (ix3 b s (0 : Fin 1)) = ix2 b s := funext fun a => Fin.ext (by match a with | ⟨0, _⟩ => rfl | ⟨1, _⟩ => rfl)
  rw [val_main_v37_apply, val_main_v36_apply, val_main_v35_apply, h35, val_main_v34_apply, h34,
    max_eq a0 a1 a2 a3 a4 a5 a6, score_eq a0 a1 a2 a3 a4 a5 a6]
  simp only [Ideal.hostUnary_exp_def, Ideal.subf_def]
  rfl

/-- Stage %38: the softmax's denominator. -/
theorem den_eq (b : Fin 4) (s : Fin 8192) :
    val_main_v38 (F := Ideal) a0 a1 a2 a3 a5 (ix2 b s) = ∑ l : Fin 25, Cert.Spec.rowExp (SC b s) l := by
  have h38 : ∀ k : Fin 25, idx_main_v38 (ix2 b s) k = ix3 b s k := fun k => funext fun a => Fin.ext (by match a with | ⟨0, _⟩ => rfl | ⟨1, _⟩ => rfl | ⟨2, _⟩ => rfl)
  rw [val_main_v38_apply, val_main_cst_9_apply]
  simp only [h38, exp_eq a0 a1 a2 a3 a4 a5 a6, Ideal.ofBits_def, Ideal.ofBits_zero_f32, zero_add]

/-- Stage %41: the softmax weights. -/
theorem attn_eq (b : Fin 4) (s : Fin 8192) (l : Fin 25) :
    val_main_v41 (F := Ideal) a0 a1 a2 a3 a5 (ix3 b s l) = Cert.Spec.rowAttn (SC b s) l := by
  have h40 : idx_main_v40 (ix3 b s l) = ix3 b s (0 : Fin 1) := funext fun a => Fin.ext (by match a with | ⟨0, _⟩ => rfl | ⟨1, _⟩ => rfl | ⟨2, _⟩ => rfl)
  have h39 : idx_main_v39 (ix3 b s (0 : Fin 1)) = ix2 b s := funext fun a => Fin.ext (by match a with | ⟨0, _⟩ => rfl | ⟨1, _⟩ => rfl)
  rw [val_main_v41_apply, val_main_v40_apply, h40, val_main_v39_apply, h39, den_eq a0 a1 a2 a3 a4 a5 a6,
    exp_eq a0 a1 a2 a3 a4 a5 a6]
  simp only [Ideal.hostDivf_def]
  rfl

/-- Stage %42: what the row gathers from the bus. -/
theorem gather_eq (b : Fin 4) (s : Fin 8192) (o : Fin 128) :
    val_main_v42 (F := Ideal) a0 a1 a2 a3 a5 (ix3 b s o)
      = Cert.Spec.rowGather ((II).x b s) (fun d o => (II).Wq o d) (Cert.Spec.aug II b) o := by
  have hl : ∀ k : Fin 25, lidx_main_v42 (ix3 b s o) k = ix3 b s k := fun k => funext fun a => Fin.ext (by match a with | ⟨0, _⟩ => rfl | ⟨1, _⟩ => rfl | ⟨2, _⟩ => rfl)
  have hr : ∀ k : Fin 25, ridx_main_v42 (ix3 b s o) k = ix3 b k o := fun k => funext fun a => Fin.ext (by match a with | ⟨0, _⟩ => rfl | ⟨1, _⟩ => rfl | ⟨2, _⟩ => rfl)
  rw [val_main_v42_apply]
  simp only [hl, hr, attn_eq a0 a1 a2 a3 a4 a5 a6, aug_eq a0 a1 a2 a3 a4 a5 a6]
  rfl

end Cert.RefValue

end
-- ==== Proof.RefValue.lean ====
/-
  The reference program's two results, read index by index, are the specification's `outR` and `newCache`.

  The first result is x(b,s,d) + (Σ_o gathered(b,s,o) · Wm(d,o)) · σ, where σ is the logistic of the gate, spelt by the
  program as 1 / (1 + exp(-t)) and spread over the whole array; the second is the cache followed by the summary row.
-/
import proofs.«104028_j9234179686589_2_alg».proof.Proof.Gen.ReferenceIdeal.Read
import proofs.«104028_j9234179686589_2_alg».proof.Proof.Spec
import proofs.«104028_j9234179686589_2_alg».proof.Proof.RefAttn

noncomputable section

open scoped BigOperators

namespace Cert.RefValue

open Cert.ReferenceIdeal Cert.ReferenceIdeal.Read Idealize.ShloMosaic Idealize.ShloMosaic.ValueIdx

variable (a0 : (⟨S4x8192x2048, .f32⟩ : BufTy).Contents (Elt Ideal)) (a1 : (⟨S4x24x128, .f32⟩ : BufTy).Contents (Elt Ideal))
  (a2 a3 : (⟨S128x2048, .f32⟩ : BufTy).Contents (Elt Ideal)) (a4 : (⟨S2048x128, .f32⟩ : BufTy).Contents (Elt Ideal))
  (a5 : (⟨S1x2048, .f32⟩ : BufTy).Contents (Elt Ideal)) (a6 : (⟨S1, .f32⟩ : BufTy).Contents (Elt Ideal))

local notation "II" => Cert.Spec.inputsOf a0 a1 a2 a3 a4 a5 a6

/-- Stage %51, the gate's logistic spread over the whole array, is σ at every entry. -/
theorem sig_eq (b : Fin 4) (s : Fin 8192) (d : Fin 2048) :
    val_main_v51 (F := Ideal) a6 (ix3 b s d) = Cert.Spec.sig II := by
  have h51 : idx_main_v51 (ix3 b s d) = ix3 (0 : Fin 1) (0 : Fin 1) (0 : Fin 1) := funext fun a => Fin.ext (by match a with | ⟨0, _⟩ => rfl | ⟨1, _⟩ => rfl | ⟨2, _⟩ => rfl)
  have h50 : idx_main_v50 (ix3 (0 : Fin 1) (0 : Fin 1) (0 : Fin 1)) = ix1 (0 : Fin 1) := funext fun a => Fin.ext (by match a with | ⟨0, _⟩ => rfl)
  rw [val_main_v51_apply, h51, val_main_v50_apply, h50, val_main_v49_apply, val_main_v48_apply, val_main_cst_11_apply,
    val_main_v47_apply, val_main_v46_apply, val_main_cst_10_apply, val_main_v45_apply, val_main_v44_apply]
  simp only [Ideal.hostDivf_def, Ideal.addf_def, Ideal.hostUnary_exp_def, Ideal.hostNegf_def, Ideal.negf_def,
    Ideal.ofBits_def, ofBits_one_f32]
  rfl

/-- The first result at (b, s, d). -/
theorem ref_out (b : Fin 4) (s : Fin 8192) (d : Fin 2048) :
    val_main_v53 (F := Ideal) a0 a1 a2 a3 a4 a5 a6 (ix3 b s d) = Cert.Spec.outR II b s d := by
  have hl : ∀ k : Fin 128, lidx_main_v43 (ix3 b s d) k = ix3 b s k := fun k => funext fun a => Fin.ext (by match a with | ⟨0, _⟩ => rfl | ⟨1, _⟩ => rfl | ⟨2, _⟩ => rfl)
  have hr : ∀ k : Fin 128, ridx_main_v43 (ix3 b s d) k = ix2 d k := fun k => funext fun a => Fin.ext (by match a with | ⟨0, _⟩ => rfl | ⟨1, _⟩ => rfl)
  rw [val_main_v53_apply, val_main_v52_apply, sig_eq a0 a1 a2 a3 a4 a5 a6, val_main_v43_apply]
  simp only [hl, hr, gather_eq a0 a1 a2 a3 a4 a5 a6, Ideal.addf_def, Ideal.mulf_def]
  rfl

/-- The second result at (b, l, o). -/
theorem ref_cache (b : Fin 4) (l : Fin 25) (o : Fin 128) :
    val_main_v55 (F := Ideal) a0 a1 a2 a5 (ix3 b l o) = Cert.Spec.newCache II b l o :=
  newCache_eq a0 a1 a2 a3 a4 a5 a6 b l o

/-- The first result as a whole array. -/
theorem ref_out_fun :
    val_main_v53 (F := Ideal) a0 a1 a2 a3 a4 a5 a6 = fun j : S4x8192x2048.Idx => Cert.Spec.outR II (j 0) (j 1) (j 2) :=
  funext fun j => (congrArg (val_main_v53 (F := Ideal) a0 a1 a2 a3 a4 a5 a6) (eq_ix3 j)).trans
    (ref_out a0 a1 a2 a3 a4 a5 a6 (j 0) (j 1) (j 2))

/-- The second result as a whole array. -/
theorem ref_cache_fun :
    val_main_v55 (F := Ideal) a0 a1 a2 a5 = fun j : S4x25x128.Idx => Cert.Spec.newCache II (j 0) (j 1) (j 2) :=
  funext fun j => (congrArg (val_main_v55 (F := Ideal) a0 a1 a2 a5) (eq_ix3 j)).trans
    (ref_cache a0 a1 a2 a3 a4 a5 a6 (j 0) (j 1) (j 2))

end Cert.RefValue

end
-- ==== Proof.LibSumMulNonneg.lean ====
/-
  Multiplication by a nonnegative extended real other than +∞ goes through finite sums.

  On the extended reals multiplication does not distribute over addition in general (the sum +∞ + -∞ is -∞, and a
  factor +∞ or a negative factor can turn the two sides into different infinities).  For a factor `c` with
  `0 ≤ c` and `c ≠ ⊤` it does: `(y + z) * c = y * c + z * c` for all extended reals `y`, `z`.  This file states the
  consequence for a sum over any finite index set, on either side:

    `sum_mul_of_nonneg_of_ne_top` :  Σ_{i ∈ s} f i * c = (Σ_{i ∈ s} f i) * c,
    `mul_sum_of_nonneg_of_ne_top` :  Σ_{i ∈ s} c * f i = c * Σ_{i ∈ s} f i,

  their forms over a whole finite type, and the form with a second factor inside:
    `sum_mul_mul_of_nonneg_of_ne_top` : Σ_i a i * (w i * c) = (Σ_i a i * w i) * c.
  Nothing is assumed of the summands: they may be infinite and of either sign.
-/
import Mathlib.Data.EReal.Inv
import Mathlib.Algebra.BigOperators.Group.Finset.Basic

open scoped BigOperators

namespace Cert.LibSumMulNonneg

variable {ι : Type*}

/-- A nonnegative factor other than +∞ comes out of a finite sum on the right. -/
theorem sum_mul_of_nonneg_of_ne_top {c : EReal} (hc : 0 ≤ c) (hc' : c ≠ ⊤) (s : Finset ι) (f : ι → EReal) :
    ∑ i ∈ s, f i * c = (∑ i ∈ s, f i) * c := by
  classical
  induction s using Finset.induction_on with
  | empty => simp
  | insert a s ha ih =>
    rw [Finset.sum_insert ha, Finset.sum_insert ha, ih, EReal.right_distrib_of_nonneg_of_ne_top hc hc']

/-- A nonnegative factor other than +∞ comes out of a finite sum on the left. -/
theorem mul_sum_of_nonneg_of_ne_top {c : EReal} (hc : 0 ≤ c) (hc' : c ≠ ⊤) (s : Finset ι) (f : ι → EReal) :
    ∑ i ∈ s, c * f i = c * ∑ i ∈ s, f i := by
  classical
  induction s using Finset.induction_on with
  | empty => simp
  | insert a s ha ih =>
    rw [Finset.sum_insert ha, Finset.sum_insert ha, ih, EReal.left_distrib_of_nonneg_of_ne_top hc hc']

/-- The sum over a whole finite type, factor on the right. -/
theorem univ_sum_mul_of_nonneg_of_ne_top [Fintype ι] {c : EReal} (hc : 0 ≤ c) (hc' : c ≠ ⊤) (f : ι → EReal) :
    ∑ i, f i * c = (∑ i, f i) * c :=
  sum_mul_of_nonneg_of_ne_top hc hc' Finset.univ f

/-- The sum over a whole finite type, factor on the left. -/
theorem univ_mul_sum_of_nonneg_of_ne_top [Fintype ι] {c : EReal} (hc : 0 ≤ c) (hc' : c ≠ ⊤) (f : ι → EReal) :
    ∑ i, c * f i = c * ∑ i, f i :=
  mul_sum_of_nonneg_of_ne_top hc hc' Finset.univ f

/-- With a second factor inside: Σ_i a i * (w i * c) = (Σ_i a i * w i) * c. -/
theorem sum_mul_mul_of_nonneg_of_ne_top [Fintype ι] {c : EReal} (hc : 0 ≤ c) (hc' : c ≠ ⊤) (a w : ι → EReal) :
    ∑ i, a i * (w i * c) = (∑ i, a i * w i) * c := by
  rw [← univ_sum_mul_of_nonneg_of_ne_top hc hc']
  exact Finset.sum_congr rfl fun i _ => (mul_assoc (a i) (w i) c).symm

end Cert.LibSumMulNonneg
-- ==== Proof.SpecAlgebra.lean ====
/-
  The one algebraic law between the two arrangements of the first result: the gate's logistic σ may multiply every
  entry of the modulation matrix inside the last sum, or the finished sum.

  σ = logistic (gate) is 0 at -∞, 1 at +∞ and the real number 1 / (1 + e^(-r)) at a real r: in every case
  0 ≤ σ and σ ≠ +∞, and multiplication by such a factor goes through finite sums of extended reals whatever the
  summands are.  Hence Σ_o a(o)·(w(o)·σ) = (Σ_o a(o)·w(o))·σ.
-/
import proofs.«104028_j9234179686589_2_alg».proof.Proof.Spec
import proofs.«104028_j9234179686589_2_alg».proof.Proof.LibSumMulNonneg

noncomputable section

open scoped BigOperators

namespace Cert.Spec

open Idealize.ShloMosaic

/-- The logistic of an extended real is nonnegative. -/
theorem logistic_nonneg (x : EReal) : 0 ≤ Ideal.logistic x := by
  induction x using EReal.rec with
  | bot => rw [Ideal.logistic_bot]
  | coe r =>
    rw [Ideal.logistic_coe]
    have h : (0 : ℝ) ≤ (1 + Real.exp (-r))⁻¹ := by positivity
    exact_mod_cast h
  | top => rw [Ideal.logistic_top]; exact zero_le_one

/-- The logistic of an extended real is never +∞. -/
theorem logistic_ne_top (x : EReal) : Ideal.logistic x ≠ ⊤ := by
  induction x using EReal.rec with
  | bot => rw [Ideal.logistic_bot]; exact EReal.zero_ne_top
  | coe r => rw [Ideal.logistic_coe]; exact EReal.coe_ne_top _
  | top => rw [Ideal.logistic_top, ← EReal.coe_one]; exact EReal.coe_ne_top _

theorem sig_nonneg (I : Inputs) : 0 ≤ sig I := logistic_nonneg _
theorem sig_ne_top (I : Inputs) : sig I ≠ ⊤ := logistic_ne_top _

/-- σ inside the last sum or outside it: the two arrangements of the first result agree. -/
theorem outK_eq_outR (I : Inputs) (b : Fin 4) (s : Fin 8192) (d : Fin 2048) : outK I b s d = outR I b s d := by
  unfold outK outR rowOut
  rw [Cert.LibSumMulNonneg.sum_mul_mul_of_nonneg_of_ne_top (sig_nonneg I) (sig_ne_top I)]

end Cert.Spec

end
-- ==== Proof.lean ====
/-
  The certificate: the three frames, the (empty) idealization ledger, and the equality of the two idealized programs' results.

  Frames.  Each kernel program is three stretches of host operations around two kernel regions; every weakly fair execution
  terminates and the final memory holds every buffer at contents folded from the launch memory, in which no step writes an
  argument.  The reference is host operations only: its generated run.

  Results, at the ideal instance.  Both programs compute, from the same seven arrays, the specification's functions: the
  second result is `newCache` on both sides; the first is `outK` for the kernel program (the gate's logistic σ multiplied into
  the modulation projection before the last contraction) and `outR` for the reference (σ multiplying the finished sum).
  These agree because σ lies in [0, 1] — it is nonnegative and not +∞ — and multiplication by such a number distributes
  over sums of extended reals.  The pooling sums are the same sums regrouped (eight tiles of 1024 positions), which
  needs only commutativity and associativity of addition; no finiteness of the inputs is used.
-/
import proofs.«104028_j9234179686589_2_alg».proof.Defs
import proofs.«104028_j9234179686589_2_alg».proof.Proof.Gen.Kernel
import proofs.«104028_j9234179686589_2_alg».proof.Proof.Gen.KernelIdeal
import proofs.«104028_j9234179686589_2_alg».proof.Proof.Gen.ReferenceIdeal
import proofs.«104028_j9234179686589_2_alg».proof.Proof.Gen.Pre_finite_inputs
import proofs.«104028_j9234179686589_2_alg».proof.Proof.BitsArgsKept
import proofs.«104028_j9234179686589_2_alg».proof.Proof.Bridge
import proofs.«104028_j9234179686589_2_alg».proof.Proof.RefValue
import proofs.«104028_j9234179686589_2_alg».proof.Proof.SpecAlgebra
import Idealize.ShloMosaic.Adequacy
import Idealize.ShloMosaic.Init

set_option maxRecDepth 16384

noncomputable section

namespace Cert.Proof

open Idealize.ShloMosaic Idealize.ShloMosaic.TcCoe Idealize.SL.Sem

/-- The word-level program's frame. -/
theorem frame_k : Cert.frame_Kernel := fun m ρ _ => Cert.Kernel.Hand.frame_all (F := Bits) m ρ

/-- The idealized program's frame. -/
theorem frame_ki : Cert.frame_KernelIdeal := fun m ρ _ => Cert.KernelIdeal.Hand.frame_all (F := Ideal) m ρ

/-- The reference's frame: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

section
open Cert.KernelIdeal Cert.KernelIdeal.Gen Cert.KernelIdeal.Hand

/-- The kernel program's run with both results named. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v18) = (fun j : S4x8192x2048.Idx => Cert.Spec.outK (inputsAt m c) (j 0) (j 1) (j 2))
      ∧ r.2.mem ((c.tc : Thread nD τ).loc main_v20) = (fun j : S4x25x128.Idx => Cert.Spec.newCache (inputsAt m c) (j 0) (j 1) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v18 (by decide))).trans (kernel_out m c),
     (h c _ (mem_uc main_v20 (by decide))).trans (kernel_cache m c),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c)⟩) (run_all (F := Ideal) m ρ)

end

/-- From memories agreeing on the arguments both idealized programs end with the same two results. -/
theorem algebraic : Cert.algebraic_KernelIdeal_ReferenceIdeal := by
  intro m ρ m' ρ' _ hagree
  refine ⟨fun c => fun j => Cert.Spec.outK (Cert.KernelIdeal.Hand.inputsAt m c) (j 0) (j 1) (j 2),
    fun c => fun j => Cert.Spec.newCache (Cert.KernelIdeal.Hand.inputsAt m c) (j 0) (j 1) (j 2), kernel_run m ρ, ?_⟩
  refine (θ_run Cert.ReferenceIdeal.defs _ _).mono (fun r h c => ⟨?_, ?_, (h c).2.2⟩) (Cert.ReferenceIdeal.Value.run (F := Ideal) m' ρ')
  · rw [(h c).1, Cert.ReferenceIdeal.Read.val_main_v53_eq, Cert.RefValue.ref_out_fun,
      (hagree c).1, (hagree c).2.1, (hagree c).2.2.1, (hagree c).2.2.2.1, (hagree c).2.2.2.2.1, (hagree c).2.2.2.2.2.1, (hagree c).2.2.2.2.2.2]
    funext j
    exact (Cert.Spec.outK_eq_outR _ _ _ _).symm
  · rw [(h c).2.1, Cert.ReferenceIdeal.Read.val_main_v55_eq,
      Cert.RefValue.ref_cache_fun _ _ _ (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) _ (m' ((c.tc : Thread Cert.ReferenceIdeal.nD Cert.ReferenceIdeal.τ).loc Cert.ReferenceIdeal.main_arg6)),
      (hagree c).1, (hagree c).2.1, (hagree c).2.2.1, (hagree c).2.2.2.1, (hagree c).2.2.2.2.1, (hagree c).2.2.2.2.2.1, (hagree c).2.2.2.2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
